-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x192x224x224 : Shape := ⟨4, ![8, 192, 224, 224]⟩
abbrev S192 : Shape := ⟨1, ![192]⟩
abbrev S_ : Shape := ⟨0, ![]⟩

class Facts : Prop where
  bcast_S_S8x192x224x224 : S_.BroadcastsInDim S8x192x224x224 (![] : Fin 0 → Fin S8x192x224x224.rank)
  reducesTo_S8x192x224x224_S_d0_1_2_3 : S8x192x224x224.ReducesTo [0, 1, 2, 3] S_
  h_S_ : 0 < S_.numel
  bcast_S_S192 : S_.BroadcastsInDim S192 (![] : Fin 0 → Fin S192.rank)
  reducesTo_S192_S_d0 : S192.ReducesTo [0] S_

variable [Facts]

def fn {F : FTy → Type} [FloatOps F] (main_arg0 : FVec F S8x192x224x224 .f32) (main_arg1 : IVec S192 32) : IVec S_ 1 :=
  let main_v0 : FVec F S8x192x224x224 .f32 := Host.absf main_arg0
  let main_cst : FVec F S_ .f32 := constant S_ .f32 0x7F800000#32
  let main_v1 : FVec F S8x192x224x224 .f32 := broadcastInDim S8x192x224x224 ![] bcast_S_S8x192x224x224 main_cst
  let main_v2 : IVec S8x192x224x224 1 := cmpf .olt main_v0 main_v1
  let main_c : IVec S_ 1 := constantI S_ 1 1#1
  let main_v3 : IVec S_ 1 := (fun x v => Host.reduce IntOp.andi x v reducesTo_S8x192x224x224_S_d0_1_2_3 h_S_) main_v2 main_c
  let main_c_0 : IVec S_ 32 := constantI S_ 32 0#32
  let main_v4 : IVec S192 32 := broadcastInDim S192 ![] bcast_S_S192 main_c_0
  let main_v5 : IVec S192 1 := cmpi .sge main_arg1 main_v4
  let main_c_1 : IVec S_ 32 := constantI S_ 32 191#32
  let main_v6 : IVec S192 32 := broadcastInDim S192 ![] bcast_S_S192 main_c_1
  let main_v7 : IVec S192 1 := cmpi .sle main_arg1 main_v6
  let main_v8 : IVec S192 1 := andi main_v5 main_v7
  let main_c_2 : IVec S_ 1 := constantI S_ 1 1#1
  let main_v9 : IVec S_ 1 := (fun x v => Host.reduce IntOp.andi x v reducesTo_S192_S_d0 h_S_) main_v8 main_c_2
  let main_v10 : IVec S_ 1 := andi main_v3 main_v9
  main_v10
-- ==== Kernel.lean ====
abbrev S8x192x224x224 : Shape := ⟨4, ![8, 192, 224, 224]⟩
abbrev S192 : Shape := ⟨1, ![192]⟩
abbrev S1536x224x224 : Shape := ⟨3, ![1536, 224, 224]⟩
abbrev S8 : Shape := ⟨1, ![8]⟩
abbrev S8x1 : Shape := ⟨2, ![8, 1]⟩
abbrev S_ : Shape := ⟨0, ![]⟩
abbrev S1x192 : Shape := ⟨2, ![1, 192]⟩
abbrev S8x192 : Shape := ⟨2, ![8, 192]⟩
abbrev S1536 : Shape := ⟨1, ![1536]⟩
abbrev S48 : Shape := ⟨1, ![48]⟩
abbrev S16x2x1x224x224 : Shape := ⟨5, ![16, 2, 1, 224, 224]⟩
abbrev S16 : Shape := ⟨1, ![16]⟩
abbrev S1 : Shape := ⟨1, ![1]⟩
abbrev S1x1x1x224x224 : Shape := ⟨5, ![1, 1, 1, 224, 224]⟩
abbrev S1x224x224 : Shape := ⟨3, ![1, 224, 224]⟩

abbrev nBuf : Table → Nat
  | .hbm => 15
  | .shared => 1
  | .local .scVector .vmem => 1
  | _ => 0

abbrev bufTy : (tb : Table) → Fin (nBuf tb) → BufTy
  | .hbm, ⟨0, _⟩ => ⟨S8x192x224x224, .f32⟩
  | .hbm, ⟨1, _⟩ => ⟨S192, .i32⟩
  | .hbm, ⟨2, _⟩ => ⟨S1536x224x224, .f32⟩
  | .hbm, ⟨3, _⟩ => ⟨S8, .i32⟩
  | .hbm, ⟨4, _⟩ => ⟨S8x1, .i32⟩
  | .hbm, ⟨5, _⟩ => ⟨S_, .i32⟩
  | .hbm, ⟨6, _⟩ => ⟨S8x1, .i32⟩
  | .hbm, ⟨7, _⟩ => ⟨S8x1, .i32⟩
  | .hbm, ⟨8, _⟩ => ⟨S1x192, .i32⟩
  | .hbm, ⟨9, _⟩ => ⟨S8x192, .i32⟩
  | .hbm, ⟨10, _⟩ => ⟨S8x192, .i32⟩
  | .hbm, ⟨11, _⟩ => ⟨S8x192, .i32⟩
  | .hbm, ⟨12, _⟩ => ⟨S1536, .i32⟩
  | .hbm, ⟨13, _⟩ => ⟨S1536x224x224, .f32⟩
  | .hbm, ⟨14, _⟩ => ⟨S8x192x224x224, .f32⟩
  | .shared, ⟨0, _⟩ => ⟨S16x2x1x224x224, .f32⟩
  | .local .scVector .vmem, ⟨0, _⟩ => ⟨S48, .i32⟩
  | _, _ => ⟨S8x192x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_v9_scv : Ref sig .scVector := ⟨.hbm, 12, rfl⟩
abbrev main_v10_scv : Ref sig .scVector := ⟨.hbm, 13, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  ![v2.toNat]
def k0_off2 (i : grid0.Coords) : Fin 5 → Nat :=
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, 0, 0, 0, 0]
def k0_off3 (v6 : BitVec 32) : Fin 3 → Nat :=
  let c0_i32_3 : BitVec 32 := 0#32
  let c0_i32_4 : BitVec 32 := 0#32
  ![v6.toNat, 0, 0]

def k0_chk1 (v6 : BitVec 32) : Prop :=
  (∀ a, (k0_off3 v6) a + S1x224x224.size a ≤ S1536x224x224.size a)
instance k0_chk1.dec : ∀ (v6 : BitVec 32), Decidable (k0_chk1 v6) := fun v6 => decidable_of_iff' _ (Iff.of_eq (k0_chk1.eq_1 v6))
theorem k0_off3_inb : ∀ (v6 : BitVec 32) (k0_hw1 : k0_chk1 v6), ∀ a, (k0_off3 v6) a + S1x224x224.size a ≤ S1536x224x224.size a := fun v6 k0_hw1 => k0_hw1

def k0_off4 (i : grid0.Coords) : Fin 5 → Nat :=
  let arg1 : BitVec 32 := BitVec.ofNat 32 (i 1).val
  let c1_i32 : BitVec 32 := 1#32
  let c0_i32_6 : BitVec 32 := 0#32
  let c0_i32_7 : BitVec 32 := 0#32
  let c0_i32_8 : BitVec 32 := 0#32
  ![arg1.toNat, 1, 0, 0, 0]
def k0_off5 (v13 : BitVec 32) : Fin 3 → Nat :=
  let c0_i32_9 : BitVec 32 := 0#32
  let c0_i32_10 : BitVec 32 := 0#32
  ![v13.toNat, 0, 0]

def k0_chk2 (v13 : BitVec 32) : Prop :=
  (∀ a, (k0_off5 v13) a + S1x224x224.size a ≤ S1536x224x224.size a)
instance k0_chk2.dec : ∀ (v13 : BitVec 32), Decidable (k0_chk2 v13) := fun v13 => decidable_of_iff' _ (Iff.of_eq (k0_chk2.eq_1 v13))
theorem k0_off5_inb : ∀ (v13 : BitVec 32) (k0_hw2 : k0_chk2 v13), ∀ a, (k0_off5 v13) a + S1x224x224.size a ≤ S1536x224x224.size a := fun v13 k0_hw2 => k0_hw2

def k0_off6 (i : grid0.Coords) : Fin 5 → Nat :=
  let arg1 : BitVec 32 := BitVec.ofNat 32 (i 1).val
  let c0_i32_11 : BitVec 32 := 0#32
  let c0_i32_12 : BitVec 32 := 0#32
  let c0_i32_13 : BitVec 32 := 0#32
  let c0_i32_14 : BitVec 32 := 0#32
  ![arg1.toNat, 0, 0, 0, 0]
def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_18 : BitVec 32 := 0#32
  let v20 : BitVec 32 := Scalar.addi v2 c0_i32_18
  let c0_i32_20 : BitVec 32 := 0#32
  let c0_i32_21 : BitVec 32 := 0#32
  ![v20.toNat, 0, 0]
def k0_off8 (v31 : BitVec 32) : Fin 3 → Nat :=
  let c0_i32_37 : BitVec 32 := 0#32
  let c0_i32_38 : BitVec 32 := 0#32
  ![v31.toNat, 0, 0]

def k0_chk3 (v31 : BitVec 32) : Prop :=
  (∀ a, (k0_off8 v31) a + S1x224x224.size a ≤ S1536x224x224.size a)
instance k0_chk3.dec : ∀ (v31 : BitVec 32), Decidable (k0_chk3 v31) := fun v31 => decidable_of_iff' _ (Iff.of_eq (k0_chk3.eq_1 v31))
theorem k0_off8_inb : ∀ (v31 : BitVec 32) (k0_hw3 : k0_chk3 v31), ∀ a, (k0_off8 v31) a + S1x224x224.size a ≤ S1536x224x224.size a := fun v31 k0_hw3 => k0_hw3

def k0_off9 (i : grid0.Coords) : Fin 5 → Nat :=
  let arg1 : BitVec 32 := BitVec.ofNat 32 (i 1).val
  let c1_i32_39 : BitVec 32 := 1#32
  let c0_i32_40 : BitVec 32 := 0#32
  let c0_i32_41 : BitVec 32 := 0#32
  let c0_i32_42 : BitVec 32 := 0#32
  ![arg1.toNat, 1, 0, 0, 0]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c1_i32_46 : BitVec 32 := 1#32
  let v38 : BitVec 32 := Scalar.addi v2 c1_i32_46
  let c0_i32_48 : BitVec 32 := 0#32
  let c0_i32_49 : BitVec 32 := 0#32
  ![v38.toNat, 0, 0]
def k0_off11 (v49 : BitVec 32) : Fin 3 → Nat :=
  let c0_i32_65 : BitVec 32 := 0#32
  let c0_i32_66 : BitVec 32 := 0#32
  ![v49.toNat, 0, 0]

def k0_chk4 (v49 : BitVec 32) : Prop :=
  (∀ a, (k0_off11 v49) a + S1x224x224.size a ≤ S1536x224x224.size a)
instance k0_chk4.dec : ∀ (v49 : BitVec 32), Decidable (k0_chk4 v49) := fun v49 => decidable_of_iff' _ (Iff.of_eq (k0_chk4.eq_1 v49))
theorem k0_off11_inb : ∀ (v49 : BitVec 32) (k0_hw4 : k0_chk4 v49), ∀ a, (k0_off11 v49) a + S1x224x224.size a ≤ S1536x224x224.size a := fun v49 k0_hw4 => k0_hw4

def k0_off12 (i : grid0.Coords) : Fin 5 → Nat :=
  let arg1 : BitVec 32 := BitVec.ofNat 32 (i 1).val
  let c0_i32_67 : BitVec 32 := 0#32
  let c0_i32_68 : BitVec 32 := 0#32
  let c0_i32_69 : BitVec 32 := 0#32
  let c0_i32_70 : BitVec 32 := 0#32
  ![arg1.toNat, 0, 0, 0, 0]
def k0_off13 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c2_i32_74 : BitVec 32 := 2#32
  let v56 : BitVec 32 := Scalar.addi v2 c2_i32_74
  let c0_i32_76 : BitVec 32 := 0#32
  let c0_i32_77 : BitVec 32 := 0#32
  ![v56.toNat, 0, 0]
def k0_off14 (v67 : BitVec 32) : Fin 3 → Nat :=
  let c0_i32_93 : BitVec 32 := 0#32
  let c0_i32_94 : BitVec 32 := 0#32
  ![v67.toNat, 0, 0]

def k0_chk5 (v67 : BitVec 32) : Prop :=
  (∀ a, (k0_off14 v67) a + S1x224x224.size a ≤ S1536x224x224.size a)
instance k0_chk5.dec : ∀ (v67 : BitVec 32), Decidable (k0_chk5 v67) := fun v67 => decidable_of_iff' _ (Iff.of_eq (k0_chk5.eq_1 v67))
theorem k0_off14_inb : ∀ (v67 : BitVec 32) (k0_hw5 : k0_chk5 v67), ∀ a, (k0_off14 v67) a + S1x224x224.size a ≤ S1536x224x224.size a := fun v67 k0_hw5 => k0_hw5

def k0_off15 (i : grid0.Coords) : Fin 5 → Nat :=
  let arg1 : BitVec 32 := BitVec.ofNat 32 (i 1).val
  let c1_i32_95 : BitVec 32 := 1#32
  let c0_i32_96 : BitVec 32 := 0#32
  let c0_i32_97 : BitVec 32 := 0#32
  let c0_i32_98 : BitVec 32 := 0#32
  ![arg1.toNat, 1, 0, 0, 0]
def k0_off16 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c3_i32 : BitVec 32 := 3#32
  let v74 : BitVec 32 := Scalar.addi v2 c3_i32
  let c0_i32_103 : BitVec 32 := 0#32
  let c0_i32_104 : BitVec 32 := 0#32
  ![v74.toNat, 0, 0]
def k0_off17 (v85 : BitVec 32) : Fin 3 → Nat :=
  let c0_i32_120 : BitVec 32 := 0#32
  let c0_i32_121 : BitVec 32 := 0#32
  ![v85.toNat, 0, 0]

def k0_chk6 (v85 : BitVec 32) : Prop :=
  (∀ a, (k0_off17 v85) a + S1x224x224.size a ≤ S1536x224x224.size a)
instance k0_chk6.dec : ∀ (v85 : BitVec 32), Decidable (k0_chk6 v85) := fun v85 => decidable_of_iff' _ (Iff.of_eq (k0_chk6.eq_1 v85))
theorem k0_off17_inb : ∀ (v85 : BitVec 32) (k0_hw6 : k0_chk6 v85), ∀ a, (k0_off17 v85) a + S1x224x224.size a ≤ S1536x224x224.size a := fun v85 k0_hw6 => k0_hw6

def k0_off18 (i : grid0.Coords) : Fin 5 → Nat :=
  let arg1 : BitVec 32 := BitVec.ofNat 32 (i 1).val
  let c0_i32_122 : BitVec 32 := 0#32
  let c0_i32_123 : BitVec 32 := 0#32
  let c0_i32_124 : BitVec 32 := 0#32
  let c0_i32_125 : BitVec 32 := 0#32
  ![arg1.toNat, 0, 0, 0, 0]
def k0_off19 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c4_i32 : BitVec 32 := 4#32
  let v92 : BitVec 32 := Scalar.addi v2 c4_i32
  let c0_i32_130 : BitVec 32 := 0#32
  let c0_i32_131 : BitVec 32 := 0#32
  ![v92.toNat, 0, 0]
def k0_off20 (v103 : BitVec 32) : Fin 3 → Nat :=
  let c0_i32_147 : BitVec 32 := 0#32
  let c0_i32_148 : BitVec 32 := 0#32
  ![v103.toNat, 0, 0]

def k0_chk7 (v103 : BitVec 32) : Prop :=
  (∀ a, (k0_off20 v103) a + S1x224x224.size a ≤ S1536x224x224.size a)
instance k0_chk7.dec : ∀ (v103 : BitVec 32), Decidable (k0_chk7 v103) := fun v103 => decidable_of_iff' _ (Iff.of_eq (k0_chk7.eq_1 v103))
theorem k0_off20_inb : ∀ (v103 : BitVec 32) (k0_hw7 : k0_chk7 v103), ∀ a, (k0_off20 v103) a + S1x224x224.size a ≤ S1536x224x224.size a := fun v103 k0_hw7 => k0_hw7

def k0_off21 (i : grid0.Coords) : Fin 5 → Nat :=
  let arg1 : BitVec 32 := BitVec.ofNat 32 (i 1).val
  let c1_i32_149 : BitVec 32 := 1#32
  let c0_i32_150 : BitVec 32 := 0#32
  let c0_i32_151 : BitVec 32 := 0#32
  let c0_i32_152 : BitVec 32 := 0#32
  ![arg1.toNat, 1, 0, 0, 0]
def k0_off22 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c5_i32 : BitVec 32 := 5#32
  let v110 : BitVec 32 := Scalar.addi v2 c5_i32
  let c0_i32_157 : BitVec 32 := 0#32
  let c0_i32_158 : BitVec 32 := 0#32
  ![v110.toNat, 0, 0]
def k0_off23 (v121 : BitVec 32) : Fin 3 → Nat :=
  let c0_i32_174 : BitVec 32 := 0#32
  let c0_i32_175 : BitVec 32 := 0#32
  ![v121.toNat, 0, 0]

def k0_chk8 (v121 : BitVec 32) : Prop :=
  (∀ a, (k0_off23 v121) a + S1x224x224.size a ≤ S1536x224x224.size a)
instance k0_chk8.dec : ∀ (v121 : BitVec 32), Decidable (k0_chk8 v121) := fun v121 => decidable_of_iff' _ (Iff.of_eq (k0_chk8.eq_1 v121))
theorem k0_off23_inb : ∀ (v121 : BitVec 32) (k0_hw8 : k0_chk8 v121), ∀ a, (k0_off23 v121) a + S1x224x224.size a ≤ S1536x224x224.size a := fun v121 k0_hw8 => k0_hw8

def k0_off24 (i : grid0.Coords) : Fin 5 → Nat :=
  let arg1 : BitVec 32 := BitVec.ofNat 32 (i 1).val
  let c0_i32_176 : BitVec 32 := 0#32
  let c0_i32_177 : BitVec 32 := 0#32
  let c0_i32_178 : BitVec 32 := 0#32
  let c0_i32_179 : BitVec 32 := 0#32
  ![arg1.toNat, 0, 0, 0, 0]
def k0_off25 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c6_i32 : BitVec 32 := 6#32
  let v128 : BitVec 32 := Scalar.addi v2 c6_i32
  let c0_i32_184 : BitVec 32 := 0#32
  let c0_i32_185 : BitVec 32 := 0#32
  ![v128.toNat, 0, 0]
def k0_off26 (v139 : BitVec 32) : Fin 3 → Nat :=
  let c0_i32_201 : BitVec 32 := 0#32
  let c0_i32_202 : BitVec 32 := 0#32
  ![v139.toNat, 0, 0]

def k0_chk9 (v139 : BitVec 32) : Prop :=
  (∀ a, (k0_off26 v139) a + S1x224x224.size a ≤ S1536x224x224.size a)
instance k0_chk9.dec : ∀ (v139 : BitVec 32), Decidable (k0_chk9 v139) := fun v139 => decidable_of_iff' _ (Iff.of_eq (k0_chk9.eq_1 v139))
theorem k0_off26_inb : ∀ (v139 : BitVec 32) (k0_hw9 : k0_chk9 v139), ∀ a, (k0_off26 v139) a + S1x224x224.size a ≤ S1536x224x224.size a := fun v139 k0_hw9 => k0_hw9

def k0_off27 (i : grid0.Coords) : Fin 5 → Nat :=
  let arg1 : BitVec 32 := BitVec.ofNat 32 (i 1).val
  let c1_i32_203 : BitVec 32 := 1#32
  let c0_i32_204 : BitVec 32 := 0#32
  let c0_i32_205 : BitVec 32 := 0#32
  let c0_i32_206 : BitVec 32 := 0#32
  ![arg1.toNat, 1, 0, 0, 0]
def k0_off28 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c7_i32 : BitVec 32 := 7#32
  let v146 : BitVec 32 := Scalar.addi v2 c7_i32
  let c0_i32_211 : BitVec 32 := 0#32
  let c0_i32_212 : BitVec 32 := 0#32
  ![v146.toNat, 0, 0]
def k0_off29 (v157 : BitVec 32) : Fin 3 → Nat :=
  let c0_i32_228 : BitVec 32 := 0#32
  let c0_i32_229 : BitVec 32 := 0#32
  ![v157.toNat, 0, 0]

def k0_chk10 (v157 : BitVec 32) : Prop :=
  (∀ a, (k0_off29 v157) a + S1x224x224.size a ≤ S1536x224x224.size a)
instance k0_chk10.dec : ∀ (v157 : BitVec 32), Decidable (k0_chk10 v157) := fun v157 => decidable_of_iff' _ (Iff.of_eq (k0_chk10.eq_1 v157))
theorem k0_off29_inb : ∀ (v157 : BitVec 32) (k0_hw10 : k0_chk10 v157), ∀ a, (k0_off29 v157) a + S1x224x224.size a ≤ S1536x224x224.size a := fun v157 k0_hw10 => k0_hw10

def k0_off30 (i : grid0.Coords) : Fin 5 → Nat :=
  let arg1 : BitVec 32 := BitVec.ofNat 32 (i 1).val
  let c0_i32_230 : BitVec 32 := 0#32
  let c0_i32_231 : BitVec 32 := 0#32
  let c0_i32_232 : BitVec 32 := 0#32
  let c0_i32_233 : BitVec 32 := 0#32
  ![arg1.toNat, 0, 0, 0, 0]
def k0_off31 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c8_i32 : BitVec 32 := 8#32
  let v164 : BitVec 32 := Scalar.addi v2 c8_i32
  let c0_i32_238 : BitVec 32 := 0#32
  let c0_i32_239 : BitVec 32 := 0#32
  ![v164.toNat, 0, 0]
def k0_off32 (v175 : BitVec 32) : Fin 3 → Nat :=
  let c0_i32_255 : BitVec 32 := 0#32
  let c0_i32_256 : BitVec 32 := 0#32
  ![v175.toNat, 0, 0]

def k0_chk11 (v175 : BitVec 32) : Prop :=
  (∀ a, (k0_off32 v175) a + S1x224x224.size a ≤ S1536x224x224.size a)
instance k0_chk11.dec : ∀ (v175 : BitVec 32), Decidable (k0_chk11 v175) := fun v175 => decidable_of_iff' _ (Iff.of_eq (k0_chk11.eq_1 v175))
theorem k0_off32_inb : ∀ (v175 : BitVec 32) (k0_hw11 : k0_chk11 v175), ∀ a, (k0_off32 v175) a + S1x224x224.size a ≤ S1536x224x224.size a := fun v175 k0_hw11 => k0_hw11

def k0_off33 (i : grid0.Coords) : Fin 5 → Nat :=
  let arg1 : BitVec 32 := BitVec.ofNat 32 (i 1).val
  let c1_i32_257 : BitVec 32 := 1#32
  let c0_i32_258 : BitVec 32 := 0#32
  let c0_i32_259 : BitVec 32 := 0#32
  let c0_i32_260 : BitVec 32 := 0#32
  ![arg1.toNat, 1, 0, 0, 0]
def k0_off34 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c9_i32 : BitVec 32 := 9#32
  let v182 : BitVec 32 := Scalar.addi v2 c9_i32
  let c0_i32_265 : BitVec 32 := 0#32
  let c0_i32_266 : BitVec 32 := 0#32
  ![v182.toNat, 0, 0]
def k0_off35 (v193 : BitVec 32) : Fin 3 → Nat :=
  let c0_i32_282 : BitVec 32 := 0#32
  let c0_i32_283 : BitVec 32 := 0#32
  ![v193.toNat, 0, 0]

def k0_chk12 (v193 : BitVec 32) : Prop :=
  (∀ a, (k0_off35 v193) a + S1x224x224.size a ≤ S1536x224x224.size a)
instance k0_chk12.dec : ∀ (v193 : BitVec 32), Decidable (k0_chk12 v193) := fun v193 => decidable_of_iff' _ (Iff.of_eq (k0_chk12.eq_1 v193))
theorem k0_off35_inb : ∀ (v193 : BitVec 32) (k0_hw12 : k0_chk12 v193), ∀ a, (k0_off35 v193) a + S1x224x224.size a ≤ S1536x224x224.size a := fun v193 k0_hw12 => k0_hw12

def k0_off36 (i : grid0.Coords) : Fin 5 → Nat :=
  let arg1 : BitVec 32 := BitVec.ofNat 32 (i 1).val
  let c0_i32_284 : BitVec 32 := 0#32
  let c0_i32_285 : BitVec 32 := 0#32
  let c0_i32_286 : BitVec 32 := 0#32
  let c0_i32_287 : BitVec 32 := 0#32
  ![arg1.toNat, 0, 0, 0, 0]
def k0_off37 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c10_i32 : BitVec 32 := 10#32
  let v200 : BitVec 32 := Scalar.addi v2 c10_i32
  let c0_i32_292 : BitVec 32 := 0#32
  let c0_i32_293 : BitVec 32 := 0#32
  ![v200.toNat, 0, 0]
def k0_off38 (v211 : BitVec 32) : Fin 3 → Nat :=
  let c0_i32_309 : BitVec 32 := 0#32
  let c0_i32_310 : BitVec 32 := 0#32
  ![v211.toNat, 0, 0]

def k0_chk13 (v211 : BitVec 32) : Prop :=
  (∀ a, (k0_off38 v211) a + S1x224x224.size a ≤ S1536x224x224.size a)
instance k0_chk13.dec : ∀ (v211 : BitVec 32), Decidable (k0_chk13 v211) := fun v211 => decidable_of_iff' _ (Iff.of_eq (k0_chk13.eq_1 v211))
theorem k0_off38_inb : ∀ (v211 : BitVec 32) (k0_hw13 : k0_chk13 v211), ∀ a, (k0_off38 v211) a + S1x224x224.size a ≤ S1536x224x224.size a := fun v211 k0_hw13 => k0_hw13

def k0_off39 (i : grid0.Coords) : Fin 5 → Nat :=
  let arg1 : BitVec 32 := BitVec.ofNat 32 (i 1).val
  let c1_i32_311 : BitVec 32 := 1#32
  let c0_i32_312 : BitVec 32 := 0#32
  let c0_i32_313 : BitVec 32 := 0#32
  let c0_i32_314 : BitVec 32 := 0#32
  ![arg1.toNat, 1, 0, 0, 0]
def k0_off40 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c11_i32 : BitVec 32 := 11#32
  let v218 : BitVec 32 := Scalar.addi v2 c11_i32
  let c0_i32_319 : BitVec 32 := 0#32
  let c0_i32_320 : BitVec 32 := 0#32
  ![v218.toNat, 0, 0]
def k0_off41 (v229 : BitVec 32) : Fin 3 → Nat :=
  let c0_i32_336 : BitVec 32 := 0#32
  let c0_i32_337 : BitVec 32 := 0#32
  ![v229.toNat, 0, 0]

def k0_chk14 (v229 : BitVec 32) : Prop :=
  (∀ a, (k0_off41 v229) a + S1x224x224.size a ≤ S1536x224x224.size a)
instance k0_chk14.dec : ∀ (v229 : BitVec 32), Decidable (k0_chk14 v229) := fun v229 => decidable_of_iff' _ (Iff.of_eq (k0_chk14.eq_1 v229))
theorem k0_off41_inb : ∀ (v229 : BitVec 32) (k0_hw14 : k0_chk14 v229), ∀ a, (k0_off41 v229) a + S1x224x224.size a ≤ S1536x224x224.size a := fun v229 k0_hw14 => k0_hw14

def k0_off42 (i : grid0.Coords) : Fin 5 → Nat :=
  let arg1 : BitVec 32 := BitVec.ofNat 32 (i 1).val
  let c0_i32_338 : BitVec 32 := 0#32
  let c0_i32_339 : BitVec 32 := 0#32
  let c0_i32_340 : BitVec 32 := 0#32
  let c0_i32_341 : BitVec 32 := 0#32
  ![arg1.toNat, 0, 0, 0, 0]
def k0_off43 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c12_i32 : BitVec 32 := 12#32
  let v236 : BitVec 32 := Scalar.addi v2 c12_i32
  let c0_i32_346 : BitVec 32 := 0#32
  let c0_i32_347 : BitVec 32 := 0#32
  ![v236.toNat, 0, 0]
def k0_off44 (v247 : BitVec 32) : Fin 3 → Nat :=
  let c0_i32_363 : BitVec 32 := 0#32
  let c0_i32_364 : BitVec 32 := 0#32
  ![v247.toNat, 0, 0]

def k0_chk15 (v247 : BitVec 32) : Prop :=
  (∀ a, (k0_off44 v247) a + S1x224x224.size a ≤ S1536x224x224.size a)
instance k0_chk15.dec : ∀ (v247 : BitVec 32), Decidable (k0_chk15 v247) := fun v247 => decidable_of_iff' _ (Iff.of_eq (k0_chk15.eq_1 v247))
theorem k0_off44_inb : ∀ (v247 : BitVec 32) (k0_hw15 : k0_chk15 v247), ∀ a, (k0_off44 v247) a + S1x224x224.size a ≤ S1536x224x224.size a := fun v247 k0_hw15 => k0_hw15

def k0_off45 (i : grid0.Coords) : Fin 5 → Nat :=
  let arg1 : BitVec 32 := BitVec.ofNat 32 (i 1).val
  let c1_i32_365 : BitVec 32 := 1#32
  let c0_i32_366 : BitVec 32 := 0#32
  let c0_i32_367 : BitVec 32 := 0#32
  let c0_i32_368 : BitVec 32 := 0#32
  ![arg1.toNat, 1, 0, 0, 0]
def k0_off46 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c13_i32 : BitVec 32 := 13#32
  let v254 : BitVec 32 := Scalar.addi v2 c13_i32
  let c0_i32_373 : BitVec 32 := 0#32
  let c0_i32_374 : BitVec 32 := 0#32
  ![v254.toNat, 0, 0]
def k0_off47 (v265 : BitVec 32) : Fin 3 → Nat :=
  let c0_i32_390 : BitVec 32 := 0#32
  let c0_i32_391 : BitVec 32 := 0#32
  ![v265.toNat, 0, 0]

def k0_chk16 (v265 : BitVec 32) : Prop :=
  (∀ a, (k0_off47 v265) a + S1x224x224.size a ≤ S1536x224x224.size a)
instance k0_chk16.dec : ∀ (v265 : BitVec 32), Decidable (k0_chk16 v265) := fun v265 => decidable_of_iff' _ (Iff.of_eq (k0_chk16.eq_1 v265))
theorem k0_off47_inb : ∀ (v265 : BitVec 32) (k0_hw16 : k0_chk16 v265), ∀ a, (k0_off47 v265) a + S1x224x224.size a ≤ S1536x224x224.size a := fun v265 k0_hw16 => k0_hw16

def k0_off48 (i : grid0.Coords) : Fin 5 → Nat :=
  let arg1 : BitVec 32 := BitVec.ofNat 32 (i 1).val
  let c0_i32_392 : BitVec 32 := 0#32
  let c0_i32_393 : BitVec 32 := 0#32
  let c0_i32_394 : BitVec 32 := 0#32
  let c0_i32_395 : BitVec 32 := 0#32
  ![arg1.toNat, 0, 0, 0, 0]
def k0_off49 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c14_i32 : BitVec 32 := 14#32
  let v272 : BitVec 32 := Scalar.addi v2 c14_i32
  let c0_i32_400 : BitVec 32 := 0#32
  let c0_i32_401 : BitVec 32 := 0#32
  ![v272.toNat, 0, 0]
def k0_off50 (v283 : BitVec 32) : Fin 3 → Nat :=
  let c0_i32_416 : BitVec 32 := 0#32
  let c0_i32_417 : BitVec 32 := 0#32
  ![v283.toNat, 0, 0]

def k0_chk17 (v283 : BitVec 32) : Prop :=
  (∀ a, (k0_off50 v283) a + S1x224x224.size a ≤ S1536x224x224.size a)
instance k0_chk17.dec : ∀ (v283 : BitVec 32), Decidable (k0_chk17 v283) := fun v283 => decidable_of_iff' _ (Iff.of_eq (k0_chk17.eq_1 v283))
theorem k0_off50_inb : ∀ (v283 : BitVec 32) (k0_hw17 : k0_chk17 v283), ∀ a, (k0_off50 v283) a + S1x224x224.size a ≤ S1536x224x224.size a := fun v283 k0_hw17 => k0_hw17

def k0_off51 (i : grid0.Coords) : Fin 5 → Nat :=
  let arg1 : BitVec 32 := BitVec.ofNat 32 (i 1).val
  let c1_i32_418 : BitVec 32 := 1#32
  let c0_i32_419 : BitVec 32 := 0#32
  let c0_i32_420 : BitVec 32 := 0#32
  let c0_i32_421 : BitVec 32 := 0#32
  ![arg1.toNat, 1, 0, 0, 0]
def k0_off52 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c15_i32 : BitVec 32 := 15#32
  let v290 : BitVec 32 := Scalar.addi v2 c15_i32
  let c0_i32_426 : BitVec 32 := 0#32
  let c0_i32_427 : BitVec 32 := 0#32
  ![v290.toNat, 0, 0]
def k0_off53 (v301 : BitVec 32) : Fin 3 → Nat :=
  let c0_i32_443 : BitVec 32 := 0#32
  let c0_i32_444 : BitVec 32 := 0#32
  ![v301.toNat, 0, 0]

def k0_chk18 (v301 : BitVec 32) : Prop :=
  (∀ a, (k0_off53 v301) a + S1x224x224.size a ≤ S1536x224x224.size a)
instance k0_chk18.dec : ∀ (v301 : BitVec 32), Decidable (k0_chk18 v301) := fun v301 => decidable_of_iff' _ (Iff.of_eq (k0_chk18.eq_1 v301))
theorem k0_off53_inb : ∀ (v301 : BitVec 32) (k0_hw18 : k0_chk18 v301), ∀ a, (k0_off53 v301) a + S1x224x224.size a ≤ S1536x224x224.size a := fun v301 k0_hw18 => k0_hw18

def k0_off54 (i : grid0.Coords) : Fin 5 → Nat :=
  let arg1 : BitVec 32 := BitVec.ofNat 32 (i 1).val
  let c0_i32_445 : BitVec 32 := 0#32
  let c0_i32_446 : BitVec 32 := 0#32
  let c0_i32_447 : BitVec 32 := 0#32
  let c0_i32_448 : BitVec 32 := 0#32
  ![arg1.toNat, 0, 0, 0, 0]
def k0_off55 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c16_i32 : BitVec 32 := 16#32
  let v308 : BitVec 32 := Scalar.addi v2 c16_i32
  let c0_i32_453 : BitVec 32 := 0#32
  let c0_i32_454 : BitVec 32 := 0#32
  ![v308.toNat, 0, 0]
def k0_off56 (v319 : BitVec 32) : Fin 3 → Nat :=
  let c0_i32_470 : BitVec 32 := 0#32
  let c0_i32_471 : BitVec 32 := 0#32
  ![v319.toNat, 0, 0]

def k0_chk19 (v319 : BitVec 32) : Prop :=
  (∀ a, (k0_off56 v319) a + S1x224x224.size a ≤ S1536x224x224.size a)
instance k0_chk19.dec : ∀ (v319 : BitVec 32), Decidable (k0_chk19 v319) := fun v319 => decidable_of_iff' _ (Iff.of_eq (k0_chk19.eq_1 v319))
theorem k0_off56_inb : ∀ (v319 : BitVec 32) (k0_hw19 : k0_chk19 v319), ∀ a, (k0_off56 v319) a + S1x224x224.size a ≤ S1536x224x224.size a := fun v319 k0_hw19 => k0_hw19

def k0_off57 (i : grid0.Coords) : Fin 5 → Nat :=
  let arg1 : BitVec 32 := BitVec.ofNat 32 (i 1).val
  let c1_i32_472 : BitVec 32 := 1#32
  let c0_i32_473 : BitVec 32 := 0#32
  let c0_i32_474 : BitVec 32 := 0#32
  let c0_i32_475 : BitVec 32 := 0#32
  ![arg1.toNat, 1, 0, 0, 0]
def k0_off58 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c17_i32 : BitVec 32 := 17#32
  let v326 : BitVec 32 := Scalar.addi v2 c17_i32
  let c0_i32_480 : BitVec 32 := 0#32
  let c0_i32_481 : BitVec 32 := 0#32
  ![v326.toNat, 0, 0]
def k0_off59 (v337 : BitVec 32) : Fin 3 → Nat :=
  let c0_i32_497 : BitVec 32 := 0#32
  let c0_i32_498 : BitVec 32 := 0#32
  ![v337.toNat, 0, 0]

def k0_chk20 (v337 : BitVec 32) : Prop :=
  (∀ a, (k0_off59 v337) a + S1x224x224.size a ≤ S1536x224x224.size a)
instance k0_chk20.dec : ∀ (v337 : BitVec 32), Decidable (k0_chk20 v337) := fun v337 => decidable_of_iff' _ (Iff.of_eq (k0_chk20.eq_1 v337))
theorem k0_off59_inb : ∀ (v337 : BitVec 32) (k0_hw20 : k0_chk20 v337), ∀ a, (k0_off59 v337) a + S1x224x224.size a ≤ S1536x224x224.size a := fun v337 k0_hw20 => k0_hw20

def k0_off60 (i : grid0.Coords) : Fin 5 → Nat :=
  let arg1 : BitVec 32 := BitVec.ofNat 32 (i 1).val
  let c0_i32_499 : BitVec 32 := 0#32
  let c0_i32_500 : BitVec 32 := 0#32
  let c0_i32_501 : BitVec 32 := 0#32
  let c0_i32_502 : BitVec 32 := 0#32
  ![arg1.toNat, 0, 0, 0, 0]
def k0_off61 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c18_i32 : BitVec 32 := 18#32
  let v344 : BitVec 32 := Scalar.addi v2 c18_i32
  let c0_i32_507 : BitVec 32 := 0#32
  let c0_i32_508 : BitVec 32 := 0#32
  ![v344.toNat, 0, 0]
def k0_off62 (v355 : BitVec 32) : Fin 3 → Nat :=
  let c0_i32_524 : BitVec 32 := 0#32
  let c0_i32_525 : BitVec 32 := 0#32
  ![v355.toNat, 0, 0]

def k0_chk21 (v355 : BitVec 32) : Prop :=
  (∀ a, (k0_off62 v355) a + S1x224x224.size a ≤ S1536x224x224.size a)
instance k0_chk21.dec : ∀ (v355 : BitVec 32), Decidable (k0_chk21 v355) := fun v355 => decidable_of_iff' _ (Iff.of_eq (k0_chk21.eq_1 v355))
theorem k0_off62_inb : ∀ (v355 : BitVec 32) (k0_hw21 : k0_chk21 v355), ∀ a, (k0_off62 v355) a + S1x224x224.size a ≤ S1536x224x224.size a := fun v355 k0_hw21 => k0_hw21

def k0_off63 (i : grid0.Coords) : Fin 5 → Nat :=
  let arg1 : BitVec 32 := BitVec.ofNat 32 (i 1).val
  let c1_i32_526 : BitVec 32 := 1#32
  let c0_i32_527 : BitVec 32 := 0#32
  let c0_i32_528 : BitVec 32 := 0#32
  let c0_i32_529 : BitVec 32 := 0#32
  ![arg1.toNat, 1, 0, 0, 0]
def k0_off64 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c19_i32 : BitVec 32 := 19#32
  let v362 : BitVec 32 := Scalar.addi v2 c19_i32
  let c0_i32_534 : BitVec 32 := 0#32
  let c0_i32_535 : BitVec 32 := 0#32
  ![v362.toNat, 0, 0]
def k0_off65 (v373 : BitVec 32) : Fin 3 → Nat :=
  let c0_i32_551 : BitVec 32 := 0#32
  let c0_i32_552 : BitVec 32 := 0#32
  ![v373.toNat, 0, 0]

def k0_chk22 (v373 : BitVec 32) : Prop :=
  (∀ a, (k0_off65 v373) a + S1x224x224.size a ≤ S1536x224x224.size a)
instance k0_chk22.dec : ∀ (v373 : BitVec 32), Decidable (k0_chk22 v373) := fun v373 => decidable_of_iff' _ (Iff.of_eq (k0_chk22.eq_1 v373))
theorem k0_off65_inb : ∀ (v373 : BitVec 32) (k0_hw22 : k0_chk22 v373), ∀ a, (k0_off65 v373) a + S1x224x224.size a ≤ S1536x224x224.size a := fun v373 k0_hw22 => k0_hw22

def k0_off66 (i : grid0.Coords) : Fin 5 → Nat :=
  let arg1 : BitVec 32 := BitVec.ofNat 32 (i 1).val
  let c0_i32_553 : BitVec 32 := 0#32
  let c0_i32_554 : BitVec 32 := 0#32
  let c0_i32_555 : BitVec 32 := 0#32
  let c0_i32_556 : BitVec 32 := 0#32
  ![arg1.toNat, 0, 0, 0, 0]
def k0_off67 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c20_i32 : BitVec 32 := 20#32
  let v380 : BitVec 32 := Scalar.addi v2 c20_i32
  let c0_i32_561 : BitVec 32 := 0#32
  let c0_i32_562 : BitVec 32 := 0#32
  ![v380.toNat, 0, 0]
def k0_off68 (v391 : BitVec 32) : Fin 3 → Nat :=
  let c0_i32_578 : BitVec 32 := 0#32
  let c0_i32_579 : BitVec 32 := 0#32
  ![v391.toNat, 0, 0]

def k0_chk23 (v391 : BitVec 32) : Prop :=
  (∀ a, (k0_off68 v391) a + S1x224x224.size a ≤ S1536x224x224.size a)
instance k0_chk23.dec : ∀ (v391 : BitVec 32), Decidable (k0_chk23 v391) := fun v391 => decidable_of_iff' _ (Iff.of_eq (k0_chk23.eq_1 v391))
theorem k0_off68_inb : ∀ (v391 : BitVec 32) (k0_hw23 : k0_chk23 v391), ∀ a, (k0_off68 v391) a + S1x224x224.size a ≤ S1536x224x224.size a := fun v391 k0_hw23 => k0_hw23

def k0_off69 (i : grid0.Coords) : Fin 5 → Nat :=
  let arg1 : BitVec 32 := BitVec.ofNat 32 (i 1).val
  let c1_i32_580 : BitVec 32 := 1#32
  let c0_i32_581 : BitVec 32 := 0#32
  let c0_i32_582 : BitVec 32 := 0#32
  let c0_i32_583 : BitVec 32 := 0#32
  ![arg1.toNat, 1, 0, 0, 0]
def k0_off70 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c21_i32 : BitVec 32 := 21#32
  let v398 : BitVec 32 := Scalar.addi v2 c21_i32
  let c0_i32_588 : BitVec 32 := 0#32
  let c0_i32_589 : BitVec 32 := 0#32
  ![v398.toNat, 0, 0]
def k0_off71 (v409 : BitVec 32) : Fin 3 → Nat :=
  let c0_i32_605 : BitVec 32 := 0#32
  let c0_i32_606 : BitVec 32 := 0#32
  ![v409.toNat, 0, 0]

def k0_chk24 (v409 : BitVec 32) : Prop :=
  (∀ a, (k0_off71 v409) a + S1x224x224.size a ≤ S1536x224x224.size a)
instance k0_chk24.dec : ∀ (v409 : BitVec 32), Decidable (k0_chk24 v409) := fun v409 => decidable_of_iff' _ (Iff.of_eq (k0_chk24.eq_1 v409))
theorem k0_off71_inb : ∀ (v409 : BitVec 32) (k0_hw24 : k0_chk24 v409), ∀ a, (k0_off71 v409) a + S1x224x224.size a ≤ S1536x224x224.size a := fun v409 k0_hw24 => k0_hw24

def k0_off72 (i : grid0.Coords) : Fin 5 → Nat :=
  let arg1 : BitVec 32 := BitVec.ofNat 32 (i 1).val
  let c0_i32_607 : BitVec 32 := 0#32
  let c0_i32_608 : BitVec 32 := 0#32
  let c0_i32_609 : BitVec 32 := 0#32
  let c0_i32_610 : BitVec 32 := 0#32
  ![arg1.toNat, 0, 0, 0, 0]
def k0_off73 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c22_i32 : BitVec 32 := 22#32
  let v416 : BitVec 32 := Scalar.addi v2 c22_i32
  let c0_i32_615 : BitVec 32 := 0#32
  let c0_i32_616 : BitVec 32 := 0#32
  ![v416.toNat, 0, 0]
def k0_off74 (v427 : BitVec 32) : Fin 3 → Nat :=
  let c0_i32_632 : BitVec 32 := 0#32
  let c0_i32_633 : BitVec 32 := 0#32
  ![v427.toNat, 0, 0]

def k0_chk25 (v427 : BitVec 32) : Prop :=
  (∀ a, (k0_off74 v427) a + S1x224x224.size a ≤ S1536x224x224.size a)
instance k0_chk25.dec : ∀ (v427 : BitVec 32), Decidable (k0_chk25 v427) := fun v427 => decidable_of_iff' _ (Iff.of_eq (k0_chk25.eq_1 v427))
theorem k0_off74_inb : ∀ (v427 : BitVec 32) (k0_hw25 : k0_chk25 v427), ∀ a, (k0_off74 v427) a + S1x224x224.size a ≤ S1536x224x224.size a := fun v427 k0_hw25 => k0_hw25

def k0_off75 (i : grid0.Coords) : Fin 5 → Nat :=
  let arg1 : BitVec 32 := BitVec.ofNat 32 (i 1).val
  let c1_i32_634 : BitVec 32 := 1#32
  let c0_i32_635 : BitVec 32 := 0#32
  let c0_i32_636 : BitVec 32 := 0#32
  let c0_i32_637 : BitVec 32 := 0#32
  ![arg1.toNat, 1, 0, 0, 0]
def k0_off76 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c23_i32 : BitVec 32 := 23#32
  let v434 : BitVec 32 := Scalar.addi v2 c23_i32
  let c0_i32_642 : BitVec 32 := 0#32
  let c0_i32_643 : BitVec 32 := 0#32
  ![v434.toNat, 0, 0]
def k0_off77 (v445 : BitVec 32) : Fin 3 → Nat :=
  let c0_i32_659 : BitVec 32 := 0#32
  let c0_i32_660 : BitVec 32 := 0#32
  ![v445.toNat, 0, 0]

def k0_chk26 (v445 : BitVec 32) : Prop :=
  (∀ a, (k0_off77 v445) a + S1x224x224.size a ≤ S1536x224x224.size a)
instance k0_chk26.dec : ∀ (v445 : BitVec 32), Decidable (k0_chk26 v445) := fun v445 => decidable_of_iff' _ (Iff.of_eq (k0_chk26.eq_1 v445))
theorem k0_off77_inb : ∀ (v445 : BitVec 32) (k0_hw26 : k0_chk26 v445), ∀ a, (k0_off77 v445) a + S1x224x224.size a ≤ S1536x224x224.size a := fun v445 k0_hw26 => k0_hw26

def k0_off78 (i : grid0.Coords) : Fin 5 → Nat :=
  let arg1 : BitVec 32 := BitVec.ofNat 32 (i 1).val
  let c0_i32_661 : BitVec 32 := 0#32
  let c0_i32_662 : BitVec 32 := 0#32
  let c0_i32_663 : BitVec 32 := 0#32
  let c0_i32_664 : BitVec 32 := 0#32
  ![arg1.toNat, 0, 0, 0, 0]
def k0_off79 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c24_i32 : BitVec 32 := 24#32
  let v452 : BitVec 32 := Scalar.addi v2 c24_i32
  let c0_i32_669 : BitVec 32 := 0#32
  let c0_i32_670 : BitVec 32 := 0#32
  ![v452.toNat, 0, 0]
def k0_off80 (v463 : BitVec 32) : Fin 3 → Nat :=
  let c0_i32_686 : BitVec 32 := 0#32
  let c0_i32_687 : BitVec 32 := 0#32
  ![v463.toNat, 0, 0]

def k0_chk27 (v463 : BitVec 32) : Prop :=
  (∀ a, (k0_off80 v463) a + S1x224x224.size a ≤ S1536x224x224.size a)
instance k0_chk27.dec : ∀ (v463 : BitVec 32), Decidable (k0_chk27 v463) := fun v463 => decidable_of_iff' _ (Iff.of_eq (k0_chk27.eq_1 v463))
theorem k0_off80_inb : ∀ (v463 : BitVec 32) (k0_hw27 : k0_chk27 v463), ∀ a, (k0_off80 v463) a + S1x224x224.size a ≤ S1536x224x224.size a := fun v463 k0_hw27 => k0_hw27

def k0_off81 (i : grid0.Coords) : Fin 5 → Nat :=
  let arg1 : BitVec 32 := BitVec.ofNat 32 (i 1).val
  let c1_i32_688 : BitVec 32 := 1#32
  let c0_i32_689 : BitVec 32 := 0#32
  let c0_i32_690 : BitVec 32 := 0#32
  let c0_i32_691 : BitVec 32 := 0#32
  ![arg1.toNat, 1, 0, 0, 0]
def k0_off82 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c25_i32 : BitVec 32 := 25#32
  let v470 : BitVec 32 := Scalar.addi v2 c25_i32
  let c0_i32_696 : BitVec 32 := 0#32
  let c0_i32_697 : BitVec 32 := 0#32
  ![v470.toNat, 0, 0]
def k0_off83 (v481 : BitVec 32) : Fin 3 → Nat :=
  let c0_i32_713 : BitVec 32 := 0#32
  let c0_i32_714 : BitVec 32 := 0#32
  ![v481.toNat, 0, 0]

def k0_chk28 (v481 : BitVec 32) : Prop :=
  (∀ a, (k0_off83 v481) a + S1x224x224.size a ≤ S1536x224x224.size a)
instance k0_chk28.dec : ∀ (v481 : BitVec 32), Decidable (k0_chk28 v481) := fun v481 => decidable_of_iff' _ (Iff.of_eq (k0_chk28.eq_1 v481))
theorem k0_off83_inb : ∀ (v481 : BitVec 32) (k0_hw28 : k0_chk28 v481), ∀ a, (k0_off83 v481) a + S1x224x224.size a ≤ S1536x224x224.size a := fun v481 k0_hw28 => k0_hw28

def k0_off84 (i : grid0.Coords) : Fin 5 → Nat :=
  let arg1 : BitVec 32 := BitVec.ofNat 32 (i 1).val
  let c0_i32_715 : BitVec 32 := 0#32
  let c0_i32_716 : BitVec 32 := 0#32
  let c0_i32_717 : BitVec 32 := 0#32
  let c0_i32_718 : BitVec 32 := 0#32
  ![arg1.toNat, 0, 0, 0, 0]
def k0_off85 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c26_i32 : BitVec 32 := 26#32
  let v488 : BitVec 32 := Scalar.addi v2 c26_i32
  let c0_i32_723 : BitVec 32 := 0#32
  let c0_i32_724 : BitVec 32 := 0#32
  ![v488.toNat, 0, 0]
def k0_off86 (v499 : BitVec 32) : Fin 3 → Nat :=
  let c0_i32_740 : BitVec 32 := 0#32
  let c0_i32_741 : BitVec 32 := 0#32
  ![v499.toNat, 0, 0]

def k0_chk29 (v499 : BitVec 32) : Prop :=
  (∀ a, (k0_off86 v499) a + S1x224x224.size a ≤ S1536x224x224.size a)
instance k0_chk29.dec : ∀ (v499 : BitVec 32), Decidable (k0_chk29 v499) := fun v499 => decidable_of_iff' _ (Iff.of_eq (k0_chk29.eq_1 v499))
theorem k0_off86_inb : ∀ (v499 : BitVec 32) (k0_hw29 : k0_chk29 v499), ∀ a, (k0_off86 v499) a + S1x224x224.size a ≤ S1536x224x224.size a := fun v499 k0_hw29 => k0_hw29

def k0_off87 (i : grid0.Coords) : Fin 5 → Nat :=
  let arg1 : BitVec 32 := BitVec.ofNat 32 (i 1).val
  let c1_i32_742 : BitVec 32 := 1#32
  let c0_i32_743 : BitVec 32 := 0#32
  let c0_i32_744 : BitVec 32 := 0#32
  let c0_i32_745 : BitVec 32 := 0#32
  ![arg1.toNat, 1, 0, 0, 0]
def k0_off88 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c27_i32 : BitVec 32 := 27#32
  let v506 : BitVec 32 := Scalar.addi v2 c27_i32
  let c0_i32_750 : BitVec 32 := 0#32
  let c0_i32_751 : BitVec 32 := 0#32
  ![v506.toNat, 0, 0]
def k0_off89 (v517 : BitVec 32) : Fin 3 → Nat :=
  let c0_i32_767 : BitVec 32 := 0#32
  let c0_i32_768 : BitVec 32 := 0#32
  ![v517.toNat, 0, 0]

def k0_chk30 (v517 : BitVec 32) : Prop :=
  (∀ a, (k0_off89 v517) a + S1x224x224.size a ≤ S1536x224x224.size a)
instance k0_chk30.dec : ∀ (v517 : BitVec 32), Decidable (k0_chk30 v517) := fun v517 => decidable_of_iff' _ (Iff.of_eq (k0_chk30.eq_1 v517))
theorem k0_off89_inb : ∀ (v517 : BitVec 32) (k0_hw30 : k0_chk30 v517), ∀ a, (k0_off89 v517) a + S1x224x224.size a ≤ S1536x224x224.size a := fun v517 k0_hw30 => k0_hw30

def k0_off90 (i : grid0.Coords) : Fin 5 → Nat :=
  let arg1 : BitVec 32 := BitVec.ofNat 32 (i 1).val
  let c0_i32_769 : BitVec 32 := 0#32
  let c0_i32_770 : BitVec 32 := 0#32
  let c0_i32_771 : BitVec 32 := 0#32
  let c0_i32_772 : BitVec 32 := 0#32
  ![arg1.toNat, 0, 0, 0, 0]
def k0_off91 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c28_i32 : BitVec 32 := 28#32
  let v524 : BitVec 32 := Scalar.addi v2 c28_i32
  let c0_i32_777 : BitVec 32 := 0#32
  let c0_i32_778 : BitVec 32 := 0#32
  ![v524.toNat, 0, 0]
def k0_off92 (v535 : BitVec 32) : Fin 3 → Nat :=
  let c0_i32_794 : BitVec 32 := 0#32
  let c0_i32_795 : BitVec 32 := 0#32
  ![v535.toNat, 0, 0]

def k0_chk31 (v535 : BitVec 32) : Prop :=
  (∀ a, (k0_off92 v535) a + S1x224x224.size a ≤ S1536x224x224.size a)
instance k0_chk31.dec : ∀ (v535 : BitVec 32), Decidable (k0_chk31 v535) := fun v535 => decidable_of_iff' _ (Iff.of_eq (k0_chk31.eq_1 v535))
theorem k0_off92_inb : ∀ (v535 : BitVec 32) (k0_hw31 : k0_chk31 v535), ∀ a, (k0_off92 v535) a + S1x224x224.size a ≤ S1536x224x224.size a := fun v535 k0_hw31 => k0_hw31

def k0_off93 (i : grid0.Coords) : Fin 5 → Nat :=
  let arg1 : BitVec 32 := BitVec.ofNat 32 (i 1).val
  let c1_i32_796 : BitVec 32 := 1#32
  let c0_i32_797 : BitVec 32 := 0#32
  let c0_i32_798 : BitVec 32 := 0#32
  let c0_i32_799 : BitVec 32 := 0#32
  ![arg1.toNat, 1, 0, 0, 0]
def k0_off94 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c29_i32 : BitVec 32 := 29#32
  let v542 : BitVec 32 := Scalar.addi v2 c29_i32
  let c0_i32_804 : BitVec 32 := 0#32
  let c0_i32_805 : BitVec 32 := 0#32
  ![v542.toNat, 0, 0]
def k0_off95 (v553 : BitVec 32) : Fin 3 → Nat :=
  let c0_i32_821 : BitVec 32 := 0#32
  let c0_i32_822 : BitVec 32 := 0#32
  ![v553.toNat, 0, 0]

def k0_chk32 (v553 : BitVec 32) : Prop :=
  (∀ a, (k0_off95 v553) a + S1x224x224.size a ≤ S1536x224x224.size a)
instance k0_chk32.dec : ∀ (v553 : BitVec 32), Decidable (k0_chk32 v553) := fun v553 => decidable_of_iff' _ (Iff.of_eq (k0_chk32.eq_1 v553))
theorem k0_off95_inb : ∀ (v553 : BitVec 32) (k0_hw32 : k0_chk32 v553), ∀ a, (k0_off95 v553) a + S1x224x224.size a ≤ S1536x224x224.size a := fun v553 k0_hw32 => k0_hw32

def k0_off96 (i : grid0.Coords) : Fin 5 → Nat :=
  let arg1 : BitVec 32 := BitVec.ofNat 32 (i 1).val
  let c0_i32_823 : BitVec 32 := 0#32
  let c0_i32_824 : BitVec 32 := 0#32
  let c0_i32_825 : BitVec 32 := 0#32
  let c0_i32_826 : BitVec 32 := 0#32
  ![arg1.toNat, 0, 0, 0, 0]
def k0_off97 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c30_i32 : BitVec 32 := 30#32
  let v560 : BitVec 32 := Scalar.addi v2 c30_i32
  let c0_i32_831 : BitVec 32 := 0#32
  let c0_i32_832 : BitVec 32 := 0#32
  ![v560.toNat, 0, 0]
def k0_off98 (v571 : BitVec 32) : Fin 3 → Nat :=
  let c0_i32_847 : BitVec 32 := 0#32
  let c0_i32_848 : BitVec 32 := 0#32
  ![v571.toNat, 0, 0]

def k0_chk33 (v571 : BitVec 32) : Prop :=
  (∀ a, (k0_off98 v571) a + S1x224x224.size a ≤ S1536x224x224.size a)
instance k0_chk33.dec : ∀ (v571 : BitVec 32), Decidable (k0_chk33 v571) := fun v571 => decidable_of_iff' _ (Iff.of_eq (k0_chk33.eq_1 v571))
theorem k0_off98_inb : ∀ (v571 : BitVec 32) (k0_hw33 : k0_chk33 v571), ∀ a, (k0_off98 v571) a + S1x224x224.size a ≤ S1536x224x224.size a := fun v571 k0_hw33 => k0_hw33

def k0_off99 (i : grid0.Coords) : Fin 5 → Nat :=
  let arg1 : BitVec 32 := BitVec.ofNat 32 (i 1).val
  let c1_i32_849 : BitVec 32 := 1#32
  let c0_i32_850 : BitVec 32 := 0#32
  let c0_i32_851 : BitVec 32 := 0#32
  let c0_i32_852 : BitVec 32 := 0#32
  ![arg1.toNat, 1, 0, 0, 0]
def k0_off100 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c31_i32 : BitVec 32 := 31#32
  let v578 : BitVec 32 := Scalar.addi v2 c31_i32
  let c0_i32_857 : BitVec 32 := 0#32
  let c0_i32_858 : BitVec 32 := 0#32
  ![v578.toNat, 0, 0]
def k0_off101 (v589 : BitVec 32) : Fin 3 → Nat :=
  let c0_i32_874 : BitVec 32 := 0#32
  let c0_i32_875 : BitVec 32 := 0#32
  ![v589.toNat, 0, 0]

def k0_chk34 (v589 : BitVec 32) : Prop :=
  (∀ a, (k0_off101 v589) a + S1x224x224.size a ≤ S1536x224x224.size a)
instance k0_chk34.dec : ∀ (v589 : BitVec 32), Decidable (k0_chk34 v589) := fun v589 => decidable_of_iff' _ (Iff.of_eq (k0_chk34.eq_1 v589))
theorem k0_off101_inb : ∀ (v589 : BitVec 32) (k0_hw34 : k0_chk34 v589), ∀ a, (k0_off101 v589) a + S1x224x224.size a ≤ S1536x224x224.size a := fun v589 k0_hw34 => k0_hw34

def k0_off102 (i : grid0.Coords) : Fin 5 → Nat :=
  let arg1 : BitVec 32 := BitVec.ofNat 32 (i 1).val
  let c0_i32_876 : BitVec 32 := 0#32
  let c0_i32_877 : BitVec 32 := 0#32
  let c0_i32_878 : BitVec 32 := 0#32
  let c0_i32_879 : BitVec 32 := 0#32
  ![arg1.toNat, 0, 0, 0, 0]
def k0_off103 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c32_i32 : BitVec 32 := 32#32
  let v596 : BitVec 32 := Scalar.addi v2 c32_i32
  let c0_i32_884 : BitVec 32 := 0#32
  let c0_i32_885 : BitVec 32 := 0#32
  ![v596.toNat, 0, 0]
def k0_off104 (v607 : BitVec 32) : Fin 3 → Nat :=
  let c0_i32_901 : BitVec 32 := 0#32
  let c0_i32_902 : BitVec 32 := 0#32
  ![v607.toNat, 0, 0]

def k0_chk35 (v607 : BitVec 32) : Prop :=
  (∀ a, (k0_off104 v607) a + S1x224x224.size a ≤ S1536x224x224.size a)
instance k0_chk35.dec : ∀ (v607 : BitVec 32), Decidable (k0_chk35 v607) := fun v607 => decidable_of_iff' _ (Iff.of_eq (k0_chk35.eq_1 v607))
theorem k0_off104_inb : ∀ (v607 : BitVec 32) (k0_hw35 : k0_chk35 v607), ∀ a, (k0_off104 v607) a + S1x224x224.size a ≤ S1536x224x224.size a := fun v607 k0_hw35 => k0_hw35

def k0_off105 (i : grid0.Coords) : Fin 5 → Nat :=
  let arg1 : BitVec 32 := BitVec.ofNat 32 (i 1).val
  let c1_i32_903 : BitVec 32 := 1#32
  let c0_i32_904 : BitVec 32 := 0#32
  let c0_i32_905 : BitVec 32 := 0#32
  let c0_i32_906 : BitVec 32 := 0#32
  ![arg1.toNat, 1, 0, 0, 0]
def k0_off106 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c33_i32 : BitVec 32 := 33#32
  let v614 : BitVec 32 := Scalar.addi v2 c33_i32
  let c0_i32_911 : BitVec 32 := 0#32
  let c0_i32_912 : BitVec 32 := 0#32
  ![v614.toNat, 0, 0]
def k0_off107 (v625 : BitVec 32) : Fin 3 → Nat :=
  let c0_i32_928 : BitVec 32 := 0#32
  let c0_i32_929 : BitVec 32 := 0#32
  ![v625.toNat, 0, 0]

def k0_chk36 (v625 : BitVec 32) : Prop :=
  (∀ a, (k0_off107 v625) a + S1x224x224.size a ≤ S1536x224x224.size a)
instance k0_chk36.dec : ∀ (v625 : BitVec 32), Decidable (k0_chk36 v625) := fun v625 => decidable_of_iff' _ (Iff.of_eq (k0_chk36.eq_1 v625))
theorem k0_off107_inb : ∀ (v625 : BitVec 32) (k0_hw36 : k0_chk36 v625), ∀ a, (k0_off107 v625) a + S1x224x224.size a ≤ S1536x224x224.size a := fun v625 k0_hw36 => k0_hw36

def k0_off108 (i : grid0.Coords) : Fin 5 → Nat :=
  let arg1 : BitVec 32 := BitVec.ofNat 32 (i 1).val
  let c0_i32_930 : BitVec 32 := 0#32
  let c0_i32_931 : BitVec 32 := 0#32
  let c0_i32_932 : BitVec 32 := 0#32
  let c0_i32_933 : BitVec 32 := 0#32
  ![arg1.toNat, 0, 0, 0, 0]
def k0_off109 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c34_i32 : BitVec 32 := 34#32
  let v632 : BitVec 32 := Scalar.addi v2 c34_i32
  let c0_i32_938 : BitVec 32 := 0#32
  let c0_i32_939 : BitVec 32 := 0#32
  ![v632.toNat, 0, 0]
def k0_off110 (v643 : BitVec 32) : Fin 3 → Nat :=
  let c0_i32_955 : BitVec 32 := 0#32
  let c0_i32_956 : BitVec 32 := 0#32
  ![v643.toNat, 0, 0]

def k0_chk37 (v643 : BitVec 32) : Prop :=
  (∀ a, (k0_off110 v643) a + S1x224x224.size a ≤ S1536x224x224.size a)
instance k0_chk37.dec : ∀ (v643 : BitVec 32), Decidable (k0_chk37 v643) := fun v643 => decidable_of_iff' _ (Iff.of_eq (k0_chk37.eq_1 v643))
theorem k0_off110_inb : ∀ (v643 : BitVec 32) (k0_hw37 : k0_chk37 v643), ∀ a, (k0_off110 v643) a + S1x224x224.size a ≤ S1536x224x224.size a := fun v643 k0_hw37 => k0_hw37

def k0_off111 (i : grid0.Coords) : Fin 5 → Nat :=
  let arg1 : BitVec 32 := BitVec.ofNat 32 (i 1).val
  let c1_i32_957 : BitVec 32 := 1#32
  let c0_i32_958 : BitVec 32 := 0#32
  let c0_i32_959 : BitVec 32 := 0#32
  let c0_i32_960 : BitVec 32 := 0#32
  ![arg1.toNat, 1, 0, 0, 0]
def k0_off112 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c35_i32 : BitVec 32 := 35#32
  let v650 : BitVec 32 := Scalar.addi v2 c35_i32
  let c0_i32_965 : BitVec 32 := 0#32
  let c0_i32_966 : BitVec 32 := 0#32
  ![v650.toNat, 0, 0]
def k0_off113 (v661 : BitVec 32) : Fin 3 → Nat :=
  let c0_i32_982 : BitVec 32 := 0#32
  let c0_i32_983 : BitVec 32 := 0#32
  ![v661.toNat, 0, 0]

def k0_chk38 (v661 : BitVec 32) : Prop :=
  (∀ a, (k0_off113 v661) a + S1x224x224.size a ≤ S1536x224x224.size a)
instance k0_chk38.dec : ∀ (v661 : BitVec 32), Decidable (k0_chk38 v661) := fun v661 => decidable_of_iff' _ (Iff.of_eq (k0_chk38.eq_1 v661))
theorem k0_off113_inb : ∀ (v661 : BitVec 32) (k0_hw38 : k0_chk38 v661), ∀ a, (k0_off113 v661) a + S1x224x224.size a ≤ S1536x224x224.size a := fun v661 k0_hw38 => k0_hw38

def k0_off114 (i : grid0.Coords) : Fin 5 → Nat :=
  let arg1 : BitVec 32 := BitVec.ofNat 32 (i 1).val
  let c0_i32_984 : BitVec 32 := 0#32
  let c0_i32_985 : BitVec 32 := 0#32
  let c0_i32_986 : BitVec 32 := 0#32
  let c0_i32_987 : BitVec 32 := 0#32
  ![arg1.toNat, 0, 0, 0, 0]
def k0_off115 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c36_i32 : BitVec 32 := 36#32
  let v668 : BitVec 32 := Scalar.addi v2 c36_i32
  let c0_i32_992 : BitVec 32 := 0#32
  let c0_i32_993 : BitVec 32 := 0#32
  ![v668.toNat, 0, 0]
def k0_off116 (v679 : BitVec 32) : Fin 3 → Nat :=
  let c0_i32_1009 : BitVec 32 := 0#32
  let c0_i32_1010 : BitVec 32 := 0#32
  ![v679.toNat, 0, 0]

def k0_chk39 (v679 : BitVec 32) : Prop :=
  (∀ a, (k0_off116 v679) a + S1x224x224.size a ≤ S1536x224x224.size a)
instance k0_chk39.dec : ∀ (v679 : BitVec 32), Decidable (k0_chk39 v679) := fun v679 => decidable_of_iff' _ (Iff.of_eq (k0_chk39.eq_1 v679))
theorem k0_off116_inb : ∀ (v679 : BitVec 32) (k0_hw39 : k0_chk39 v679), ∀ a, (k0_off116 v679) a + S1x224x224.size a ≤ S1536x224x224.size a := fun v679 k0_hw39 => k0_hw39

def k0_off117 (i : grid0.Coords) : Fin 5 → Nat :=
  let arg1 : BitVec 32 := BitVec.ofNat 32 (i 1).val
  let c1_i32_1011 : BitVec 32 := 1#32
  let c0_i32_1012 : BitVec 32 := 0#32
  let c0_i32_1013 : BitVec 32 := 0#32
  let c0_i32_1014 : BitVec 32 := 0#32
  ![arg1.toNat, 1, 0, 0, 0]
def k0_off118 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c37_i32 : BitVec 32 := 37#32
  let v686 : BitVec 32 := Scalar.addi v2 c37_i32
  let c0_i32_1019 : BitVec 32 := 0#32
  let c0_i32_1020 : BitVec 32 := 0#32
  ![v686.toNat, 0, 0]
def k0_off119 (v697 : BitVec 32) : Fin 3 → Nat :=
  let c0_i32_1036 : BitVec 32 := 0#32
  let c0_i32_1037 : BitVec 32 := 0#32
  ![v697.toNat, 0, 0]

def k0_chk40 (v697 : BitVec 32) : Prop :=
  (∀ a, (k0_off119 v697) a + S1x224x224.size a ≤ S1536x224x224.size a)
instance k0_chk40.dec : ∀ (v697 : BitVec 32), Decidable (k0_chk40 v697) := fun v697 => decidable_of_iff' _ (Iff.of_eq (k0_chk40.eq_1 v697))
theorem k0_off119_inb : ∀ (v697 : BitVec 32) (k0_hw40 : k0_chk40 v697), ∀ a, (k0_off119 v697) a + S1x224x224.size a ≤ S1536x224x224.size a := fun v697 k0_hw40 => k0_hw40

def k0_off120 (i : grid0.Coords) : Fin 5 → Nat :=
  let arg1 : BitVec 32 := BitVec.ofNat 32 (i 1).val
  let c0_i32_1038 : BitVec 32 := 0#32
  let c0_i32_1039 : BitVec 32 := 0#32
  let c0_i32_1040 : BitVec 32 := 0#32
  let c0_i32_1041 : BitVec 32 := 0#32
  ![arg1.toNat, 0, 0, 0, 0]
def k0_off121 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c38_i32 : BitVec 32 := 38#32
  let v704 : BitVec 32 := Scalar.addi v2 c38_i32
  let c0_i32_1046 : BitVec 32 := 0#32
  let c0_i32_1047 : BitVec 32 := 0#32
  ![v704.toNat, 0, 0]
def k0_off122 (v715 : BitVec 32) : Fin 3 → Nat :=
  let c0_i32_1063 : BitVec 32 := 0#32
  let c0_i32_1064 : BitVec 32 := 0#32
  ![v715.toNat, 0, 0]

def k0_chk41 (v715 : BitVec 32) : Prop :=
  (∀ a, (k0_off122 v715) a + S1x224x224.size a ≤ S1536x224x224.size a)
instance k0_chk41.dec : ∀ (v715 : BitVec 32), Decidable (k0_chk41 v715) := fun v715 => decidable_of_iff' _ (Iff.of_eq (k0_chk41.eq_1 v715))
theorem k0_off122_inb : ∀ (v715 : BitVec 32) (k0_hw41 : k0_chk41 v715), ∀ a, (k0_off122 v715) a + S1x224x224.size a ≤ S1536x224x224.size a := fun v715 k0_hw41 => k0_hw41

def k0_off123 (i : grid0.Coords) : Fin 5 → Nat :=
  let arg1 : BitVec 32 := BitVec.ofNat 32 (i 1).val
  let c1_i32_1065 : BitVec 32 := 1#32
  let c0_i32_1066 : BitVec 32 := 0#32
  let c0_i32_1067 : BitVec 32 := 0#32
  let c0_i32_1068 : BitVec 32 := 0#32
  ![arg1.toNat, 1, 0, 0, 0]
def k0_off124 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c39_i32 : BitVec 32 := 39#32
  let v722 : BitVec 32 := Scalar.addi v2 c39_i32
  let c0_i32_1073 : BitVec 32 := 0#32
  let c0_i32_1074 : BitVec 32 := 0#32
  ![v722.toNat, 0, 0]
def k0_off125 (v733 : BitVec 32) : Fin 3 → Nat :=
  let c0_i32_1090 : BitVec 32 := 0#32
  let c0_i32_1091 : BitVec 32 := 0#32
  ![v733.toNat, 0, 0]

def k0_chk42 (v733 : BitVec 32) : Prop :=
  (∀ a, (k0_off125 v733) a + S1x224x224.size a ≤ S1536x224x224.size a)
instance k0_chk42.dec : ∀ (v733 : BitVec 32), Decidable (k0_chk42 v733) := fun v733 => decidable_of_iff' _ (Iff.of_eq (k0_chk42.eq_1 v733))
theorem k0_off125_inb : ∀ (v733 : BitVec 32) (k0_hw42 : k0_chk42 v733), ∀ a, (k0_off125 v733) a + S1x224x224.size a ≤ S1536x224x224.size a := fun v733 k0_hw42 => k0_hw42

def k0_off126 (i : grid0.Coords) : Fin 5 → Nat :=
  let arg1 : BitVec 32 := BitVec.ofNat 32 (i 1).val
  let c0_i32_1092 : BitVec 32 := 0#32
  let c0_i32_1093 : BitVec 32 := 0#32
  let c0_i32_1094 : BitVec 32 := 0#32
  let c0_i32_1095 : BitVec 32 := 0#32
  ![arg1.toNat, 0, 0, 0, 0]
def k0_off127 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c40_i32 : BitVec 32 := 40#32
  let v740 : BitVec 32 := Scalar.addi v2 c40_i32
  let c0_i32_1100 : BitVec 32 := 0#32
  let c0_i32_1101 : BitVec 32 := 0#32
  ![v740.toNat, 0, 0]
def k0_off128 (v751 : BitVec 32) : Fin 3 → Nat :=
  let c0_i32_1117 : BitVec 32 := 0#32
  let c0_i32_1118 : BitVec 32 := 0#32
  ![v751.toNat, 0, 0]

def k0_chk43 (v751 : BitVec 32) : Prop :=
  (∀ a, (k0_off128 v751) a + S1x224x224.size a ≤ S1536x224x224.size a)
instance k0_chk43.dec : ∀ (v751 : BitVec 32), Decidable (k0_chk43 v751) := fun v751 => decidable_of_iff' _ (Iff.of_eq (k0_chk43.eq_1 v751))
theorem k0_off128_inb : ∀ (v751 : BitVec 32) (k0_hw43 : k0_chk43 v751), ∀ a, (k0_off128 v751) a + S1x224x224.size a ≤ S1536x224x224.size a := fun v751 k0_hw43 => k0_hw43

def k0_off129 (i : grid0.Coords) : Fin 5 → Nat :=
  let arg1 : BitVec 32 := BitVec.ofNat 32 (i 1).val
  let c1_i32_1119 : BitVec 32 := 1#32
  let c0_i32_1120 : BitVec 32 := 0#32
  let c0_i32_1121 : BitVec 32 := 0#32
  let c0_i32_1122 : BitVec 32 := 0#32
  ![arg1.toNat, 1, 0, 0, 0]
def k0_off130 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c41_i32 : BitVec 32 := 41#32
  let v758 : BitVec 32 := Scalar.addi v2 c41_i32
  let c0_i32_1127 : BitVec 32 := 0#32
  let c0_i32_1128 : BitVec 32 := 0#32
  ![v758.toNat, 0, 0]
def k0_off131 (v769 : BitVec 32) : Fin 3 → Nat :=
  let c0_i32_1144 : BitVec 32 := 0#32
  let c0_i32_1145 : BitVec 32 := 0#32
  ![v769.toNat, 0, 0]

def k0_chk44 (v769 : BitVec 32) : Prop :=
  (∀ a, (k0_off131 v769) a + S1x224x224.size a ≤ S1536x224x224.size a)
instance k0_chk44.dec : ∀ (v769 : BitVec 32), Decidable (k0_chk44 v769) := fun v769 => decidable_of_iff' _ (Iff.of_eq (k0_chk44.eq_1 v769))
theorem k0_off131_inb : ∀ (v769 : BitVec 32) (k0_hw44 : k0_chk44 v769), ∀ a, (k0_off131 v769) a + S1x224x224.size a ≤ S1536x224x224.size a := fun v769 k0_hw44 => k0_hw44

def k0_off132 (i : grid0.Coords) : Fin 5 → Nat :=
  let arg1 : BitVec 32 := BitVec.ofNat 32 (i 1).val
  let c0_i32_1146 : BitVec 32 := 0#32
  let c0_i32_1147 : BitVec 32 := 0#32
  let c0_i32_1148 : BitVec 32 := 0#32
  let c0_i32_1149 : BitVec 32 := 0#32
  ![arg1.toNat, 0, 0, 0, 0]
def k0_off133 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c42_i32 : BitVec 32 := 42#32
  let v776 : BitVec 32 := Scalar.addi v2 c42_i32
  let c0_i32_1154 : BitVec 32 := 0#32
  let c0_i32_1155 : BitVec 32 := 0#32
  ![v776.toNat, 0, 0]
def k0_off134 (v787 : BitVec 32) : Fin 3 → Nat :=
  let c0_i32_1171 : BitVec 32 := 0#32
  let c0_i32_1172 : BitVec 32 := 0#32
  ![v787.toNat, 0, 0]

def k0_chk45 (v787 : BitVec 32) : Prop :=
  (∀ a, (k0_off134 v787) a + S1x224x224.size a ≤ S1536x224x224.size a)
instance k0_chk45.dec : ∀ (v787 : BitVec 32), Decidable (k0_chk45 v787) := fun v787 => decidable_of_iff' _ (Iff.of_eq (k0_chk45.eq_1 v787))
theorem k0_off134_inb : ∀ (v787 : BitVec 32) (k0_hw45 : k0_chk45 v787), ∀ a, (k0_off134 v787) a + S1x224x224.size a ≤ S1536x224x224.size a := fun v787 k0_hw45 => k0_hw45

def k0_off135 (i : grid0.Coords) : Fin 5 → Nat :=
  let arg1 : BitVec 32 := BitVec.ofNat 32 (i 1).val
  let c1_i32_1173 : BitVec 32 := 1#32
  let c0_i32_1174 : BitVec 32 := 0#32
  let c0_i32_1175 : BitVec 32 := 0#32
  let c0_i32_1176 : BitVec 32 := 0#32
  ![arg1.toNat, 1, 0, 0, 0]
def k0_off136 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c43_i32 : BitVec 32 := 43#32
  let v794 : BitVec 32 := Scalar.addi v2 c43_i32
  let c0_i32_1181 : BitVec 32 := 0#32
  let c0_i32_1182 : BitVec 32 := 0#32
  ![v794.toNat, 0, 0]
def k0_off137 (v805 : BitVec 32) : Fin 3 → Nat :=
  let c0_i32_1198 : BitVec 32 := 0#32
  let c0_i32_1199 : BitVec 32 := 0#32
  ![v805.toNat, 0, 0]

def k0_chk46 (v805 : BitVec 32) : Prop :=
  (∀ a, (k0_off137 v805) a + S1x224x224.size a ≤ S1536x224x224.size a)
instance k0_chk46.dec : ∀ (v805 : BitVec 32), Decidable (k0_chk46 v805) := fun v805 => decidable_of_iff' _ (Iff.of_eq (k0_chk46.eq_1 v805))
theorem k0_off137_inb : ∀ (v805 : BitVec 32) (k0_hw46 : k0_chk46 v805), ∀ a, (k0_off137 v805) a + S1x224x224.size a ≤ S1536x224x224.size a := fun v805 k0_hw46 => k0_hw46

def k0_off138 (i : grid0.Coords) : Fin 5 → Nat :=
  let arg1 : BitVec 32 := BitVec.ofNat 32 (i 1).val
  let c0_i32_1200 : BitVec 32 := 0#32
  let c0_i32_1201 : BitVec 32 := 0#32
  let c0_i32_1202 : BitVec 32 := 0#32
  let c0_i32_1203 : BitVec 32 := 0#32
  ![arg1.toNat, 0, 0, 0, 0]
def k0_off139 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c44_i32 : BitVec 32 := 44#32
  let v812 : BitVec 32 := Scalar.addi v2 c44_i32
  let c0_i32_1208 : BitVec 32 := 0#32
  let c0_i32_1209 : BitVec 32 := 0#32
  ![v812.toNat, 0, 0]
def k0_off140 (v823 : BitVec 32) : Fin 3 → Nat :=
  let c0_i32_1225 : BitVec 32 := 0#32
  let c0_i32_1226 : BitVec 32 := 0#32
  ![v823.toNat, 0, 0]

def k0_chk47 (v823 : BitVec 32) : Prop :=
  (∀ a, (k0_off140 v823) a + S1x224x224.size a ≤ S1536x224x224.size a)
instance k0_chk47.dec : ∀ (v823 : BitVec 32), Decidable (k0_chk47 v823) := fun v823 => decidable_of_iff' _ (Iff.of_eq (k0_chk47.eq_1 v823))
theorem k0_off140_inb : ∀ (v823 : BitVec 32) (k0_hw47 : k0_chk47 v823), ∀ a, (k0_off140 v823) a + S1x224x224.size a ≤ S1536x224x224.size a := fun v823 k0_hw47 => k0_hw47

def k0_off141 (i : grid0.Coords) : Fin 5 → Nat :=
  let arg1 : BitVec 32 := BitVec.ofNat 32 (i 1).val
  let c1_i32_1227 : BitVec 32 := 1#32
  let c0_i32_1228 : BitVec 32 := 0#32
  let c0_i32_1229 : BitVec 32 := 0#32
  let c0_i32_1230 : BitVec 32 := 0#32
  ![arg1.toNat, 1, 0, 0, 0]
def k0_off142 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c45_i32 : BitVec 32 := 45#32
  let v830 : BitVec 32 := Scalar.addi v2 c45_i32
  let c0_i32_1235 : BitVec 32 := 0#32
  let c0_i32_1236 : BitVec 32 := 0#32
  ![v830.toNat, 0, 0]
def k0_off143 (v841 : BitVec 32) : Fin 3 → Nat :=
  let c0_i32_1252 : BitVec 32 := 0#32
  let c0_i32_1253 : BitVec 32 := 0#32
  ![v841.toNat, 0, 0]

def k0_chk48 (v841 : BitVec 32) : Prop :=
  (∀ a, (k0_off143 v841) a + S1x224x224.size a ≤ S1536x224x224.size a)
instance k0_chk48.dec : ∀ (v841 : BitVec 32), Decidable (k0_chk48 v841) := fun v841 => decidable_of_iff' _ (Iff.of_eq (k0_chk48.eq_1 v841))
theorem k0_off143_inb : ∀ (v841 : BitVec 32) (k0_hw48 : k0_chk48 v841), ∀ a, (k0_off143 v841) a + S1x224x224.size a ≤ S1536x224x224.size a := fun v841 k0_hw48 => k0_hw48

def k0_off144 (i : grid0.Coords) : Fin 5 → Nat :=
  let arg1 : BitVec 32 := BitVec.ofNat 32 (i 1).val
  let c0_i32_1254 : BitVec 32 := 0#32
  let c0_i32_1255 : BitVec 32 := 0#32
  let c0_i32_1256 : BitVec 32 := 0#32
  let c0_i32_1257 : BitVec 32 := 0#32
  ![arg1.toNat, 0, 0, 0, 0]
def k0_off145 (i : grid0.Coords) (c46_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let v848 : BitVec 32 := Scalar.addi v2 c46_i32
  let c0_i32_1262 : BitVec 32 := 0#32
  let c0_i32_1263 : BitVec 32 := 0#32
  ![v848.toNat, 0, 0]
def k0_off146 (i : grid0.Coords) : Fin 5 → Nat :=
  let arg1 : BitVec 32 := BitVec.ofNat 32 (i 1).val
  let c1_i32_1267 : BitVec 32 := 1#32
  let c0_i32_1268 : BitVec 32 := 0#32
  let c0_i32_1269 : BitVec 32 := 0#32
  let c0_i32_1270 : BitVec 32 := 0#32
  ![arg1.toNat, 1, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x192x224x224_S1536x224x224 : S8x192x224x224.ShapeCasts S1536x224x224
  bcast_S8_S8x1_0 : S8.BroadcastsInDim S8x1 (![0] : Fin 1 → Fin S8x1.rank)
  bcast_S_S8x1 : S_.BroadcastsInDim S8x1 (![] : Fin 0 → Fin S8x1.rank)
  bcast_S192_S1x192_1 : S192.BroadcastsInDim S1x192 (![1] : Fin 1 → Fin S1x192.rank)
  bcast_S8x1_S8x192_0_1 : S8x1.BroadcastsInDim S8x192 (![0, 1] : Fin 2 → Fin S8x192.rank)
  bcast_S1x192_S8x192_0_1 : S1x192.BroadcastsInDim S8x192 (![0, 1] : Fin 2 → Fin S8x192.rank)
  shapeCasts_S8x192_S1536 : S8x192.ShapeCasts S1536
  inb_S48_S16_0 : ∀ a, (![0] : Fin 1 → Nat) a + S16.size a ≤ S48.size a
  h_S16 : 0 < S16.numel
  shapeCasts_S16_S16 : S16.ShapeCasts S16
  slices_S16_o0_S1 : S16.Slices ![0] S1
  inpos_S1_p0 : ∀ a, (![0] : Fin 1 → Nat) a < S1.size a
  squeezes_S1x1x1x224x224_S1x224x224 : S1x1x1x224x224.Squeezes S1x224x224
  slices_S16_o1_S1 : S16.Slices ![1] S1
  inb_S1536x224x224_S1x224x224_0_0_0 : ∀ a, (![0, 0, 0] : Fin 3 → Nat) a + S1x224x224.size a ≤ S1536x224x224.size a
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S48_S16_16 : ∀ a, (![16] : Fin 1 → Nat) a + S16.size a ≤ S48.size a
  inb_S48_S16_32 : ∀ a, (![32] : Fin 1 → Nat) a + S16.size a ≤ S48.size a
  shapeCasts_S1536x224x224_S8x192x224x224 : S1536x224x224.ShapeCasts S8x192x224x224
  hcc0_scratch2 : 0 + S_.numel ≤ 5
  hcc0_scratch3 : 1 + S_.numel ≤ 5
  hcc0_scratch4 : 2 + S_.numel ≤ 5
  hcc0_scratch5 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S48.size a ≤ S1536.size a
  k0_off2_inb : ∀ i : grid0.Coords, ∀ a, (k0_off2 i) a + S1x1x1x224x224.size a ≤ S16x2x1x224x224.size a
  k0_off4_inb : ∀ i : grid0.Coords, ∀ a, (k0_off4 i) a + S1x1x1x224x224.size a ≤ S16x2x1x224x224.size a
  k0_off6_inb : ∀ i : grid0.Coords, ∀ a, (k0_off6 i) a + S1x1x1x224x224.size a ≤ S16x2x1x224x224.size a
  k0_off7_inb : ∀ i : grid0.Coords, ∀ a, (k0_off7 i) a + S1x224x224.size a ≤ S1536x224x224.size a
  k0_off9_inb : ∀ i : grid0.Coords, ∀ a, (k0_off9 i) a + S1x1x1x224x224.size a ≤ S16x2x1x224x224.size a
  k0_off10_inb : ∀ i : grid0.Coords, ∀ a, (k0_off10 i) a + S1x224x224.size a ≤ S1536x224x224.size a
  k0_off12_inb : ∀ i : grid0.Coords, ∀ a, (k0_off12 i) a + S1x1x1x224x224.size a ≤ S16x2x1x224x224.size a
  k0_off13_inb : ∀ i : grid0.Coords, ∀ a, (k0_off13 i) a + S1x224x224.size a ≤ S1536x224x224.size a
  k0_off15_inb : ∀ i : grid0.Coords, ∀ a, (k0_off15 i) a + S1x1x1x224x224.size a ≤ S16x2x1x224x224.size a
  k0_off16_inb : ∀ i : grid0.Coords, ∀ a, (k0_off16 i) a + S1x224x224.size a ≤ S1536x224x224.size a
  k0_off18_inb : ∀ i : grid0.Coords, ∀ a, (k0_off18 i) a + S1x1x1x224x224.size a ≤ S16x2x1x224x224.size a
  k0_off19_inb : ∀ i : grid0.Coords, ∀ a, (k0_off19 i) a + S1x224x224.size a ≤ S1536x224x224.size a
  k0_off21_inb : ∀ i : grid0.Coords, ∀ a, (k0_off21 i) a + S1x1x1x224x224.size a ≤ S16x2x1x224x224.size a
  k0_off22_inb : ∀ i : grid0.Coords, ∀ a, (k0_off22 i) a + S1x224x224.size a ≤ S1536x224x224.size a
  k0_off24_inb : ∀ i : grid0.Coords, ∀ a, (k0_off24 i) a + S1x1x1x224x224.size a ≤ S16x2x1x224x224.size a
  k0_off25_inb : ∀ i : grid0.Coords, ∀ a, (k0_off25 i) a + S1x224x224.size a ≤ S1536x224x224.size a
  k0_off27_inb : ∀ i : grid0.Coords, ∀ a, (k0_off27 i) a + S1x1x1x224x224.size a ≤ S16x2x1x224x224.size a
  k0_off28_inb : ∀ i : grid0.Coords, ∀ a, (k0_off28 i) a + S1x224x224.size a ≤ S1536x224x224.size a
  k0_off30_inb : ∀ i : grid0.Coords, ∀ a, (k0_off30 i) a + S1x1x1x224x224.size a ≤ S16x2x1x224x224.size a
  k0_off31_inb : ∀ i : grid0.Coords, ∀ a, (k0_off31 i) a + S1x224x224.size a ≤ S1536x224x224.size a
  k0_off33_inb : ∀ i : grid0.Coords, ∀ a, (k0_off33 i) a + S1x1x1x224x224.size a ≤ S16x2x1x224x224.size a
  k0_off34_inb : ∀ i : grid0.Coords, ∀ a, (k0_off34 i) a + S1x224x224.size a ≤ S1536x224x224.size a
  k0_off36_inb : ∀ i : grid0.Coords, ∀ a, (k0_off36 i) a + S1x1x1x224x224.size a ≤ S16x2x1x224x224.size a
  k0_off37_inb : ∀ i : grid0.Coords, ∀ a, (k0_off37 i) a + S1x224x224.size a ≤ S1536x224x224.size a
  k0_off39_inb : ∀ i : grid0.Coords, ∀ a, (k0_off39 i) a + S1x1x1x224x224.size a ≤ S16x2x1x224x224.size a
  k0_off40_inb : ∀ i : grid0.Coords, ∀ a, (k0_off40 i) a + S1x224x224.size a ≤ S1536x224x224.size a
  k0_off42_inb : ∀ i : grid0.Coords, ∀ a, (k0_off42 i) a + S1x1x1x224x224.size a ≤ S16x2x1x224x224.size a
  k0_off43_inb : ∀ i : grid0.Coords, ∀ a, (k0_off43 i) a + S1x224x224.size a ≤ S1536x224x224.size a
  k0_off45_inb : ∀ i : grid0.Coords, ∀ a, (k0_off45 i) a + S1x1x1x224x224.size a ≤ S16x2x1x224x224.size a
  k0_off46_inb : ∀ i : grid0.Coords, ∀ a, (k0_off46 i) a + S1x224x224.size a ≤ S1536x224x224.size a
  k0_off48_inb : ∀ i : grid0.Coords, ∀ a, (k0_off48 i) a + S1x1x1x224x224.size a ≤ S16x2x1x224x224.size a
  k0_off49_inb : ∀ i : grid0.Coords, ∀ a, (k0_off49 i) a + S1x224x224.size a ≤ S1536x224x224.size a
  k0_off51_inb : ∀ i : grid0.Coords, ∀ a, (k0_off51 i) a + S1x1x1x224x224.size a ≤ S16x2x1x224x224.size a
  k0_off52_inb : ∀ i : grid0.Coords, ∀ a, (k0_off52 i) a + S1x224x224.size a ≤ S1536x224x224.size a
  k0_off54_inb : ∀ i : grid0.Coords, ∀ a, (k0_off54 i) a + S1x1x1x224x224.size a ≤ S16x2x1x224x224.size a
  k0_off55_inb : ∀ i : grid0.Coords, ∀ a, (k0_off55 i) a + S1x224x224.size a ≤ S1536x224x224.size a
  k0_off57_inb : ∀ i : grid0.Coords, ∀ a, (k0_off57 i) a + S1x1x1x224x224.size a ≤ S16x2x1x224x224.size a
  k0_off58_inb : ∀ i : grid0.Coords, ∀ a, (k0_off58 i) a + S1x224x224.size a ≤ S1536x224x224.size a
  k0_off60_inb : ∀ i : grid0.Coords, ∀ a, (k0_off60 i) a + S1x1x1x224x224.size a ≤ S16x2x1x224x224.size a
  k0_off61_inb : ∀ i : grid0.Coords, ∀ a, (k0_off61 i) a + S1x224x224.size a ≤ S1536x224x224.size a
  k0_off63_inb : ∀ i : grid0.Coords, ∀ a, (k0_off63 i) a + S1x1x1x224x224.size a ≤ S16x2x1x224x224.size a
  k0_off64_inb : ∀ i : grid0.Coords, ∀ a, (k0_off64 i) a + S1x224x224.size a ≤ S1536x224x224.size a
  k0_off66_inb : ∀ i : grid0.Coords, ∀ a, (k0_off66 i) a + S1x1x1x224x224.size a ≤ S16x2x1x224x224.size a
  k0_off67_inb : ∀ i : grid0.Coords, ∀ a, (k0_off67 i) a + S1x224x224.size a ≤ S1536x224x224.size a
  k0_off69_inb : ∀ i : grid0.Coords, ∀ a, (k0_off69 i) a + S1x1x1x224x224.size a ≤ S16x2x1x224x224.size a
  k0_off70_inb : ∀ i : grid0.Coords, ∀ a, (k0_off70 i) a + S1x224x224.size a ≤ S1536x224x224.size a
  k0_off72_inb : ∀ i : grid0.Coords, ∀ a, (k0_off72 i) a + S1x1x1x224x224.size a ≤ S16x2x1x224x224.size a
  k0_off73_inb : ∀ i : grid0.Coords, ∀ a, (k0_off73 i) a + S1x224x224.size a ≤ S1536x224x224.size a
  k0_off75_inb : ∀ i : grid0.Coords, ∀ a, (k0_off75 i) a + S1x1x1x224x224.size a ≤ S16x2x1x224x224.size a
  k0_off76_inb : ∀ i : grid0.Coords, ∀ a, (k0_off76 i) a + S1x224x224.size a ≤ S1536x224x224.size a
  k0_off78_inb : ∀ i : grid0.Coords, ∀ a, (k0_off78 i) a + S1x1x1x224x224.size a ≤ S16x2x1x224x224.size a
  k0_off79_inb : ∀ i : grid0.Coords, ∀ a, (k0_off79 i) a + S1x224x224.size a ≤ S1536x224x224.size a
  k0_off81_inb : ∀ i : grid0.Coords, ∀ a, (k0_off81 i) a + S1x1x1x224x224.size a ≤ S16x2x1x224x224.size a
  k0_off82_inb : ∀ i : grid0.Coords, ∀ a, (k0_off82 i) a + S1x224x224.size a ≤ S1536x224x224.size a
  k0_off84_inb : ∀ i : grid0.Coords, ∀ a, (k0_off84 i) a + S1x1x1x224x224.size a ≤ S16x2x1x224x224.size a
  k0_off85_inb : ∀ i : grid0.Coords, ∀ a, (k0_off85 i) a + S1x224x224.size a ≤ S1536x224x224.size a
  k0_off87_inb : ∀ i : grid0.Coords, ∀ a, (k0_off87 i) a + S1x1x1x224x224.size a ≤ S16x2x1x224x224.size a
  k0_off88_inb : ∀ i : grid0.Coords, ∀ a, (k0_off88 i) a + S1x224x224.size a ≤ S1536x224x224.size a
  k0_off90_inb : ∀ i : grid0.Coords, ∀ a, (k0_off90 i) a + S1x1x1x224x224.size a ≤ S16x2x1x224x224.size a
  k0_off91_inb : ∀ i : grid0.Coords, ∀ a, (k0_off91 i) a + S1x224x224.size a ≤ S1536x224x224.size a
  k0_off93_inb : ∀ i : grid0.Coords, ∀ a, (k0_off93 i) a + S1x1x1x224x224.size a ≤ S16x2x1x224x224.size a
  k0_off94_inb : ∀ i : grid0.Coords, ∀ a, (k0_off94 i) a + S1x224x224.size a ≤ S1536x224x224.size a
  k0_off96_inb : ∀ i : grid0.Coords, ∀ a, (k0_off96 i) a + S1x1x1x224x224.size a ≤ S16x2x1x224x224.size a
  k0_off97_inb : ∀ i : grid0.Coords, ∀ a, (k0_off97 i) a + S1x224x224.size a ≤ S1536x224x224.size a
  k0_off99_inb : ∀ i : grid0.Coords, ∀ a, (k0_off99 i) a + S1x1x1x224x224.size a ≤ S16x2x1x224x224.size a
  k0_off100_inb : ∀ i : grid0.Coords, ∀ a, (k0_off100 i) a + S1x224x224.size a ≤ S1536x224x224.size a
  k0_off102_inb : ∀ i : grid0.Coords, ∀ a, (k0_off102 i) a + S1x1x1x224x224.size a ≤ S16x2x1x224x224.size a
  k0_off103_inb : ∀ i : grid0.Coords, ∀ a, (k0_off103 i) a + S1x224x224.size a ≤ S1536x224x224.size a
  k0_off105_inb : ∀ i : grid0.Coords, ∀ a, (k0_off105 i) a + S1x1x1x224x224.size a ≤ S16x2x1x224x224.size a
  k0_off106_inb : ∀ i : grid0.Coords, ∀ a, (k0_off106 i) a + S1x224x224.size a ≤ S1536x224x224.size a
  k0_off108_inb : ∀ i : grid0.Coords, ∀ a, (k0_off108 i) a + S1x1x1x224x224.size a ≤ S16x2x1x224x224.size a
  k0_off109_inb : ∀ i : grid0.Coords, ∀ a, (k0_off109 i) a + S1x224x224.size a ≤ S1536x224x224.size a
  k0_off111_inb : ∀ i : grid0.Coords, ∀ a, (k0_off111 i) a + S1x1x1x224x224.size a ≤ S16x2x1x224x224.size a
  k0_off112_inb : ∀ i : grid0.Coords, ∀ a, (k0_off112 i) a + S1x224x224.size a ≤ S1536x224x224.size a
  k0_off114_inb : ∀ i : grid0.Coords, ∀ a, (k0_off114 i) a + S1x1x1x224x224.size a ≤ S16x2x1x224x224.size a
  k0_off115_inb : ∀ i : grid0.Coords, ∀ a, (k0_off115 i) a + S1x224x224.size a ≤ S1536x224x224.size a
  k0_off117_inb : ∀ i : grid0.Coords, ∀ a, (k0_off117 i) a + S1x1x1x224x224.size a ≤ S16x2x1x224x224.size a
  k0_off118_inb : ∀ i : grid0.Coords, ∀ a, (k0_off118 i) a + S1x224x224.size a ≤ S1536x224x224.size a
  k0_off120_inb : ∀ i : grid0.Coords, ∀ a, (k0_off120 i) a + S1x1x1x224x224.size a ≤ S16x2x1x224x224.size a
  k0_off121_inb : ∀ i : grid0.Coords, ∀ a, (k0_off121 i) a + S1x224x224.size a ≤ S1536x224x224.size a
  k0_off123_inb : ∀ i : grid0.Coords, ∀ a, (k0_off123 i) a + S1x1x1x224x224.size a ≤ S16x2x1x224x224.size a
  k0_off124_inb : ∀ i : grid0.Coords, ∀ a, (k0_off124 i) a + S1x224x224.size a ≤ S1536x224x224.size a
  k0_off126_inb : ∀ i : grid0.Coords, ∀ a, (k0_off126 i) a + S1x1x1x224x224.size a ≤ S16x2x1x224x224.size a
  k0_off127_inb : ∀ i : grid0.Coords, ∀ a, (k0_off127 i) a + S1x224x224.size a ≤ S1536x224x224.size a
  k0_off129_inb : ∀ i : grid0.Coords, ∀ a, (k0_off129 i) a + S1x1x1x224x224.size a ≤ S16x2x1x224x224.size a
  k0_off130_inb : ∀ i : grid0.Coords, ∀ a, (k0_off130 i) a + S1x224x224.size a ≤ S1536x224x224.size a
  k0_off132_inb : ∀ i : grid0.Coords, ∀ a, (k0_off132 i) a + S1x1x1x224x224.size a ≤ S16x2x1x224x224.size a
  k0_off133_inb : ∀ i : grid0.Coords, ∀ a, (k0_off133 i) a + S1x224x224.size a ≤ S1536x224x224.size a
  k0_off135_inb : ∀ i : grid0.Coords, ∀ a, (k0_off135 i) a + S1x1x1x224x224.size a ≤ S16x2x1x224x224.size a
  k0_off136_inb : ∀ i : grid0.Coords, ∀ a, (k0_off136 i) a + S1x224x224.size a ≤ S1536x224x224.size a
  k0_off138_inb : ∀ i : grid0.Coords, ∀ a, (k0_off138 i) a + S1x1x1x224x224.size a ≤ S16x2x1x224x224.size a
  k0_off139_inb : ∀ i : grid0.Coords, ∀ a, (k0_off139 i) a + S1x224x224.size a ≤ S1536x224x224.size a
  k0_off141_inb : ∀ i : grid0.Coords, ∀ a, (k0_off141 i) a + S1x1x1x224x224.size a ≤ S16x2x1x224x224.size a
  k0_off142_inb : ∀ i : grid0.Coords, ∀ a, (k0_off142 i) a + S1x224x224.size a ≤ S1536x224x224.size a
  k0_off144_inb : ∀ i : grid0.Coords, ∀ a, (k0_off144 i) a + S1x1x1x224x224.size a ≤ S16x2x1x224x224.size a
  k0_off145_inb : ∀ i : grid0.Coords, ∀ (r : Fin 2), ∀ a, (k0_off145 i (BitVec.ofNat 32 (46 + r.val))) a + S1x224x224.size a ≤ S1536x224x224.size a
  k0_off146_inb : ∀ i : grid0.Coords, ∀ a, (k0_off146 i) a + S1x1x1x224x224.size a ≤ S16x2x1x224x224.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scoped0 : DmaSems sig S_ := SemArray.consecutive 4 S_ hcc0_scoped0

class Facts : Prop extends Facts₀ where

variable [Facts]
-- ==== ReferenceIdeal.lean ====
abbrev S8x192x224x224 : Shape := ⟨4, ![8, 192, 224, 224]⟩
abbrev S192 : Shape := ⟨1, ![192]⟩
abbrev S_ : Shape := ⟨0, ![]⟩
abbrev S192x1 : Shape := ⟨2, ![192, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x192x224x224, .f32⟩
  | .hbm, ⟨1, _⟩ => ⟨S192, .i32⟩
  | .hbm, ⟨2, _⟩ => ⟨S_, .i32⟩
  | .hbm, ⟨3, _⟩ => ⟨S192, .i32⟩
  | .hbm, ⟨4, _⟩ => ⟨S192, .i1⟩
  | .hbm, ⟨5, _⟩ => ⟨S_, .i32⟩
  | .hbm, ⟨6, _⟩ => ⟨S192, .i32⟩
  | .hbm, ⟨7, _⟩ => ⟨S192, .i32⟩
  | .hbm, ⟨8, _⟩ => ⟨S192, .i32⟩
  | .hbm, ⟨9, _⟩ => ⟨S192x1, .i32⟩
  | .hbm, ⟨10, _⟩ => ⟨S1, .i32⟩
  | .hbm, ⟨11, _⟩ => ⟨S_, .i32⟩
  | .hbm, ⟨12, _⟩ => ⟨S192x1, .i32⟩
  | .hbm, ⟨13, _⟩ => ⟨S192x1, .i1⟩
  | .hbm, ⟨14, _⟩ => ⟨S1x1, .i32⟩
  | .hbm, ⟨15, _⟩ => ⟨S192x1, .i32⟩
  | .hbm, ⟨16, _⟩ => ⟨S192x1, .i1⟩
  | .hbm, ⟨17, _⟩ => ⟨S192x1, .i1⟩
  | .hbm, ⟨18, _⟩ => ⟨S_, .i1⟩
  | .hbm, ⟨19, _⟩ => ⟨S192, .i1⟩
  | .hbm, ⟨20, _⟩ => ⟨S8x192x224x224, .f32⟩
  | .hbm, ⟨21, _⟩ => ⟨S8x192x224x224, .i1⟩
  | .hbm, ⟨22, _⟩ => ⟨S_, .f32⟩
  | .hbm, ⟨23, _⟩ => ⟨S8x192x224x224, .f32⟩
  | .hbm, ⟨24, _⟩ => ⟨S8x192x224x224, .f32⟩
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S192 : S_.BroadcastsInDim S192 (![] : Fin 0 → Fin S192.rank)
  bcast_S192_S192x1_0 : S192.BroadcastsInDim S192x1 (![0] : Fin 1 → Fin S192x1.rank)
  bcast_S_S192x1 : S_.BroadcastsInDim S192x1 (![] : Fin 0 → Fin S192x1.rank)
  bcast_S1_S1x1_1 : S1.BroadcastsInDim S1x1 (![1] : Fin 1 → Fin S1x1.rank)
  bcast_S1x1_S192x1_0_1 : S1x1.BroadcastsInDim S192x1 (![0, 1] : Fin 2 → Fin S192x1.rank)
  reducesTo_S192x1_S192_d1 : S192x1.ReducesTo [1] S192
  h_S_ : 0 < S_.numel
  bcast_S192_S8x192x224x224_1 : S192.BroadcastsInDim S8x192x224x224 (![1] : Fin 1 → Fin S8x192x224x224.rank)
  bcast_S_S8x192x224x224 : S_.BroadcastsInDim S8x192x224x224 (![] : Fin 0 → Fin S8x192x224x224.rank)
  gather_S8x192x224x224_S192x1_S8x192x224x224_023_1_n_n_1_1_81224224_wf : GatherDims.WF S8x192x224x224 S192x1 S8x192x224x224 [0, 2, 3] [1] [] [1] [] 1 ![8, 1, 224, 224]

variable [Facts₀]

def gather_S8x192x224x224_S192x1_S8x192x224x224_023_1_n_n_1_1_81224224 : GatherDims S8x192x224x224 S192x1 S8x192x224x224 where
  offsetDims := [0, 2, 3]
  collapsedSliceDims := [1]
  operandBatchingDims := []
  startIndicesBatchingDims := []
  startIndexMap := [1]
  indexVectorDim := 1
  sliceSizes := ![8, 1, 224, 224]
  wf := gather_S8x192x224x224_S192x1_S8x192x224x224_023_1_n_n_1_1_81224224_wf

class Facts : Prop extends Facts₀ where

variable [Facts]
-- ==== Proof.KB.Common.lean ====
/-
  The gather kernel on the SparseCores, as the launch theorem sees it: the one vector-subcore call on both
  SparseCores' sixteen tiles, the kernels' label table, the ghost state (the handshakes' rounds beside the local
  transfers' counters), and the arrays the call moves: row r of the result is row idx r of the source, where idx
  is the flat row table the host operations build from the permutation.
-/
import proofs.«204285_g3204045603007_cont_8to1_b_1238_19_alg».proof.Defs
import Idealize.ShloMosaic.Lib.SparseCore.Launch
import Idealize.ShloMosaic.Lib.StableHlo.Run
import Idealize.ShloMosaic.Lib.Pipeline.Kit
import Idealize.ShloMosaic.Lib.Tactic
import proofs.«204285_g3204045603007_cont_8to1_b_1238_19_alg».proof.Proof.Gen.Kernel
import proofs.«204285_g3204045603007_cont_8to1_b_1238_19_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

abbrev EH : Emb UH (MT nD τ sig (HIx 1) (Elt F) ℕ UU ℕ) := embL

end Cert.Proof.KB

end
-- ==== Proof.KB.Rows.lean ====
/-
  The arithmetic of the copy, away from the program: row r of the result is row idx r of the source. One copied
  row lands where the running invariant "rows B … B + k − 1 of the block are done" extends by one; a row of the
  source read through its one-row window is that row; a lane of the tile's index list is a word of the row table.
-/
import proofs.«204285_g3204045603007_cont_8to1_b_1238_19_alg».proof.Proof.KB.Common
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x224x224 EltTy.f32)
local notation "iV" => (Memref.whole Cert.Kernel.main_v9_scv : Memref Cert.Kernel.sig Kind.scVector Space.hbm Cert.Kernel.S1536 EltTy.i32)
local notation "oV" => (Memref.whole Cert.Kernel.main_v10_scv : Memref Cert.Kernel.sig Kind.scVector Space.hbm Cert.Kernel.S1536x224x224 EltTy.f32)
local notation "sI" => (Memref.whole Cert.Kernel.cc0_scratch0 : Memref Cert.Kernel.sig Kind.scVector Space.vmem Cert.Kernel.S48 EltTy.i32)
local notation "shV" => (Memref.whole Cert.Kernel.cc0_scratch1 : Memref Cert.Kernel.sig Kind.scVector Space.shared Cert.Kernel.S16x2x1x224x224 EltTy.f32)

open Idealize.ShloMosaic.ValueIdx (ix1 ix3)

abbrev cV (L : grid0.Coords) : Fin τ.nSC := (L 0).castLE hcore0
abbrev jV (L : grid0.Coords) : Fin τ.nSub := (L 1).castLE hsub0

theorem oBlk_inb : ∀ (L : grid0.Coords) a, (![96 * (L 1).val + 48 * (L 0).val, 0, 0] : Fin 3 → ℕ) a + (![48, 224, 224] : Fin 3 → ℕ) a ≤ S1536x224x224.size a := by
  decide +kernel
theorem shBlk_inb : ∀ (L : grid0.Coords) a, (![(L 1).val, 0, 0, 0, 0] : Fin 5 → ℕ) a + (![1, 2, 1, 224, 224] : Fin 5 → ℕ) a ≤ S16x2x1x224x224.size a := by
  decide +kernel

/-- The 48 rows of the result a tile writes, and its two slots of the shared staging buffer. -/
abbrev oBlk (L : grid0.Coords) : Rect S1536x224x224 := Rect.unit (s := S1536x224x224) ![96 * (L 1).val + 48 * (L 0).val, 0, 0] ![48, 224, 224] (oBlk_inb L)
abbrev shBlk (L : grid0.Coords) : Rect S16x2x1x224x224 := Rect.unit (s := S16x2x1x224x224) ![(L 1).val, 0, 0, 0, 0] ![1, 2, 1, 224, 224] (shBlk_inb L)

/-- The last two rows' windows, in closed form. -/
theorem off_row46 : ∀ L : grid0.Coords, k0_off145 L 46#32 = ![96 * (L 1).val + 48 * (L 0).val + 46, 0, 0] := by decide +kernel
theorem off_row47 : ∀ L : grid0.Coords, k0_off145 L 47#32 = ![96 * (L 1).val + 48 * (L 0).val + 47, 0, 0] := by decide +kernel

/-- A slot's contents are not touched by a copy into the other slot: the two differ in their second coordinate. -/
theorem read_slot_skip (off off' : Fin 5 → ℕ) (inb : ∀ a, off a + S1x1x1x224x224.size a ≤ S16x2x1x224x224.size a)
    (inb' : ∀ a, off' a + S1x1x1x224x224.size a ≤ S16x2x1x224x224.size a) (p p' : ℕ) (hp : off 1 = p) (hp' : off' 1 = p') (hne : p ≠ p')
    (g : S16x2x1x224x224.Idx → Elt F .f32) (w' : S1x224x224.Idx → Elt F .f32) :
    View.read (Elt F) (((shV).slice (Rect.unit (s := S16x2x1x224x224) off S1x1x1x224x224.size inb) (fun _ => rfl)).squeeze S1x224x224 squeezes_S1x1x1x224x224_S1x224x224).view
        (View.write (Elt F) (((shV).slice (Rect.unit (s := S16x2x1x224x224) off' S1x1x1x224x224.size inb') (fun _ => rfl)).squeeze S1x224x224 squeezes_S1x1x1x224x224_S1x224x224).view g w' Finset.univ)
      = View.read (Elt F) (((shV).slice (Rect.unit (s := S16x2x1x224x224) off S1x1x1x224x224.size inb) (fun _ => rfl)).squeeze S1x224x224 squeezes_S1x1x1x224x224_S1x224x224).view g := by
  funext y
  rw [View.read_apply, View.read_apply, View.write_of_not_mem]
  intro hmem
  obtain ⟨x, -, hx⟩ := Finset.mem_map.mp hmem
  apply hne
  have h3 := congrArg (fun i : S16x2x1x224x224.Idx => (i 1).val) hx
  simp only at h3
  have hz : ∀ z : S1x1x1x224x224.Idx, (z 1).val = 0 := fun z => Nat.lt_one_iff.mp (z 1).isLt
  change off' 1 + 1 * ((Shape.reshapeEquiv _ x : S1x1x1x224x224.Idx) 1).val = off 1 + 1 * ((Shape.reshapeEquiv _ y : S1x1x1x224x224.Idx) 1).val at h3
  rw [hz, hz] at h3
  omega

/-- Row `r` of the result is row `idx r` of the source (the word reduced below 1536: every word of the table is). -/
def gatherRows (fx : S1536x224x224.Idx → Elt F .f32) (fi : S1536.Idx → BitVec 32) : S1536x224x224.Idx → Elt F .f32 :=
  fun j => fx (ix3 (⟨(fi (ix1 (j 0))).toNat % 1536, Nat.mod_lt _ (by decide)⟩ : Fin 1536) (j 1) (j 2))

/-- A row index below 1536 names a row of the source: a one-row window at it lies inside the array. -/
theorem row_chk (v : BitVec 32) (h : v.toNat < 1536) :
    ∀ a, (![v.toNat, 0, 0] : Fin 3 → ℕ) a + S1x224x224.size a ≤ S1536x224x224.size a := by
  intro a
  match a with
  | 0 => show v.toNat + 1 ≤ 1536; omega
  | 1 => show 0 + 224 ≤ 224; omega
  | 2 => show 0 + 224 ≤ 224; omega

/-- One lane of sixteen consecutive words of the tile's index list is a word of the list. -/
theorem lane_lt (g : S48.Idx → BitVec 32) (hg : ∀ j, (g j).toNat < 1536)
    (o : Fin 1 → ℕ) (ho : ∀ a, o a + S16.size a ≤ S48.size a) (ln : Fin 1 → ℕ) (hs : S16.Slices ln S1) (hc : S16.ShapeCasts S16)
    (hp : ∀ a, (![0] : Fin 1 → ℕ) a < S1.size a) :
    (extractAt ![0] (extractStridedSlice S1 ln (shapeCast S16 ((sI).view.readAt (Elt F) (Rect.unit (s := S48) o S16.size ho).toLoadRect g) hc) hs) hp).toNat < 1536 :=
  hg _

/-- What the tile's index list holds once its copy has landed: 48 consecutive words of the row table, each below 1536. -/
theorem landed_lt (L : grid0.Coords) (fi : S1536.Idx → BitVec 32) (hpre : ∀ j, (fi j).toNat < 1536)
    (fs : S48.Idx → BitVec 32) (j : S48.Idx) :
    ((sI).view.write (Elt F) fs (ReadAs.same.apply (View.read (Elt F) ((iV).slice (Rect.unit (s := S1536) (k0_off1 L) S48.size (k0_off1_inb L)) (fun _ => rfl)).view fi)) Finset.univ j).toNat < 1536 := by
  have e : (sI).view.write (Elt F) fs (ReadAs.same.apply (View.read (Elt F) ((iV).slice (Rect.unit (s := S1536) (k0_off1 L) S48.size (k0_off1_inb L)) (fun _ => rfl)).view fi)) Finset.univ j
      = (View.read (Elt F) ((iV).slice (Rect.unit (s := S1536) (k0_off1 L) S48.size (k0_off1_inb L)) (fun _ => rfl)).view fi) j :=
    congrFun (View.write_whole_univ _ _ _) j
  rw [e]; exact hpre _

/-- Lane `ln` of the sixteen words at `o` of the landed list is word `48 w + o + ln` of the row table (`w` the tile's number). -/
theorem idx_word (L : grid0.Coords) (fi : S1536.Idx → BitVec 32) (fs : S48.Idx → BitVec 32)
    (o : Fin 1 → ℕ) (ho : ∀ a, o a + S16.size a ≤ S48.size a) (ln : Fin 1 → ℕ) (hs : S16.Slices ln S1) (hc : S16.ShapeCasts S16)
    (hp : ∀ a, (![0] : Fin 1 → ℕ) a < S1.size a) (k : ℕ) (hk : o 0 + ln 0 = k) (i : Fin 1536)
    (hi : i.val = 96 * (L 1).val + 48 * (L 0).val + k) :
    extractAt ![0] (extractStridedSlice S1 ln (shapeCast S16 ((sI).view.readAt (Elt F) (Rect.unit (s := S48) o S16.size ho).toLoadRect
        ((sI).view.write (Elt F) fs (ReadAs.same.apply (View.read (Elt F) ((iV).slice (Rect.unit (s := S1536) (k0_off1 L) S48.size (k0_off1_inb L)) (fun _ => rfl)).view fi)) Finset.univ)) hc) hs) hp
      = fi (ix1 i) := by
  have e : (sI).view.write (Elt F) fs (ReadAs.same.apply (View.read (Elt F) ((iV).slice (Rect.unit (s := S1536) (k0_off1 L) S48.size (k0_off1_inb L)) (fun _ => rfl)).view fi)) Finset.univ
      = (View.read (Elt F) ((iV).slice (Rect.unit (s := S1536) (k0_off1 L) S48.size (k0_off1_inb L)) (fun _ => rfl)).view fi) :=
    View.write_whole_univ _ _ _
  rw [e]
  show fi _ = fi _
  congr 1
  funext a
  apply Fin.ext
  match a with
  | ⟨0, _⟩ =>
    have h1 := congrFun (k0_off1_eq L) 0
    simp only [Matrix.cons_val_zero] at h1
    rw [Shape.reshapeEquiv_self]
    show k0_off1 L 0 + 1 * (o 0 + 1 * (ln 0 + 0)) = i.val
    omega

/-- Row `v` of the source, read through the one-row window at `v`. -/
theorem src_row (fx : S1536x224x224.Idx → Elt F .f32) (v : BitVec 32) (off : Fin 3 → ℕ)
    (inb : ∀ a, off a + S1x224x224.size a ≤ S1536x224x224.size a) (hoff : off = ![v.toNat, 0, 0]) (hv : v.toNat < 1536) (y : S1x224x224.Idx) :
    View.read (Elt F) ((xV).slice (Rect.unit (s := S1536x224x224) off S1x224x224.size inb) (fun _ => rfl)).view fx y
      = fx (ix3 (⟨v.toNat % 1536, Nat.mod_lt _ (by decide)⟩ : Fin 1536) (y 1) (y 2)) := by
  subst hoff
  show fx _ = fx _
  congr 1
  funext a
  apply Fin.ext
  have h0 : (y 0).val = 0 := Nat.lt_one_iff.mp (y 0).isLt
  match a with
  | ⟨0, _⟩ => show v.toNat + 1 * (y 0).val = v.toNat % 1536; rw [h0, Nat.mod_eq_of_lt hv]; omega
  | ⟨1, _⟩ => show 0 + 1 * (y 1).val = (y 1).val; omega
  | ⟨2, _⟩ => show 0 + 1 * (y 2).val = (y 2).val; omega

/-- A copied row is the result's row: the word that named the source row is the table's word for the row written. -/
theorem pay_row (fx : S1536x224x224.Idx → Elt F .f32) (fi : S1536.Idx → BitVec 32) (B k : ℕ) (v : BitVec 32)
    (hv : ∀ i : Fin 1536, i.val = B + k → v = fi (ix1 i))
    (w : S1x224x224.Idx → Elt F .f32)
    (hw : ∀ y, w y = fx (ix3 (⟨v.toNat % 1536, Nat.mod_lt _ (by decide)⟩ : Fin 1536) (y 1) (y 2))) :
    ∀ j : S1536x224x224.Idx, (j 0).val = B + k → w (ix3 0 (j 1) (j 2)) = gatherRows fx fi j := by
  intro j hj
  rw [hw, hv (j 0) hj]
  rfl

/-- One more row done: writing the copied row into row `B + k` of the result leaves rows `B … B + k` at the
    function `G`, the rows before it having been. -/
theorem out_step (G f : S1536x224x224.Idx → Elt F .f32) (B k r : ℕ) (off : Fin 3 → ℕ)
    (inb : ∀ a, off a + S1x224x224.size a ≤ S1536x224x224.size a) (hoff : off = ![r, 0, 0]) (hr : r = B + k)
    (pay : S1x224x224.Idx → Elt F .f32)
    (hpay : ∀ j : S1536x224x224.Idx, (j 0).val = B + k → pay (ix3 0 (j 1) (j 2)) = G j)
    (hf : ∀ j : S1536x224x224.Idx, B ≤ (j 0).val → (j 0).val < B + k → f j = G j) :
    ∀ j : S1536x224x224.Idx, B ≤ (j 0).val → (j 0).val < B + (k + 1) →
      View.write (Elt F) ((oV).slice (Rect.unit (s := S1536x224x224) off S1x224x224.size inb) (fun _ => rfl)).view f pay Finset.univ j = G j := by
  subst hoff; subst hr
  intro j h1 h2
  by_cases hk : (j 0).val = B + k
  · have hj : j = ((oV).slice (Rect.unit (s := S1536x224x224) ![B + k, 0, 0] S1x224x224.size inb) (fun _ => rfl)).view.emb (ix3 0 (j 1) (j 2)) := by
      funext a
      apply Fin.ext
      match a with
      | ⟨0, _⟩ => show (j 0).val = B + k + 1 * 0; omega
      | ⟨1, _⟩ => show (j 1).val = 0 + 1 * (j 1).val; omega
      | ⟨2, _⟩ => show (j 2).val = 0 + 1 * (j 2).val; omega
    rw [hj, View.write_emb_of_mem _ _ (Finset.mem_univ _)]
    rw [← hj]
    exact hpay j hk
  · have hn : j ∉ ((oV).slice (Rect.unit (s := S1536x224x224) ![B + k, 0, 0] S1x224x224.size inb) (fun _ => rfl)).view.setOn Finset.univ := by
      intro hmem
      obtain ⟨x, -, hx⟩ := Finset.mem_map.mp hmem
      apply hk
      have h0 : (x 0).val = 0 := Nat.lt_one_iff.mp (x 0).isLt
      have h3 := congrArg (fun i : S1536x224x224.Idx => (i 0).val) hx
      simp only at h3
      rw [← h3]
      show B + k + 1 * (x 0).val = B + k
      omega
    rw [View.write_of_not_mem _ _ _ hn]
    exact hf j h1 (by omega)

end Cert.Proof.KB

end
-- ==== Proof.KB.Tile.lean ====
/-
  One tile's task, run once at a symbolic tile: its 48 words of the row table fetched, then 48 rows moved through
  its two slots of the shared staging buffer — each slot's incoming copy waited for before its outgoing copy
  starts, each outgoing copy waited for before the slot is refilled; one copy at a time on each of the four
  semaphores. Every word read names a row of the source (the table's words are below 1536), so no copy is
  abandoned; and the rows written are, one after the other, the rows the table names.
-/
import proofs.«204285_g3204045603007_cont_8to1_b_1238_19_alg».proof.Proof.KB.Rows

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x224x224 EltTy.f32)
local notation "iV" => (Memref.whole Cert.Kernel.main_v9_scv : Memref Cert.Kernel.sig Kind.scVector Space.hbm Cert.Kernel.S1536 EltTy.i32)
local notation "oV" => (Memref.whole Cert.Kernel.main_v10_scv : Memref Cert.Kernel.sig Kind.scVector Space.hbm Cert.Kernel.S1536x224x224 EltTy.f32)
local notation "sI" => (Memref.whole Cert.Kernel.cc0_scratch0 : Memref Cert.Kernel.sig Kind.scVector Space.vmem Cert.Kernel.S48 EltTy.i32)
local notation "shV" => (Memref.whole Cert.Kernel.cc0_scratch1 : Memref Cert.Kernel.sig Kind.scVector Space.shared Cert.Kernel.S16x2x1x224x224 EltTy.f32)

open Idealize.ShloMosaic.ValueIdx (ix1 ix3)

variable [FloatOps F]

section Tile

variable (d : Dev nD) (L : grid0.Coords)

omit [FloatOps F] in
/-- A wait recorded at the kernels' index keeps the record admissible. -/
theorem waits_ins {thr : Thread nD τ} {W' W : Waits sig (HIx 1)} {sm : SemLoc sig} (h : ∀ p ∈ W', p ∈ W ∨ p.2 = none) :
    ∀ p ∈ insert (sm, (default : HIx 1)) W', p ∈ W ∨ p.2 = none := fun p hp => by
  rcases Finset.mem_insert.mp hp with rfl | hp
  · exact .inr rfl
  · exact h p hp

set_option maxHeartbeats 8000000 in
/-- The task on vector subcore `(L 0, L 1)`: from shares of the source and of the row table, its block of the result,
    its slots of the staging buffer, its own index list and semaphores, to its block of the result at the rows the
    table names. -/
theorem tile_body (O : CellTallies nD τ sig (HIx 1)) (W : Waits sig (HIx 1)) (hO : ∀ g, O g none = 0)
    (q1 q2 qi : PosShare TreeShare)
    (fx : Buf (Elt F) ((xV).view.loc (V d (cV L) (jV L)))) (fi : Buf (Elt F) ((iV).view.loc (V d (cV L) (jV L))))
    (fo : Buf (Elt F) ((oV).view.loc (V d (cV L) (jV L)))) (fsh : Buf (Elt F) ((shV).view.loc (V d (cV L) (jV L))))
    (fs : Buf (Elt F) ((sI).view.loc (V d (cV L) (jV L)))) (hpre : ∀ j, (fi j).toNat < 1536) :
    (iprop(levAts (K (F := F)).L (K (F := F)).lev
        ∗ ((xV).view.loc (V d (cV L) (jV L)) ↦{q1} fx) ∗ ((xV).view.loc (V d (cV L) (jV L)) ↦{q2} fx)
        ∗ ((iV).view.loc (V d (cV L) (jV L)) ↦{qi} fi)
        ∗ ((oV).view.loc (V d (cV L) (jV L)) ↦[(oV).view.setOn (oBlk L).set]{fullShare} fo)
        ∗ ((shV).view.loc (V d (cV L) (jV L)) ↦[(shV).view.setOn (shBlk L).set]{fullShare} fsh)
        ∗ ((sI).view.loc (V d (cV L) (jV L)) ↦{fullShare} fs)
        ∗ semVal (V d (cV L) (jV L), SemLoc.dma cc0_scratch2.sem) 0 ∗ semVal (V d (cV L) (jV L), SemLoc.dma cc0_scratch3.sem) 0
        ∗ semVal (V d (cV L) (jV L), SemLoc.dma cc0_scratch4.sem) 0 ∗ semVal (V d (cV L) (jV L), SemLoc.dma cc0_scratch5.sem) 0
        ∗ semVal (V d (cV L) (jV L), SemLoc.dma cc0_scoped0.sem) 0
        ∗ owes (V d (cV L) (jV L)) O W) : sProp 𝕄)
      ⊢ wp frame (wpE (defs₀ (F := F)) 𝒱₀ (V d (cV L) (jV L)) none) Set.univ
          (cc0__sc_body L xV (Memref.isWhole_whole _) iV (Memref.isWhole_whole _) oV (Memref.isWhole_whole _)
            sI (Memref.isWhole_whole _) shV (Memref.isWhole_whole _) cc0_scratch2 cc0_scratch3 cc0_scratch4 cc0_scratch5 cc0_scoped0)
          fun _ => iprop((∃ fo', ⌜∀ j : S1536x224x224.Idx, 96 * (L 1).val + 48 * (L 0).val ≤ (j 0).val → (j 0).val < 96 * (L 1).val + 48 * (L 0).val + 48 → fo' j = gatherRows fx fi j⌝
                ∗ ((oV).view.loc (V d (cV L) (jV L)) ↦[(oV).view.setOn (oBlk L).set]{fullShare} fo'))
            ∗ (∃ f, (shV).view.loc (V d (cV L) (jV L)) ↦[(shV).view.setOn (shBlk L).set]{fullShare} f)
            ∗ (∃ f, (sI).view.loc (V d (cV L) (jV L)) ↦{fullShare} f)
            ∗ (semVal (V d (cV L) (jV L), SemLoc.dma cc0_scratch2.sem) 0 ∗ semVal (V d (cV L) (jV L), SemLoc.dma cc0_scratch3.sem) 0
              ∗ semVal (V d (cV L) (jV L), SemLoc.dma cc0_scratch4.sem) 0 ∗ semVal (V d (cV L) (jV L), SemLoc.dma cc0_scratch5.sem) 0
              ∗ semVal (V d (cV L) (jV L), SemLoc.dma cc0_scoped0.sem) 0)
            ∗ ∃ W', ⌜∀ p ∈ W', p ∈ W ∨ p.2 = none⌝ ∗ owes (V d (cV L) (jV L)) O W') := by
  rw [cc0__sc_body_eq_skeleton]; unfold cc0__sc_body_skel
  iintro ⟨#Hlv, Hx1, Hx2, Hi, Ho, Hsh, Hs, Hg0, Hg1, Hs0, Hs1, Hr0, HO⟩
  ihave Hmw := ((K (F := F)).mayWaits_none (thr := V d (cV L) (jV L)) hO) $$ Hlv
  sl_exec_parts (disch := (refine row_chk _ ?_; sl_unfold_run_names; exact lane_lt _ (landed_lt L fi hpre fs) _ _ _ _ _ _))
  rw [wp_ret]; imodintro
  isplitl [Ho]
  · iexists _
    isplitr
    rotate_left
    · iexact Ho
    ipureintro
    refine out_step (gatherRows fx fi) _ (96 * (L 1).val + 48 * (L 0).val) 47 _ _ _ (off_row47 L) (by omega) _
      (pay_row fx fi _ 47 _ (fun i hi => idx_word L fi fs _ _ _ _ _ _ 47 (by rfl) i hi) _
        (fun y => (congrFun (View.read_write_univ _ _) y).trans (src_row fx _ _ _ rfl (lane_lt _ (landed_lt L fi hpre fs) _ _ _ _ _ _) y))) ?_
    refine out_step (gatherRows fx fi) _ (96 * (L 1).val + 48 * (L 0).val) 46 _ _ _ (off_row46 L) (by omega) _
      (pay_row fx fi _ 46 _ (fun i hi => idx_word L fi fs _ _ _ _ _ _ 46 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 45 _ _ _ (k0_off142_eq L) (by omega) _
      (pay_row fx fi _ 45 _ (fun i hi => idx_word L fi fs _ _ _ _ _ _ 45 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 44 _ _ _ (k0_off139_eq L) (by omega) _
      (pay_row fx fi _ 44 _ (fun i hi => idx_word L fi fs _ _ _ _ _ _ 44 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 43 _ _ _ (k0_off136_eq L) (by omega) _
      (pay_row fx fi _ 43 _ (fun i hi => idx_word L fi fs _ _ _ _ _ _ 43 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 42 _ _ _ (k0_off133_eq L) (by omega) _
      (pay_row fx fi _ 42 _ (fun i hi => idx_word L fi fs _ _ _ _ _ _ 42 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 41 _ _ _ (k0_off130_eq L) (by omega) _
      (pay_row fx fi _ 41 _ (fun i hi => idx_word L fi fs _ _ _ _ _ _ 41 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 40 _ _ _ (k0_off127_eq L) (by omega) _
      (pay_row fx fi _ 40 _ (fun i hi => idx_word L fi fs _ _ _ _ _ _ 40 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 39 _ _ _ (k0_off124_eq L) (by omega) _
      (pay_row fx fi _ 39 _ (fun i hi => idx_word L fi fs _ _ _ _ _ _ 39 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 38 _ _ _ (k0_off121_eq L) (by omega) _
      (pay_row fx fi _ 38 _ (fun i hi => idx_word L fi fs _ _ _ _ _ _ 38 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 37 _ _ _ (k0_off118_eq L) (by omega) _
      (pay_row fx fi _ 37 _ (fun i hi => idx_word L fi fs _ _ _ _ _ _ 37 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 36 _ _ _ (k0_off115_eq L) (by omega) _
      (pay_row fx fi _ 36 _ (fun i hi => idx_word L fi fs _ _ _ _ _ _ 36 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 35 _ _ _ (k0_off112_eq L) (by omega) _
      (pay_row fx fi _ 35 _ (fun i hi => idx_word L fi fs _ _ _ _ _ _ 35 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 34 _ _ _ (k0_off109_eq L) (by omega) _
      (pay_row fx fi _ 34 _ (fun i hi => idx_word L fi fs _ _ _ _ _ _ 34 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 33 _ _ _ (k0_off106_eq L) (by omega) _
      (pay_row fx fi _ 33 _ (fun i hi => idx_word L fi fs _ _ _ _ _ _ 33 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 32 _ _ _ (k0_off103_eq L) (by omega) _
      (pay_row fx fi _ 32 _ (fun i hi => idx_word L fi fs _ _ _ _ _ _ 32 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 31 _ _ _ (k0_off100_eq L) (by omega) _
      (pay_row fx fi _ 31 _ (fun i hi => idx_word L fi fs _ _ _ _ _ _ 31 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 30 _ _ _ (k0_off97_eq L) (by omega) _
      (pay_row fx fi _ 30 _ (fun i hi => idx_word L fi fs _ _ _ _ _ _ 30 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 29 _ _ _ (k0_off94_eq L) (by omega) _
      (pay_row fx fi _ 29 _ (fun i hi => idx_word L fi fs _ _ _ _ _ _ 29 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 28 _ _ _ (k0_off91_eq L) (by omega) _
      (pay_row fx fi _ 28 _ (fun i hi => idx_word L fi fs _ _ _ _ _ _ 28 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 27 _ _ _ (k0_off88_eq L) (by omega) _
      (pay_row fx fi _ 27 _ (fun i hi => idx_word L fi fs _ _ _ _ _ _ 27 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 26 _ _ _ (k0_off85_eq L) (by omega) _
      (pay_row fx fi _ 26 _ (fun i hi => idx_word L fi fs _ _ _ _ _ _ 26 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 25 _ _ _ (k0_off82_eq L) (by omega) _
      (pay_row fx fi _ 25 _ (fun i hi => idx_word L fi fs _ _ _ _ _ _ 25 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 24 _ _ _ (k0_off79_eq L) (by omega) _
      (pay_row fx fi _ 24 _ (fun i hi => idx_word L fi fs _ _ _ _ _ _ 24 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 23 _ _ _ (k0_off76_eq L) (by omega) _
      (pay_row fx fi _ 23 _ (fun i hi => idx_word L fi fs _ _ _ _ _ _ 23 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 22 _ _ _ (k0_off73_eq L) (by omega) _
      (pay_row fx fi _ 22 _ (fun i hi => idx_word L fi fs _ _ _ _ _ _ 22 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 21 _ _ _ (k0_off70_eq L) (by omega) _
      (pay_row fx fi _ 21 _ (fun i hi => idx_word L fi fs _ _ _ _ _ _ 21 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 20 _ _ _ (k0_off67_eq L) (by omega) _
      (pay_row fx fi _ 20 _ (fun i hi => idx_word L fi fs _ _ _ _ _ _ 20 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 19 _ _ _ (k0_off64_eq L) (by omega) _
      (pay_row fx fi _ 19 _ (fun i hi => idx_word L fi fs _ _ _ _ _ _ 19 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 18 _ _ _ (k0_off61_eq L) (by omega) _
      (pay_row fx fi _ 18 _ (fun i hi => idx_word L fi fs _ _ _ _ _ _ 18 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 17 _ _ _ (k0_off58_eq L) (by omega) _
      (pay_row fx fi _ 17 _ (fun i hi => idx_word L fi fs _ _ _ _ _ _ 17 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 16 _ _ _ (k0_off55_eq L) (by omega) _
      (pay_row fx fi _ 16 _ (fun i hi => idx_word L fi fs _ _ _ _ _ _ 16 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 15 _ _ _ (k0_off52_eq L) (by omega) _
      (pay_row fx fi _ 15 _ (fun i hi => idx_word L fi fs _ _ _ _ _ _ 15 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 14 _ _ _ (k0_off49_eq L) (by omega) _
      (pay_row fx fi _ 14 _ (fun i hi => idx_word L fi fs _ _ _ _ _ _ 14 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 13 _ _ _ (k0_off46_eq L) (by omega) _
      (pay_row fx fi _ 13 _ (fun i hi => idx_word L fi fs _ _ _ _ _ _ 13 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 12 _ _ _ (k0_off43_eq L) (by omega) _
      (pay_row fx fi _ 12 _ (fun i hi => idx_word L fi fs _ _ _ _ _ _ 12 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 11 _ _ _ (k0_off40_eq L) (by omega) _
      (pay_row fx fi _ 11 _ (fun i hi => idx_word L fi fs _ _ _ _ _ _ 11 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 10 _ _ _ (k0_off37_eq L) (by omega) _
      (pay_row fx fi _ 10 _ (fun i hi => idx_word L fi fs _ _ _ _ _ _ 10 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 9 _ _ _ (k0_off34_eq L) (by omega) _
      (pay_row fx fi _ 9 _ (fun i hi => idx_word L fi fs _ _ _ _ _ _ 9 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 8 _ _ _ (k0_off31_eq L) (by omega) _
      (pay_row fx fi _ 8 _ (fun i hi => idx_word L fi fs _ _ _ _ _ _ 8 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 7 _ _ _ (k0_off28_eq L) (by omega) _
      (pay_row fx fi _ 7 _ (fun i hi => idx_word L fi fs _ _ _ _ _ _ 7 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 6 _ _ _ (k0_off25_eq L) (by omega) _
      (pay_row fx fi _ 6 _ (fun i hi => idx_word L fi fs _ _ _ _ _ _ 6 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 5 _ _ _ (k0_off22_eq L) (by omega) _
      (pay_row fx fi _ 5 _ (fun i hi => idx_word L fi fs _ _ _ _ _ _ 5 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 4 _ _ _ (k0_off19_eq L) (by omega) _
      (pay_row fx fi _ 4 _ (fun i hi => idx_word L fi fs _ _ _ _ _ _ 4 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 3 _ _ _ (k0_off16_eq L) (by omega) _
      (pay_row fx fi _ 3 _ (fun i hi => idx_word L fi fs _ _ _ _ _ _ 3 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 2 _ _ _ (k0_off13_eq L) (by omega) _
      (pay_row fx fi _ 2 _ (fun i hi => idx_word L fi fs _ _ _ _ _ _ 2 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 1 _ _ _ (k0_off10_eq L) (by omega) _
      (pay_row fx fi _ 1 _ (fun i hi => idx_word L fi fs _ _ _ _ _ _ 1 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 0 _ _ _ (k0_off7_eq L) (by omega) _
      (pay_row fx fi _ 0 _ (fun i hi => idx_word L fi fs _ _ _ _ _ _ 0 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    exact fun j h1 h2 => absurd h2 (by omega)
  isplitl [Hsh]; · iexists _; iexact Hsh
  isplitl [Hs]; · iexists _; iexact Hs
  isplitl [Hg0 Hg1 Hs0 Hs1 Hr0]
  · isplitl [Hg0]; · iexact Hg0
    isplitl [Hg1]; · iexact Hg1
    isplitl [Hs0]; · iexact Hs0
    isplitl [Hs1]; · iexact Hs1
    iexact Hr0
  iexists _
  isplitr
  rotate_left
  · iexact HO
  ipureintro
  repeat (refine waits_ins (thr := V d (cV L) (jV L)) ?_)
  exact fun p hp => .inl hp

end Tile

end Cert.Proof.KB

end
-- ==== Proof.KB.Host.lean ====
/-
  @main around the call: eleven host operations build the two operands — the source reshaped to 1536 rows of
  224 × 224, and the flat row table idx[192 b + j] = 192 b + permutation[j] — and one reshapes the result back.
-/
import proofs.«204285_g3204045603007_cont_8to1_b_1238_19_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The host operations before the call, in order. -/
abbrev hostOps0 : List (HloOp τ sig (Elt F)) :=
  [ StableHlo.reshape main_arg0 main_v0 rfl shapeCasts_S8x192x224x224_S1536x224x224,
    StableHlo.nullary main_v1 (iotaInDim S8 32 0),
    StableHlo.unary main_v1 main_v2 (broadcastInDim S8x1 ![0] bcast_S8_S8x1_0 : (⟨S8, .i32⟩ : BufTy).Contents (Elt F) → (⟨S8x1, .i32⟩ : BufTy).Contents (Elt F)),
    StableHlo.nullary main_c (constantI S_ 32 192#32),
    StableHlo.unary main_c main_v3 (broadcastInDim S8x1 ![] bcast_S_S8x1 : (⟨S_, .i32⟩ : BufTy).Contents (Elt F) → (⟨S8x1, .i32⟩ : BufTy).Contents (Elt F)),
    StableHlo.binary main_v2 main_v3 main_v4 (muli : (⟨S8x1, .i32⟩ : BufTy).Contents (Elt F) → (⟨S8x1, .i32⟩ : BufTy).Contents (Elt F) → (⟨S8x1, .i32⟩ : BufTy).Contents (Elt F)),
    StableHlo.unary main_arg1 main_v5 (broadcastInDim S1x192 ![1] bcast_S192_S1x192_1 : (⟨S192, .i32⟩ : BufTy).Contents (Elt F) → (⟨S1x192, .i32⟩ : BufTy).Contents (Elt F)),
    StableHlo.unary main_v4 main_v6 (broadcastInDim S8x192 ![0, 1] bcast_S8x1_S8x192_0_1 : (⟨S8x1, .i32⟩ : BufTy).Contents (Elt F) → (⟨S8x192, .i32⟩ : BufTy).Contents (Elt F)),
    StableHlo.unary main_v5 main_v7 (broadcastInDim S8x192 ![0, 1] bcast_S1x192_S8x192_0_1 : (⟨S1x192, .i32⟩ : BufTy).Contents (Elt F) → (⟨S8x192, .i32⟩ : BufTy).Contents (Elt F)),
    StableHlo.binary main_v6 main_v7 main_v8 (addi : (⟨S8x192, .i32⟩ : BufTy).Contents (Elt F) → (⟨S8x192, .i32⟩ : BufTy).Contents (Elt F) → (⟨S8x192, .i32⟩ : BufTy).Contents (Elt F)),
    StableHlo.reshape main_v8 main_v9 rfl shapeCasts_S8x192_S1536 ]

/-- The one after it. -/
abbrev hostOps1 : List (HloOp τ sig (Elt F)) :=
  [ StableHlo.reshape main_v10 main_v11 rfl shapeCasts_S1536x224x224_S8x192x224x224 ]

/-- @main is the first stretch, the call, the second stretch. -/
theorem main_eq (d : Dev nD) :
    main (F := F) d = (StableHlo.seq hostOps0 >>= fun _ => ((K (F := F)).run d 0 >>= fun _ => StableHlo.seq hostOps1)) := rfl

end Cert.Proof.KB

end
-- ==== Proof.KB.Pay.lean ====
/-
  What the call's handshakes carry. The TensorCore hands each SparseCore a share of the source and of the row
  table (both only read) and the sixteen 48-row blocks of the result its tiles write; the sequencer hands tile
  (c, s) a share of the two tables, block 2 s + c of the result, and the tile's two slots of the SparseCore's
  shared staging buffer; back come the blocks, each holding the rows the table names, and the slots.
-/
import proofs.«204285_g3204045603007_cont_8to1_b_1238_19_alg».proof.Proof.KB.Rows
import proofs.«204285_g3204045603007_cont_8to1_b_1238_19_alg».proof.Proof.KB.Host

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x224x224 EltTy.f32)
local notation "iV" => (Memref.whole Cert.Kernel.main_v9_scv : Memref Cert.Kernel.sig Kind.scVector Space.hbm Cert.Kernel.S1536 EltTy.i32)
local notation "oV" => (Memref.whole Cert.Kernel.main_v10_scv : Memref Cert.Kernel.sig Kind.scVector Space.hbm Cert.Kernel.S1536x224x224 EltTy.f32)
local notation "sI" => (Memref.whole Cert.Kernel.cc0_scratch0 : Memref Cert.Kernel.sig Kind.scVector Space.vmem Cert.Kernel.S48 EltTy.i32)
local notation "shV" => (Memref.whole Cert.Kernel.cc0_scratch1 : Memref Cert.Kernel.sig Kind.scVector Space.shared Cert.Kernel.S16x2x1x224x224 EltTy.f32)

open Idealize.ShloMosaic.ValueIdx (ix1 ix3)
open Idealize.ShloMosaic.Transfers (shareTokN shareDrop shareTok)

variable (m : (ℓ : Loc nD τ sig) → Buf (Elt F) ℓ) (ρ : Dev nD → PrngReg)

/-- The source rows, the row table and the result rows, as locations of device `d`; a SparseCore's shared staging buffer. -/
abbrev xLoc (d : Dev nD) : Loc nD τ sig := (SparseCore.T d).loc main_v0
abbrev iLoc (d : Dev nD) : Loc nD τ sig := (SparseCore.T d).loc main_v9
abbrev oLoc (d : Dev nD) : Loc nD τ sig := (SparseCore.T d).loc main_v10
abbrev shRef (c : Fin τ.nSC) : DevRef τ sig := ⟨.shared, ⟨0, by decide⟩, c⟩
abbrev shLoc (d : Dev nD) (c : Fin τ.nSC) : Loc nD τ sig := (d, shRef c)

variable [FloatOps F]

/-- The buffers' contents when the call starts: the first stretch of host operations folded over the launch memory. -/
def VA (d : Dev nD) : Valuation τ sig (Elt F) := StableHlo.after hostOps0 (StableHlo.launchContents m d)
/-- The source rows and the row table then, and the result the call leaves: row `r` is source row `idx r`. -/
abbrev Xs (d : Dev nD) : Buf (Elt F) (xLoc d) := VA m d (Proc.devRef .tc main_v0)
abbrev Ix (d : Dev nD) : Buf (Elt F) (iLoc d) := VA m d (Proc.devRef .tc main_v9)
abbrev Os (d : Dev nD) : Buf (Elt F) (oLoc d) := VA m d (Proc.devRef .tc main_v10)
abbrev Gout (d : Dev nD) : Buf (Elt F) (oLoc d) := gatherRows (Xs m d) (Ix m d)

/-- What the proof asks of the launch memory: every word of the row table names a row of the source. -/
def PreOK : Prop := ∀ (d : Dev nD) (j : S1536.Idx), BitVec.toNat (Ix m d j) < 1536

/-- The grid point of SparseCore `c`'s tile `s`. -/
abbrev coordsV (c : Fin (grid0.bound 0)) (s : Fin (grid0.bound 1)) : grid0.Coords :=
  fun | 0 => c | 1 => s | ⟨_ + 2, h⟩ => absurd h (Nat.not_lt.2 (Nat.le_add_left _ _))
abbrev LC (c : Fin ((K (F := F)).nCore 0)) (i : Fin ((K (F := F)).nSub 0)) : grid0.Coords := coordsV ⟨c.val, c.isLt⟩ ⟨i.val, i.isLt⟩

/-- The read share of a table a SparseCore gets, and a tile of it. -/
abbrev qC (c : ℕ) : PosShare TreeShare := shareTokN fullShare c
abbrev qT (L : grid0.Coords) : PosShare TreeShare := shareTokN (qC (L 0).val) (L 1).val

/-- What tile `L` is handed, and what it hands back. -/
def GO (d : Dev nD) (L : grid0.Coords) : sProp 𝕄 :=
  iprop((xLoc d ↦{qT L} Xs m d) ∗ (iLoc d ↦{qT L} Ix m d)
    ∗ (oLoc d ↦[(oV).view.setOn (oBlk L).set]{fullShare} Os m d)
    ∗ ∃ f, shLoc d (cV L) ↦[(shV).view.setOn (shBlk L).set]{fullShare} f)
def TD (d : Dev nD) (L : grid0.Coords) : sProp 𝕄 :=
  iprop((oLoc d ↦[(oV).view.setOn (oBlk L).set]{fullShare} Gout m d)
    ∗ ∃ f, shLoc d (cV L) ↦[(shV).view.setOn (shBlk L).set]{fullShare} f)

/-- The sixteen blocks of the result SparseCore `c`'s tiles write, all at contents `f`. -/
abbrev oBlocks (d : Dev nD) (c : Fin ((K (F := F)).nCore 0)) (f : Buf (Elt F) (oLoc d)) : sProp 𝕄 :=
  bigSep Finset.univ fun i : Fin ((K (F := F)).nSub 0) => oLoc d ↦[(oV).view.setOn (oBlk (LC c i)).set]{fullShare} f

/-- The certificate's payloads; the kernel's proof consumes nothing of the launch's (its transfers are local). -/
def P : (K (F := F)).Pay (nD := nD) (Val := Elt F) (Name := ℕ) (U := UU) where
  st := fun q d c => match q with | 0 => iprop((xLoc d ↦{qC c.val} Xs m d) ∗ (iLoc d ↦{qC c.val} Ix m d) ∗ oBlocks d c (Os m d))
  dn := fun q d c => match q with | 0 => oBlocks d c (Gout m d)
  go := fun q d c i => match q with | 0 => GO m d (LC c i)
  td := fun q d c i => match q with | 0 => TD m d (LC c i)
  x := fun _ _ => iprop(emp)

instance P_storable : (P (F := F) m).IsStorable where
  st q d c := match q with | 0 => by unfold P; infer_instance
  dn q d c := match q with | 0 => by unfold P; infer_instance
  go q _ _ _ := match q with | 0 => by unfold P GO; infer_instance
  td q _ _ _ := match q with | 0 => by unfold P TD; infer_instance

end Cert.Proof.KB

end
-- ==== Proof.KB.Split.lean ====
/-
  How the arrays divide among the tiles. The 32 blocks of 48 rows are pairwise disjoint and cover the result; a
  SparseCore's shared staging buffer is its sixteen tiles' pairs of slots; a table every tile only reads goes out
  in read shares. So the whole result at one function is the blocks each at that function, and back.
-/
import proofs.«204285_g3204045603007_cont_8to1_b_1238_19_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x224x224 EltTy.f32)
local notation "iV" => (Memref.whole Cert.Kernel.main_v9_scv : Memref Cert.Kernel.sig Kind.scVector Space.hbm Cert.Kernel.S1536 EltTy.i32)
local notation "oV" => (Memref.whole Cert.Kernel.main_v10_scv : Memref Cert.Kernel.sig Kind.scVector Space.hbm Cert.Kernel.S1536x224x224 EltTy.f32)
local notation "sI" => (Memref.whole Cert.Kernel.cc0_scratch0 : Memref Cert.Kernel.sig Kind.scVector Space.vmem Cert.Kernel.S48 EltTy.i32)
local notation "shV" => (Memref.whole Cert.Kernel.cc0_scratch1 : Memref Cert.Kernel.sig Kind.scVector Space.shared Cert.Kernel.S16x2x1x224x224 EltTy.f32)

open Idealize.ShloMosaic.ValueIdx (ix1 ix3)
open Idealize.ShloMosaic.Transfers (shareTokN shareDrop shareTok pointsTo_toks_split)

variable (m : (ℓ : Loc nD τ sig) → Buf (Elt F) ℓ) (ρ : Dev nD → PrngReg)

/-- A tile's block of the result, and its slots, as plain index sets (the whole array's view places an index at itself). -/
theorem oSet_eq (L : grid0.Coords) : ((oV).view.setOn (oBlk L).set : Finset S1536x224x224.Idx) = (oBlk L).set := by
  show (oBlk L).set.map (Function.Embedding.refl _) = _
  exact Finset.map_refl
theorem shSet_eq (L : grid0.Coords) : ((shV).view.setOn (shBlk L).set : Finset S16x2x1x224x224.Idx) = (shBlk L).set := by
  show (shBlk L).set.map (Function.Embedding.refl _) = _
  exact Finset.map_refl

/-- Two tiles' blocks are disjoint: their first rows are distinct multiples of 48. -/
theorem oBlk_disjoint {L L' : grid0.Coords} (h : L ≠ L') :
    Disjoint ((oV).view.setOn (oBlk L).set) ((oV).view.setOn (oBlk L').set) := by
  rw [oSet_eq, oSet_eq]
  refine Rect.unit_disjoint 0 ?_
  have hne : (L 0).val ≠ (L' 0).val ∨ (L 1).val ≠ (L' 1).val := by
    by_contra hc
    have e0 : (L 0).val = (L' 0).val := by by_contra e0; exact hc (.inl e0)
    have e1 : (L 1).val = (L' 1).val := by by_contra e1; exact hc (.inr e1)
    apply h
    funext a
    match a with
    | ⟨0, _⟩ => exact Fin.ext e0
    | ⟨1, _⟩ => exact Fin.ext e1
  have h0 : (L 0).val < 2 := (L 0).isLt
  have h0' : (L' 0).val < 2 := (L' 0).isLt
  show 96 * (L 1).val + 48 * (L 0).val + 48 ≤ 96 * (L' 1).val + 48 * (L' 0).val ∨ 96 * (L' 1).val + 48 * (L' 0).val + 48 ≤ 96 * (L 1).val + 48 * (L 0).val
  omega

/-- Every row lies in some tile's block: row `r` in that of tile `(r mod 96 / 48, r / 96)`. -/
theorem oBlk_cover : (Finset.univ : Finset grid0.Coords).biUnion (fun L => (oV).view.setOn (oBlk L).set) = Finset.univ := by
  ext j
  simp only [Finset.mem_biUnion, Finset.mem_univ, true_and, iff_true]
  have hj0 : (j 0).val < 1536 := (j 0).isLt
  have hj1 : (j 1).val < 224 := (j 1).isLt
  have hj2 : (j 2).val < 224 := (j 2).isLt
  refine ⟨coordsV ⟨((j 0).val % 96) / 48, show _ < 2 by omega⟩ ⟨(j 0).val / 96, show _ < 16 by omega⟩, ?_⟩
  rw [oSet_eq, Rect.mem_set_unit]
  intro a
  match a with
  | ⟨0, _⟩ =>
    show 96 * ((j 0).val / 96) + 48 * ((j 0).val % 96 / 48) ≤ (j 0).val ∧ (j 0).val < 96 * ((j 0).val / 96) + 48 * ((j 0).val % 96 / 48) + 48
    omega
  | ⟨1, _⟩ => show 0 ≤ (j 1).val ∧ (j 1).val < 0 + 224; omega
  | ⟨2, _⟩ => show 0 ≤ (j 2).val ∧ (j 2).val < 0 + 224; omega

/-- The grid points, as pairs (SparseCore of the call, tile of the call). -/
def coordsEquiv : Fin ((K (F := F)).nCore 0) × Fin ((K (F := F)).nSub 0) ≃ grid0.Coords where
  toFun p := LC p.1 p.2
  invFun L := (⟨(L 0).val, (L 0).isLt⟩, ⟨(L 1).val, (L 1).isLt⟩)
  left_inv _ := rfl
  right_inv L := by
    funext a
    match a with
    | ⟨0, _⟩ => rfl
    | ⟨1, _⟩ => rfl

theorem bigSep_tiles (Φ : grid0.Coords → sProp 𝕄) :
    bigSep Finset.univ Φ = bigSep Finset.univ fun c : Fin ((K (F := F)).nCore 0) => bigSep Finset.univ fun i : Fin ((K (F := F)).nSub 0) => Φ (LC c i) := by
  rw [bigSep_univ_equiv (coordsEquiv (F := F)) Φ, bigSep_univ_prod]
  rfl

/-- The result whole at one function is every tile's block at it. -/
theorem oPts_split (d : Dev nD) (f : Buf (Elt F) (oLoc d)) :
    (oLoc d ↦{fullShare} f : sProp 𝕄) = bigSep Finset.univ fun c : Fin ((K (F := F)).nCore 0) => oBlocks d c f := by
  unfold oBlocks
  rw [← bigSep_tiles (F := F) (fun L => (oLoc d ↦[(oV).view.setOn (oBlk L).set]{fullShare} f : sProp 𝕄)),
    ← pointsTo_biUnion Finset.univ (ℓ := oLoc d) (fun L : grid0.Coords => (oV).view.setOn (oBlk L).set) (fun L _ L' _ h => oBlk_disjoint h), oBlk_cover]
  try rfl

/-- One SparseCore's tiles' slots: disjoint pairs that cover its staging buffer. -/
theorem sh_disjoint (c : Fin ((K (F := F)).nCore 0)) {i i' : Fin ((K (F := F)).nSub 0)} (h : i ≠ i') :
    Disjoint ((shV).view.setOn (shBlk (LC c i)).set) ((shV).view.setOn (shBlk (LC c i')).set) := by
  rw [shSet_eq, shSet_eq]
  refine Rect.unit_disjoint 0 ?_
  have := Fin.val_ne_of_ne h
  show i.val + 1 ≤ i'.val ∨ i'.val + 1 ≤ i.val
  omega

theorem sh_cover (c : Fin ((K (F := F)).nCore 0)) :
    (Finset.univ : Finset (Fin ((K (F := F)).nSub 0))).biUnion (fun i => (shV).view.setOn (shBlk (LC c i)).set) = Finset.univ := by
  ext j
  simp only [Finset.mem_biUnion, Finset.mem_univ, true_and, iff_true]
  have hj1 : (j 1).val < 2 := (j 1).isLt
  have hj2 : (j 2).val < 1 := (j 2).isLt
  have hj3 : (j 3).val < 224 := (j 3).isLt
  have hj4 : (j 4).val < 224 := (j 4).isLt
  refine ⟨⟨(j 0).val, (j 0).isLt⟩, ?_⟩
  rw [shSet_eq, Rect.mem_set_unit]
  intro a
  match a with
  | ⟨0, _⟩ => show (j 0).val ≤ (j 0).val ∧ (j 0).val < (j 0).val + 1; omega
  | ⟨1, _⟩ => show 0 ≤ (j 1).val ∧ (j 1).val < 0 + 2; omega
  | ⟨2, _⟩ => show 0 ≤ (j 2).val ∧ (j 2).val < 0 + 1; omega
  | ⟨3, _⟩ => show 0 ≤ (j 3).val ∧ (j 3).val < 0 + 224; omega
  | ⟨4, _⟩ => show 0 ≤ (j 4).val ∧ (j 4).val < 0 + 224; omega

/-- A tile's slots of SparseCore `c`'s staging buffer, at contents `f`. -/
abbrev shRow (d : Dev nD) (c : Fin ((K (F := F)).nCore 0)) (i : Fin ((K (F := F)).nSub 0)) (f : Buf (Elt F) (shLoc d ((K (F := F)).core 0 c))) : sProp 𝕄 :=
  shLoc d ((K (F := F)).core 0 c) ↦[(shV).view.setOn (shBlk (LC c i)).set]{fullShare} f

theorem shPts_rows (d : Dev nD) (c : Fin ((K (F := F)).nCore 0)) (f : Buf (Elt F) (shLoc d ((K (F := F)).core 0 c))) :
    (shLoc d ((K (F := F)).core 0 c) ↦{fullShare} f : sProp 𝕄) = bigSep Finset.univ fun i : Fin ((K (F := F)).nSub 0) => shRow d c i f := by
  unfold shRow
  rw [← pointsTo_biUnion Finset.univ (ℓ := shLoc d ((K (F := F)).core 0 c)) (fun i : Fin ((K (F := F)).nSub 0) => (shV).view.setOn (shBlk (LC c i)).set)
    (fun i _ i' _ h => sh_disjoint c h), sh_cover c]
  try rfl

/-- The slots, each at contents of its own, are the staging buffer whole at some contents. -/
theorem shRows_join [∀ e, Nonempty (Elt F e)] (d : Dev nD) (c : Fin ((K (F := F)).nCore 0)) :
    (bigSep Finset.univ fun i : Fin ((K (F := F)).nSub 0) => iprop(∃ f, shRow d c i f)) ⊢ (iprop(∃ f, shLoc d ((K (F := F)).core 0 c) ↦{fullShare} f) : sProp 𝕄) := by
  refine (bigSep_exists_pi Finset.univ (fun i (f : Buf (Elt F) (shLoc d ((K (F := F)).core 0 c))) => shRow d c i f)).trans ?_
  iintro ⟨%fs, H⟩
  unfold shRow
  ihave H' := (pointsTo_biUnion_join Finset.univ (fun i : Fin ((K (F := F)).nSub 0) => (shV).view.setOn (shBlk (LC c i)).set) fs (fs ⟨0, show 0 < 16 by decide⟩) (fun i _ i' _ h => sh_disjoint c h)) $$ H
  icases H' with ⟨%g, -, Hg⟩
  rw [sh_cover c]
  iexists g; iexact Hg

/-- The staging buffer is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F]

/-- The call's operands for SparseCore `c` deal into its sixteen tasks' — a read share of each table, a block of the
    result, a pair of slots — and the tasks' results gather into the SparseCore's. -/
theorem vecSplit [∀ e, Nonempty (Elt F e)] : (K (F := F)).VecSplit (P m) 0 := by
  intro d c
  show iprop(iprop((xLoc d ↦{qC c.val} Xs m d) ∗ (iLoc d ↦{qC c.val} Ix m d) ∗ oBlocks d c (Os m d)) ∗ ownBufs (S d ((K (F := F)).core 0 c)))
    ⊢ |={Set.univ}=> iprop((bigSep Finset.univ fun i : Fin ((K (F := F)).nSub 0) => GO m d (LC c i))
      ∗ ((bigSep Finset.univ fun i : Fin ((K (F := F)).nSub 0) => TD m d (LC c i)) -∗ iprop(oBlocks d c (Gout m d) ∗ ownBufs (S d ((K (F := F)).core 0 c)))))
  rw [ownBufs_S]
  unfold GO TD oBlocks
  rw [bigSep_sep', bigSep_sep', bigSep_sep', bigSep_sep']
  iintro ⟨⟨Hx, Hi, Ho⟩, ⟨%fsh, Hsh⟩, Hrest⟩
  ihave Hx' := (pointsTo_toks_split (qC c.val) ((K (F := F)).nSub 0)) $$ Hx
  icases Hx' with ⟨-, Hxs⟩
  ihave Hi' := (pointsTo_toks_split (qC c.val) ((K (F := F)).nSub 0)) $$ Hi
  icases Hi' with ⟨-, His⟩
  ihave Hsh' := ((Entails.of_eq (shPts_rows d c fsh)).trans (SparseCore.ent (bigSep_mono (Φ := fun i => shRow (F := F) d c i fsh)
      (Ψ := fun i => iprop(∃ f, shRow (F := F) d c i f))
      fun i _ => BI.BIClass.exists_intro (Φ := fun f => shRow (F := F) d c i f) fsh))) $$ Hsh
  imodintro
  isplitl [Hxs His Ho Hsh']
  · isplitl [Hxs]; · iexact Hxs
    isplitl [His]; · iexact His
    isplitl [Ho]; · iexact Ho
    iexact Hsh'
  iintro ⟨Ho, Hsh⟩
  isplitl [Ho]; · iexact Ho
  isplitl [Hsh]; · iapply (shRows_join d c); iexact Hsh
  iexact Hrest

end Cert.Proof.KB

end
-- ==== Proof.KB.Obl.lean ====
/-
  The launch theorem's obligation for the one vector-subcore call: tile (c, s)'s task, from what the sequencer
  hands it and the tile's own index list and semaphores, to its block of the result at the rows the table names.
-/
import proofs.«204285_g3204045603007_cont_8to1_b_1238_19_alg».proof.Proof.KB.Tile
import proofs.«204285_g3204045603007_cont_8to1_b_1238_19_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x224x224 EltTy.f32)
local notation "iV" => (Memref.whole Cert.Kernel.main_v9_scv : Memref Cert.Kernel.sig Kind.scVector Space.hbm Cert.Kernel.S1536 EltTy.i32)
local notation "oV" => (Memref.whole Cert.Kernel.main_v10_scv : Memref Cert.Kernel.sig Kind.scVector Space.hbm Cert.Kernel.S1536x224x224 EltTy.f32)
local notation "sI" => (Memref.whole Cert.Kernel.cc0_scratch0 : Memref Cert.Kernel.sig Kind.scVector Space.vmem Cert.Kernel.S48 EltTy.i32)
local notation "shV" => (Memref.whole Cert.Kernel.cc0_scratch1 : Memref Cert.Kernel.sig Kind.scVector Space.shared Cert.Kernel.S16x2x1x224x224 EltTy.f32)

open Idealize.ShloMosaic.ValueIdx (ix1 ix3)
open Idealize.ShloMosaic.Transfers (shareTokN shareDrop shareTok)

variable (m : (ℓ : Loc nD τ sig) → Buf (Elt F) ℓ) (ρ : Dev nD → PrngReg)

variable [FloatOps F]

section Tile

variable (d : Dev nD) (L : grid0.Coords)

/-- A tile's DMA semaphore, as a cell. -/
abbrev dcell (d : Dev nD) (c : Fin τ.nSC) (i : Fin τ.nSub) (s : DmaSem sig) : GSem nD τ sig := (V d c i, .dma s)

omit [FloatOps F] in
theorem ownSems0_V :
    (ownSems0 (V d (cV L) (jV L)) : sProp 𝕄)
      = iprop(semVal (dcell d (cV L) (jV L) cc0_scratch2.sem) 0 ∗ semVal (dcell d (cV L) (jV L) cc0_scratch3.sem) 0 ∗ semVal (dcell d (cV L) (jV L) cc0_scratch4.sem) 0 ∗ semVal (dcell d (cV L) (jV L) cc0_scratch5.sem) 0 ∗ semVal (dcell d (cV L) (jV L) cc0_scoped0.sem) 0
          ∗ bigSep ((((((ownCells (V d (cV L) (jV L))).erase (dcell d (cV L) (jV L) cc0_scratch2.sem)).erase (dcell d (cV L) (jV L) cc0_scratch3.sem)).erase (dcell d (cV L) (jV L) cc0_scratch4.sem)).erase (dcell d (cV L) (jV L) cc0_scratch5.sem)).erase (dcell d (cV L) (jV L) cc0_scoped0.sem)) fun g => semVal g 0) := by
  unfold SparseCore.Cfg.ownSems0
  rw [SparseCore.bigSep_erase' ((mem_ownCells (g := dcell d (cV L) (jV L) cc0_scratch2.sem)).mpr ⟨rfl, by show (SemLoc.dma cc0_scratch2.sem : SemLoc sig).isScoped .scVector = true; decide⟩),
    SparseCore.bigSep_erase' (Finset.mem_erase.mpr ⟨fun e => absurd (congrArg Prod.snd e) (show (SemLoc.dma cc0_scratch3.sem : SemLoc sig) ≠ SemLoc.dma cc0_scratch2.sem by decide), (mem_ownCells (g := dcell d (cV L) (jV L) cc0_scratch3.sem)).mpr ⟨rfl, by show (SemLoc.dma cc0_scratch3.sem : SemLoc sig).isScoped .scVector = true; decide⟩⟩),
    SparseCore.bigSep_erase' (Finset.mem_erase.mpr ⟨fun e => absurd (congrArg Prod.snd e) (show (SemLoc.dma cc0_scratch4.sem : SemLoc sig) ≠ SemLoc.dma cc0_scratch3.sem by decide), Finset.mem_erase.mpr ⟨fun e => absurd (congrArg Prod.snd e) (show (SemLoc.dma cc0_scratch4.sem : SemLoc sig) ≠ SemLoc.dma cc0_scratch2.sem by decide), (mem_ownCells (g := dcell d (cV L) (jV L) cc0_scratch4.sem)).mpr ⟨rfl, by show (SemLoc.dma cc0_scratch4.sem : SemLoc sig).isScoped .scVector = true; decide⟩⟩⟩),
    SparseCore.bigSep_erase' (Finset.mem_erase.mpr ⟨fun e => absurd (congrArg Prod.snd e) (show (SemLoc.dma cc0_scratch5.sem : SemLoc sig) ≠ SemLoc.dma cc0_scratch4.sem by decide), Finset.mem_erase.mpr ⟨fun e => absurd (congrArg Prod.snd e) (show (SemLoc.dma cc0_scratch5.sem : SemLoc sig) ≠ SemLoc.dma cc0_scratch3.sem by decide), Finset.mem_erase.mpr ⟨fun e => absurd (congrArg Prod.snd e) (show (SemLoc.dma cc0_scratch5.sem : SemLoc sig) ≠ SemLoc.dma cc0_scratch2.sem by decide), (mem_ownCells (g := dcell d (cV L) (jV L) cc0_scratch5.sem)).mpr ⟨rfl, by show (SemLoc.dma cc0_scratch5.sem : SemLoc sig).isScoped .scVector = true; decide⟩⟩⟩⟩),
    SparseCore.bigSep_erase' (Finset.mem_erase.mpr ⟨fun e => absurd (congrArg Prod.snd e) (show (SemLoc.dma cc0_scoped0.sem : SemLoc sig) ≠ SemLoc.dma cc0_scratch5.sem by decide), Finset.mem_erase.mpr ⟨fun e => absurd (congrArg Prod.snd e) (show (SemLoc.dma cc0_scoped0.sem : SemLoc sig) ≠ SemLoc.dma cc0_scratch4.sem by decide), Finset.mem_erase.mpr ⟨fun e => absurd (congrArg Prod.snd e) (show (SemLoc.dma cc0_scoped0.sem : SemLoc sig) ≠ SemLoc.dma cc0_scratch3.sem by decide), Finset.mem_erase.mpr ⟨fun e => absurd (congrArg Prod.snd e) (show (SemLoc.dma cc0_scoped0.sem : SemLoc sig) ≠ SemLoc.dma cc0_scratch2.sem by decide), (mem_ownCells (g := dcell d (cV L) (jV L) cc0_scoped0.sem)).mpr ⟨rfl, by show (SemLoc.dma cc0_scoped0.sem : SemLoc sig).isScoped .scVector = true; decide⟩⟩⟩⟩⟩)]

omit [FloatOps F] in
/-- The tile's index list is among its own buffers: it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
/-- On a tile's block the rows' bounds hold: what the task leaves there is the function the table names. -/
theorem blk_val (f g : S1536x224x224.Idx → Elt F .f32)
    (h : ∀ j : S1536x224x224.Idx, 96 * (L 1).val + 48 * (L 0).val ≤ (j 0).val → (j 0).val < 96 * (L 1).val + 48 * (L 0).val + 48 → f j = g j) :
    ∀ i ∈ ((oV).view.setOn (oBlk L).set : Finset S1536x224x224.Idx), f i = g i := by
  intro i hi
  rw [oSet_eq, Rect.mem_set_unit] at hi
  have h0 := hi 0
  exact h i h0.1 h0.2

/-- The task on vector subcore `(L 0, L 1)` of device `d`, in the launch theorem's terms. -/
theorem tile_task (hF : (K (F := F)).Facts) (hpre : PreOK m) (O : CellTallies nD τ sig (HIx 1)) (W : Waits sig (HIx 1)) (hO : ∀ g, O g none = 0) :
    iprop(levAts (K (F := F)).L (K (F := F)).lev ∗ emp ∗ GO m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) iV (Memref.isWhole_whole _) oV (Memref.isWhole_whole _)
            sI (Memref.isWhole_whole _) shV (Memref.isWhole_whole _) cc0_scratch2 cc0_scratch3 cc0_scratch4 cc0_scratch5 cc0_scoped0)
          fun _ => iprop(TD m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold GO TD
  iintro ⟨#Hlv, -, ⟨Hx, Hi, Ho, ⟨%fsh, Hsh⟩⟩, ⟨⟨%fs, Hs⟩, Hbufs⟩, ⟨Hg0, Hg1, Hs0, Hs1, Hr0, Hsems⟩, HO⟩
  ihave Hx' := (pointsTo_share (PosShare.mem_left_op_right (qT L))).1 $$ Hx
  icases Hx' with ⟨Hx1, Hx2⟩
  iapply (wp_wand frame (wpE (defs₀ (F := F)) 𝒱₀ (V d (cV L) (jV L)) none) Set.univ) $$ [Hx1 Hx2 Hi Ho Hsh Hs Hg0 Hg1 Hs0 Hs1 Hr0 HO] [Hbufs Hsems]
  · iapply (tile_body d L O W hO (qT L).left (qT L).right (qT L) (Xs m d) (Ix m d) (Os m d) fsh fs (hpre d))
    isplitr; · iexact Hlv
    isplitl [Hx1]; · iexact Hx1
    isplitl [Hx2]; · iexact Hx2
    isplitl [Hi]; · iexact Hi
    isplitl [Ho]; · iexact Ho
    isplitl [Hsh]; · iexact Hsh
    isplitl [Hs]; · iexact Hs
    isplitl [Hg0]; · iexact Hg0
    isplitl [Hg1]; · iexact Hg1
    isplitl [Hs0]; · iexact Hs0
    isplitl [Hs1]; · iexact Hs1
    isplitl [Hr0]; · iexact Hr0
    iexact HO
  iintro %_ ⟨⟨%fo', %hfo, Ho⟩, ⟨%f1, Hsh⟩, ⟨%f2, Hs⟩, ⟨Hg0, Hg1, Hs0, Hs1, Hr0⟩, HW⟩
  ihave Ho' := (Entails.of_eq (pointsTo_congr (ℓ := oLoc d) (q := fullShare) (blk_val L fo' (Gout m d) hfo))) $$ Ho
  isplitl [Ho' Hsh]
  · isplitl [Ho']; · iexact Ho'
    iexists _; iexact Hsh
  isplitl [Hs Hbufs]
  · isplitl [Hs]; · iexists _; iexact Hs
    iexact Hbufs
  isplitl [Hg0 Hg1 Hs0 Hs1 Hr0 Hsems]
  · isplitl [Hg0]; · iexact Hg0
    isplitl [Hg1]; · iexact Hg1
    isplitl [Hs0]; · iexact Hs0
    isplitl [Hs1]; · iexact Hs1
    isplitl [Hr0]; · iexact Hr0
    iexact Hsems
  iexact HW

end Tile

/-! ## The launch theorem's obligation -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) iV (Memref.isWhole_whole _) oV (Memref.isWhole_whole _)
          sI (Memref.isWhole_whole _) shV (Memref.isWhole_whole _) cc0_scratch2 cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (coordsV ⟨_, hc.1⟩ ⟨_, hc.2⟩) hF hpre O W hO).trans (wp_mono frame _ _ fun _ => obl_post)

end Cert.Proof.KB

end
-- ==== Proof.KB.Main.lean ====
/-
  @main on the TensorCore: the first stretch of host operations leaves the source rows and the row table; the call
  takes them (read shares) and the result's blocks to the two SparseCores and brings the blocks back at the rows
  the table names; the last operation reshapes the result. The arguments are never written.
-/
import proofs.«204285_g3204045603007_cont_8to1_b_1238_19_alg».proof.Proof.KB.Split
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x224x224 EltTy.f32)
local notation "iV" => (Memref.whole Cert.Kernel.main_v9_scv : Memref Cert.Kernel.sig Kind.scVector Space.hbm Cert.Kernel.S1536 EltTy.i32)
local notation "oV" => (Memref.whole Cert.Kernel.main_v10_scv : Memref Cert.Kernel.sig Kind.scVector Space.hbm Cert.Kernel.S1536x224x224 EltTy.f32)
local notation "sI" => (Memref.whole Cert.Kernel.cc0_scratch0 : Memref Cert.Kernel.sig Kind.scVector Space.vmem Cert.Kernel.S48 EltTy.i32)
local notation "shV" => (Memref.whole Cert.Kernel.cc0_scratch1 : Memref Cert.Kernel.sig Kind.scVector Space.shared Cert.Kernel.S16x2x1x224x224 EltTy.f32)

open Idealize.ShloMosaic.ValueIdx (ix1 ix3)
open Idealize.ShloMosaic.Transfers (shareTokN shareDrop shareTok pointsTo_toks_split)
open Idealize.ShloMosaic.StableHlo (after launchContents)

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev i' : DevRef τ sig := Proc.devRef .tc (main_v9 : Ref sig .tc)
abbrev o' : DevRef τ sig := Proc.devRef .tc (main_v10 : Ref sig .tc)
abbrev r' : DevRef τ sig := Proc.devRef .tc (main_v11 : Ref sig .tc)
abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v11

/-- The buffers @main's proof names: the arguments, the call's operands and result, the program's result. -/
abbrev S6 : Finset (DevRef τ sig) := {a0', a1', x', i', o', r'}
abbrev S2 : Finset (DevRef τ sig) := {o', r'}

omit [FloatOps F] in
theorem held_S6 (d : Dev nD) (W : Valuation τ sig (Elt F)) :
    (held (T d) S6 W : sProp 𝕄) = iprop((a0Loc d ↦{fullShare} W a0') ∗ (a1Loc d ↦{fullShare} W a1') ∗ (xLoc d ↦{fullShare} W x')
      ∗ (iLoc d ↦{fullShare} W i') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The contents after the call: the result's buffer at the rows the table names; and the program's result. -/
def V2 (d : Dev nD) : Valuation τ sig (Elt F) := Function.update (VA m d) o' (Gout m d)
def Res (d : Dev nD) : Buf (Elt F) (rLoc d) := after hostOps1 (V2 m d) r'

theorem hsub0 : (hostOps0 (F := F)).Forall fun op => op.bufs ⊆ StableHlo.tcRefs τ sig :=
  ⟨StableHlo.reshape_bufs_sub .., StableHlo.nullary_bufs_sub .., StableHlo.unary_bufs_sub .., StableHlo.nullary_bufs_sub ..,
    StableHlo.unary_bufs_sub .., StableHlo.binary_bufs_sub .., StableHlo.unary_bufs_sub .., StableHlo.unary_bufs_sub ..,
    StableHlo.unary_bufs_sub .., StableHlo.binary_bufs_sub .., StableHlo.reshape_bufs_sub ..⟩
theorem hfresh0 : (hostOps0 (F := F)).Forall fun op => op.fresh = ∅ := ⟨rfl, rfl, rfl, rfl, rfl, rfl, rfl, rfl, rfl, rfl, rfl⟩
theorem hsub1 : ∀ op ∈ (hostOps1 (F := F)), op.bufs ⊆ S2 := by
  intro op hop
  obtain rfl := List.mem_singleton.mp hop
  rw [StableHlo.reshape_bufs]
theorem hfresh1 : ∀ op ∈ (hostOps1 (F := F)), op.fresh = ∅ := by
  intro op hop
  obtain rfl := List.mem_singleton.mp hop
  rfl

theorem hS6 : S6 ⊆ Pipeline.ucRefs τ sig := by decide

/-- @main, with the returns of the two stretches spelt. -/
theorem main_eq2 (d : Dev nD) :
    main (F := F) d = (StableHlo.seq hostOps0 >>= fun _ => ((K (F := F)).run d 0 >>= fun _ => (StableHlo.seq hostOps1 >>= fun _ => pure ⟨⟩))) := rfl

/-- What @main leaves the claim: the arguments and the program's result. -/
abbrev FIN (d : Dev nD) : sProp 𝕄 :=
  iprop((a0Loc d ↦{fullShare} VA m d a0') ∗ (a1Loc d ↦{fullShare} VA m d a1') ∗ rLoc d ↦{fullShare} Res m d)

theorem st0_eq (d : Dev nD) :
    (bigSep Finset.univ fun c : Fin ((K (F := F)).nCore 0) => (P m).st 0 d c)
      = iprop((bigSep Finset.univ fun c : Fin ((K (F := F)).nCore 0) => xLoc d ↦{shareTok fullShare ((K (F := F)).nCore 0) c} Xs m d)
          ∗ (bigSep Finset.univ fun c : Fin ((K (F := F)).nCore 0) => iLoc d ↦{shareTok fullShare ((K (F := F)).nCore 0) c} Ix m d)
          ∗ bigSep Finset.univ fun c : Fin ((K (F := F)).nCore 0) => oBlocks d c (Os m d)) := by
  rw [← bigSep_sep', ← bigSep_sep']
  rfl

theorem dn0_eq (d : Dev nD) :
    (bigSep Finset.univ fun c : Fin ((K (F := F)).nCore 0) => (P m).dn 0 d c)
      = (bigSep Finset.univ fun c : Fin ((K (F := F)).nCore 0) => oBlocks d c (Gout m d) : sProp 𝕄) := rfl

theorem held_VA (d : Dev nD) : (held (d.tc : Thread nD τ) (Pipeline.ucRefs τ sig) (after hostOps0 (launchContents m d)) : sProp 𝕄)
    = held (T d) (Pipeline.ucRefs τ sig) (VA m d) := rfl

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq2, show (unscopedBufs d (fun b => m ((SparseCore.T d).loc b)) : sProp 𝕄)
      = held (T d) (Pipeline.ucRefs τ sig) (launchContents m d) from Pipeline.unscopedBufs_held d (launchContents m d)]
  iintro ⟨#Hctx, Hst, ⟨Hb, Hheld, -, -⟩, -⟩
  iapply (StableHlo.wp_seq 𝒱 none Set.univ d (Pipeline.ucRefs τ sig) _ hostOps0
    (fun op h => Pipeline.sub_ucRefs op ((List.forall_iff_forall_mem.mp hsub0) op h))
    (fun op h => (List.forall_iff_forall_mem.mp hfresh0) op h) _) $$ [Hb Hheld]
  · isplitl [Hb]; · iexact Hb
    iexact Hheld
  iintro ⟨Hb, Hheld⟩
  ihave Hheld' := (Entails.of_eq (held_VA m d)) $$ Hheld
  ihave Hh := (Entails.of_eq (StableHlo.held_sub_split (T d) hS6 (VA m d))) $$ Hheld'
  icases Hh with ⟨H6, -⟩
  ihave H6' := (Entails.of_eq (held_S6 d (VA m d))) $$ H6
  icases H6' with ⟨Ha0, Ha1, Hx, Hi, Ho, Hr⟩
  rw [wp_bind]
  iapply ((K (F := F)).wp_run (D (F := F)) 𝒱 (EH := EH) (P := P m) κ d 0) $$ [Hst Hx Hi Ho Hb Ha0 Ha1 Hr]
  isplitr; · iexact Hctx
  isplitl [Hst]; · iexact Hst
  isplitl [Hx Hi Ho]
  · rw [st0_eq]
    ihave Hx' := (pointsTo_toks_split fullShare ((K (F := F)).nCore 0)) $$ Hx
    icases Hx' with ⟨-, Hxs⟩
    ihave Hi' := (pointsTo_toks_split fullShare ((K (F := F)).nCore 0)) $$ Hi
    icases Hi' with ⟨-, His⟩
    ihave Ho' := (Entails.of_eq (oPts_split d (Os m d))) $$ Ho
    isplitl [Hxs]; · iexact Hxs
    isplitl [His]; · iexact His
    iexact Ho'
  iintro ⟨Hst, Hdn⟩
  ihave Ho := ((Entails.of_eq (dn0_eq m d)).trans (Entails.of_eq (oPts_split d (Gout m d)).symm)) $$ Hdn
  iapply (StableHlo.wp_seq 𝒱 none Set.univ d S2 _ hostOps1 hsub1 hfresh1 (V2 m d)) $$ [Hb Ho Hr]
  · isplitl [Hb]; · iexact Hb
    rw [held_S2]
    isplitl [Ho]
    · rw [show V2 m d o' = Gout m d from Function.update_self _ _ _]; iexact Ho
    · rw [show V2 m d r' = VA m d r' from Function.update_of_ne (show r' ≠ o' by decide) _ _]; iexact Hr
  iintro ⟨Hb, Hheld⟩
  ihave H2 := (Entails.of_eq (held_S2 d (after hostOps1 (V2 m d)))) $$ Hheld
  icases H2 with ⟨-, Hr⟩
  rw [wp_pure]; imodintro
  isplitl [Hst]; · iexact Hst
  isplitl [Ha0]; · iexact Ha0
  isplitl [Ha1]; · iexact Ha1
  iexact Hr

/-! ## What the final memory reads -/

def fq (d : Dev nD) (s' : Phys nD τ sig (Elt F)) : Prop :=
  s'.mem.mem (a0Loc d) = VA m d a0' ∧ s'.mem.mem (a1Loc d) = VA m d a1' ∧ s'.mem.mem (rLoc d) = Res m d

theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := VA m d a0'))) $$ [HSI Ha0]
  · isplitl [HSI] <;> iassumption
  icases H with ⟨%h1, HSI, -⟩
  ihave H := (persistent_entails_right (SI_pointsTo_agree (st := s') (ℓ := a1Loc d) (I := Finset.univ) (q := fullShare) (f := VA m d a1'))) $$ [HSI Ha1]
  · isplitl [HSI] <;> iassumption
  icases H with ⟨%h2, HSI, -⟩
  ihave H := (SI_pointsTo_agree (st := s') (ℓ := rLoc d) (I := Finset.univ) (q := fullShare) (f := Res m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- No host operation writes an argument. -/
theorem VA_arg0 (d : Dev nD) : VA m d a0' = m (a0Loc d) := by
  unfold VA
  simp only [StableHlo.after_cons, StableHlo.after_nil]
  rfl
theorem VA_arg1 (d : Dev nD) : VA m d a1' = m (a1Loc d) := by
  unfold VA
  simp only [StableHlo.after_cons, StableHlo.after_nil]
  rfl

end Cert.Proof.KB

end
-- ==== Proof.KB.PreOK.lean ====
/-
  Why every copy finds its row. The precondition bounds the permutation's words in [0, 191]; the row table the
  host builds is idx[192 b + j] = 192 b + permutation[j] (no wrap-around: below 1536), so each of its words
  names a row of the source.
-/
import proofs.«204285_g3204045603007_cont_8to1_b_1238_19_alg».proof.Proof.KB.Pay
import Idealize.ShloMosaic.Lib.ReduceAll
import Idealize.ShloMosaic.Lib.Affine
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x224x224 EltTy.f32)
local notation "iV" => (Memref.whole Cert.Kernel.main_v9_scv : Memref Cert.Kernel.sig Kind.scVector Space.hbm Cert.Kernel.S1536 EltTy.i32)
local notation "oV" => (Memref.whole Cert.Kernel.main_v10_scv : Memref Cert.Kernel.sig Kind.scVector Space.hbm Cert.Kernel.S1536x224x224 EltTy.f32)
local notation "sI" => (Memref.whole Cert.Kernel.cc0_scratch0 : Memref Cert.Kernel.sig Kind.scVector Space.vmem Cert.Kernel.S48 EltTy.i32)
local notation "shV" => (Memref.whole Cert.Kernel.cc0_scratch1 : Memref Cert.Kernel.sig Kind.scVector Space.shared Cert.Kernel.S16x2x1x224x224 EltTy.f32)

open Idealize.ShloMosaic.ValueIdx (ix0 ix1 ix2 ix3)
open Idealize.ShloMosaic.StableHlo (after launchContents)

variable (m : (ℓ : Loc nD τ sig) → Buf (Elt F) ℓ)

variable [FloatOps F]

instance : Subsingleton Cert.Pre_input_domain.S_.Idx := ⟨fun a b => funext fun d => d.elim0⟩

/-- The precondition's second half: every word of the permutation lies in [0, 191]. -/
theorem perm_le [hP : Cert.Pre_input_domain.Facts] (x : Cert.Pre_input_domain.S8x192x224x224.Idx → Elt F .f32) (p : Cert.Pre_input_domain.S192.Idx → BitVec 32)
    (h : Cert.Pre_input_domain.fn (F := F) x p = fun _ => 1#1) (j : Cert.Pre_input_domain.S192.Idx) : (p j).toNat ≤ 191 := by
  have e := congrFun h ix0
  dsimp only [Cert.Pre_input_domain.fn] at e
  obtain ⟨-, e2⟩ := IntOp.andi_eq_one.mp (show IntOp.andi _ _ = 1#1 from e)
  have e3 := Host.reduce_andi_all _ _ _ _ ix0 e2 j
  obtain ⟨g1, g2⟩ := IntOp.andi_eq_one.mp (show IntOp.andi _ _ = 1#1 from e3)
  have g1' := IntOp.cmpi_sge.mp (show IntOp.cmpi .sge (p j) 0#32 = 1#1 from g1)
  have g2' := IntOp.cmpi_sle.mp (show IntOp.cmpi .sle (p j) 191#32 = 1#1 from g2)
  have h0 : (0#32 : BitVec 32).toInt = 0 := by decide
  have h191 : (191#32 : BitVec 32).toInt = 191 := by decide
  rw [h0] at g1'
  rw [h191] at g2'
  have hlt := (p j).isLt
  rw [BitVec.toInt_eq_toNat_cond] at g1' g2'
  split_ifs at g1' g2' <;> omega

/-- The row table, as the host operations compute it. -/
theorem Ix_eq (d : Dev nD) :
    Ix m d = shapeCast S1536 (addi
        (broadcastInDim S8x192 ![0, 1] bcast_S8x1_S8x192_0_1 (muli (broadcastInDim S8x1 ![0] bcast_S8_S8x1_0 (iotaInDim S8 32 0))
          (broadcastInDim S8x1 ![] bcast_S_S8x1 (constantI S_ 32 192#32))))
        (broadcastInDim S8x192 ![0, 1] bcast_S1x192_S8x192_0_1 (broadcastInDim S1x192 ![1] bcast_S192_S1x192_1
          (m ((SparseCore.T d).loc main_arg1) : S192.Idx → BitVec 32)))) shapeCasts_S8x192_S1536 := by
  show after hostOps0 (launchContents m d) (Proc.devRef .tc main_v9) = _
  after_results
  rfl

/-- Word `r` of the row table: `192 (r / 192) + permutation[r mod 192]`, with no wrap-around. -/
theorem Ix_val (d : Dev nD) (hperm : ∀ j : S192.Idx, BitVec.toNat ((m ((SparseCore.T d).loc main_arg1) : S192.Idx → BitVec 32) j) ≤ 191)
    (r : S1536.Idx) :
    BitVec.toNat (Ix m d r) = 192 * ((r 0).val / 192)
      + BitVec.toNat ((m ((SparseCore.T d).loc main_arg1) : S192.Idx → BitVec 32) (ix1 (⟨(r 0).val % 192, Nat.mod_lt _ (by decide)⟩ : Fin 192))) := by
  have hr : (r 0).val < 1536 := (r 0).isLt
  have hb : (r 0).val / 192 < 8 := by omega
  have hw := hperm (ix1 (⟨(r 0).val % 192, Nat.mod_lt _ (by decide)⟩ : Fin 192))
  rw [Ix_eq]
  rw [shapeCast_apply _ _ r (ix2 (⟨(r 0).val / 192, hb⟩ : Fin 8) (⟨(r 0).val % 192, Nat.mod_lt _ (by decide)⟩ : Fin 192))
    (by rw [Shape.rowMajor_val_two, Shape.rowMajor_val_one]; show (r 0).val / 192 * 192 + (r 0).val % 192 = (r 0).val; omega)]
  have eA : broadcastInDim S8x192 ![0, 1] bcast_S8x1_S8x192_0_1 (muli (broadcastInDim S8x1 ![0] bcast_S8_S8x1_0 (iotaInDim S8 32 0))
        (broadcastInDim S8x1 ![] bcast_S_S8x1 (constantI S_ 32 192#32))) (ix2 (⟨(r 0).val / 192, hb⟩ : Fin 8) (⟨(r 0).val % 192, Nat.mod_lt _ (by decide)⟩ : Fin 192))
      = IntOp.muli (BitVec.ofNat 32 ((r 0).val / 192)) 192#32 := by
    rw [broadcastInDim_apply _ _ _ _ (ix2 (⟨(r 0).val / 192, hb⟩ : Fin 8) (0 : Fin 1)) (fun a => by match a with | ⟨0, _⟩ => rfl | ⟨1, _⟩ => rfl)]
    show IntOp.muli (broadcastInDim S8x1 ![0] bcast_S8_S8x1_0 (iotaInDim S8 32 0) (ix2 (⟨(r 0).val / 192, hb⟩ : Fin 8) (0 : Fin 1))) 192#32 = _
    rw [broadcastInDim_apply _ _ _ _ (ix1 (⟨(r 0).val / 192, hb⟩ : Fin 8)) (fun a => by match a with | ⟨0, _⟩ => rfl)]
    rfl
  have eB : broadcastInDim S8x192 ![0, 1] bcast_S1x192_S8x192_0_1 (broadcastInDim S1x192 ![1] bcast_S192_S1x192_1
        (m ((SparseCore.T d).loc main_arg1) : S192.Idx → BitVec 32)) (ix2 (⟨(r 0).val / 192, hb⟩ : Fin 8) (⟨(r 0).val % 192, Nat.mod_lt _ (by decide)⟩ : Fin 192))
      = (m ((SparseCore.T d).loc main_arg1) : S192.Idx → BitVec 32) (ix1 (⟨(r 0).val % 192, Nat.mod_lt _ (by decide)⟩ : Fin 192)) := by
    rw [broadcastInDim_apply _ _ _ _ (ix2 (0 : Fin 1) (⟨(r 0).val % 192, Nat.mod_lt _ (by decide)⟩ : Fin 192)) (fun a => by match a with | ⟨0, _⟩ => rfl | ⟨1, _⟩ => rfl)]
    rw [broadcastInDim_apply _ _ _ _ (ix1 (⟨(r 0).val % 192, Nat.mod_lt _ (by decide)⟩ : Fin 192)) (fun a => by match a with | ⟨0, _⟩ => rfl)]
  show BitVec.toNat (IntOp.addi _ _) = _
  rw [eA, eB]
  simp only [IntOp.addi, IntOp.muli, BitVec.toNat_add, BitVec.toNat_mul, BitVec.toNat_ofNat, Nat.reducePow, Nat.reduceMod]
  omega

/-- So the precondition gives what the proof asks of the launch memory. -/
theorem preOK_of_perm (hperm : ∀ (d : Dev nD) (j : S192.Idx), BitVec.toNat ((m ((SparseCore.T d).loc main_arg1) : S192.Idx → BitVec 32) j) ≤ 191) : PreOK m := by
  intro d r
  have hr : (r 0).val < 1536 := (r 0).isLt
  have hw := hperm d (ix1 (⟨(r 0).val % 192, Nat.mod_lt _ (by decide)⟩ : Fin 192))
  rw [Ix_val m d (hperm d) r]
  omega

end Cert.Proof.KB

end
-- ==== Proof.KB.Run.lean ====
/-
  The program's run: the launch theorem at the one vector-subcore call — the tiles' obligation, the split of the
  call's operands among them, the launch element, @main — gives that every weakly fair execution of the device's 35
  threads terminates, nothing faulting, the arguments unchanged and the result the rows the table names, reshaped.
-/
import proofs.«204285_g3204045603007_cont_8to1_b_1238_19_alg».proof.Proof.KB.Obl
import proofs.«204285_g3204045603007_cont_8to1_b_1238_19_alg».proof.Proof.KB.Main
import proofs.«204285_g3204045603007_cont_8to1_b_1238_19_alg».proof.Proof.KB.PreOK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x224x224 EltTy.f32)
local notation "iV" => (Memref.whole Cert.Kernel.main_v9_scv : Memref Cert.Kernel.sig Kind.scVector Space.hbm Cert.Kernel.S1536 EltTy.i32)
local notation "oV" => (Memref.whole Cert.Kernel.main_v10_scv : Memref Cert.Kernel.sig Kind.scVector Space.hbm Cert.Kernel.S1536x224x224 EltTy.f32)
local notation "sI" => (Memref.whole Cert.Kernel.cc0_scratch0 : Memref Cert.Kernel.sig Kind.scVector Space.vmem Cert.Kernel.S48 EltTy.i32)
local notation "shV" => (Memref.whole Cert.Kernel.cc0_scratch1 : Memref Cert.Kernel.sig Kind.scVector Space.shared Cert.Kernel.S16x2x1x224x224 EltTy.f32)

variable (m : (ℓ : Loc nD τ sig) → Buf (Elt F) ℓ) (ρ : Dev nD → PrngReg)

variable [FloatOps F]

theorem run_main [∀ e, Nonempty (Elt F e)] (hpre : PreOK m) :
    θ_run (Cert.Kernel.defs (F := F)) (Cert.Kernel.threads (F := F)) ⟨m, fun _ => 0, ρ⟩
      (fun r => ∀ c : Dev nD, r.2.mem (rLoc c) = Res m c ∧ r.2.mem (a0Loc c) = m (a0Loc c) ∧ r.2.mem (a1Loc c) = m (a1Loc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (sep_elim_left.trans (hu₀ m)) (hmain m ρ) (fq m) (hfin m) _
    (fun s' h c => ⟨(h c).2.2, (h c).1.trans (VA_arg0 m c), (h c).2.1.trans (VA_arg1 m c)⟩)

/-- The precondition — every float finite, every word of the permutation in [0, 191] — gives what the run asks. -/
theorem preOK_of_pre [hP : Cert.Pre_input_domain.Facts]
    (h : ∀ c : Dev nD, Cert.Pre_input_domain.fn (F := F) (m ((c.tc : Thread nD τ).loc main_arg0)) (m ((c.tc : Thread nD τ).loc main_arg1)) = fun _ => 1#1) :
    PreOK m :=
  preOK_of_perm m fun d j => perm_le _ _ (h d) j

end Cert.Proof.KB

end
-- ==== Proof.KI.Common.lean ====
/-
  The gather kernel on the SparseCores, as the launch theorem sees it: the one vector-subcore call on both
  SparseCores' sixteen tiles, the kernels' label table, the ghost state (the handshakes' rounds beside the local
  transfers' counters), and the arrays the call moves: row r of the result is row idx r of the source, where idx
  is the flat row table the host operations build from the permutation.
-/
import proofs.«204285_g3204045603007_cont_8to1_b_1238_19_alg».proof.Defs
import Idealize.ShloMosaic.Lib.SparseCore.Launch
import Idealize.ShloMosaic.Lib.StableHlo.Run
import Idealize.ShloMosaic.Lib.Pipeline.Kit
import Idealize.ShloMosaic.Lib.Tactic
import proofs.«204285_g3204045603007_cont_8to1_b_1238_19_alg».proof.Proof.Gen.KernelIdeal
import proofs.«204285_g3204045603007_cont_8to1_b_1238_19_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

abbrev EH : Emb UH (MT nD τ sig (HIx 1) (Elt F) ℕ UU ℕ) := embL

end Cert.Proof.KI

end
-- ==== Proof.KI.Rows.lean ====
/-
  The arithmetic of the copy, away from the program: row r of the result is row idx r of the source. One copied
  row lands where the running invariant "rows B … B + k − 1 of the block are done" extends by one; a row of the
  source read through its one-row window is that row; a lane of the tile's index list is a word of the row table.
-/
import proofs.«204285_g3204045603007_cont_8to1_b_1238_19_alg».proof.Proof.KI.Common
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

open Idealize.ShloMosaic.ValueIdx (ix1 ix3)

abbrev cV (L : grid0.Coords) : Fin τ.nSC := (L 0).castLE hcore0
abbrev jV (L : grid0.Coords) : Fin τ.nSub := (L 1).castLE hsub0

theorem oBlk_inb : ∀ (L : grid0.Coords) a, (![96 * (L 1).val + 48 * (L 0).val, 0, 0] : Fin 3 → ℕ) a + (![48, 224, 224] : Fin 3 → ℕ) a ≤ S1536x224x224.size a := by
  decide +kernel
theorem shBlk_inb : ∀ (L : grid0.Coords) a, (![(L 1).val, 0, 0, 0, 0] : Fin 5 → ℕ) a + (![1, 2, 1, 224, 224] : Fin 5 → ℕ) a ≤ S16x2x1x224x224.size a := by
  decide +kernel

/-- The 48 rows of the result a tile writes, and its two slots of the shared staging buffer. -/
abbrev oBlk (L : grid0.Coords) : Rect S1536x224x224 := Rect.unit (s := S1536x224x224) ![96 * (L 1).val + 48 * (L 0).val, 0, 0] ![48, 224, 224] (oBlk_inb L)
abbrev shBlk (L : grid0.Coords) : Rect S16x2x1x224x224 := Rect.unit (s := S16x2x1x224x224) ![(L 1).val, 0, 0, 0, 0] ![1, 2, 1, 224, 224] (shBlk_inb L)

/-- The last two rows' windows, in closed form. -/
theorem off_row46 : ∀ L : grid0.Coords, k0_off145 L 46#32 = ![96 * (L 1).val + 48 * (L 0).val + 46, 0, 0] := by decide +kernel
theorem off_row47 : ∀ L : grid0.Coords, k0_off145 L 47#32 = ![96 * (L 1).val + 48 * (L 0).val + 47, 0, 0] := by decide +kernel

/-- A slot's contents are not touched by a copy into the other slot: the two differ in their second coordinate. -/
theorem read_slot_skip (off off' : Fin 5 → ℕ) (inb : ∀ a, off a + S1x1x1x224x224.size a ≤ S16x2x1x224x224.size a)
    (inb' : ∀ a, off' a + S1x1x1x224x224.size a ≤ S16x2x1x224x224.size a) (p p' : ℕ) (hp : off 1 = p) (hp' : off' 1 = p') (hne : p ≠ p')
    (g : S16x2x1x224x224.Idx → Elt F .f32) (w' : S1x224x224.Idx → Elt F .f32) :
    View.read (Elt F) (((shV).slice (Rect.unit (s := S16x2x1x224x224) off S1x1x1x224x224.size inb) (fun _ => rfl)).squeeze S1x224x224 squeezes_S1x1x1x224x224_S1x224x224).view
        (View.write (Elt F) (((shV).slice (Rect.unit (s := S16x2x1x224x224) off' S1x1x1x224x224.size inb') (fun _ => rfl)).squeeze S1x224x224 squeezes_S1x1x1x224x224_S1x224x224).view g w' Finset.univ)
      = View.read (Elt F) (((shV).slice (Rect.unit (s := S16x2x1x224x224) off S1x1x1x224x224.size inb) (fun _ => rfl)).squeeze S1x224x224 squeezes_S1x1x1x224x224_S1x224x224).view g := by
  funext y
  rw [View.read_apply, View.read_apply, View.write_of_not_mem]
  intro hmem
  obtain ⟨x, -, hx⟩ := Finset.mem_map.mp hmem
  apply hne
  have h3 := congrArg (fun i : S16x2x1x224x224.Idx => (i 1).val) hx
  simp only at h3
  have hz : ∀ z : S1x1x1x224x224.Idx, (z 1).val = 0 := fun z => Nat.lt_one_iff.mp (z 1).isLt
  change off' 1 + 1 * ((Shape.reshapeEquiv _ x : S1x1x1x224x224.Idx) 1).val = off 1 + 1 * ((Shape.reshapeEquiv _ y : S1x1x1x224x224.Idx) 1).val at h3
  rw [hz, hz] at h3
  omega

/-- Row `r` of the result is row `idx r` of the source (the word reduced below 1536: every word of the table is). -/
def gatherRows (fx : S1536x224x224.Idx → Elt F .f32) (fi : S1536.Idx → BitVec 32) : S1536x224x224.Idx → Elt F .f32 :=
  fun j => fx (ix3 (⟨(fi (ix1 (j 0))).toNat % 1536, Nat.mod_lt _ (by decide)⟩ : Fin 1536) (j 1) (j 2))

/-- A row index below 1536 names a row of the source: a one-row window at it lies inside the array. -/
theorem row_chk (v : BitVec 32) (h : v.toNat < 1536) :
    ∀ a, (![v.toNat, 0, 0] : Fin 3 → ℕ) a + S1x224x224.size a ≤ S1536x224x224.size a := by
  intro a
  match a with
  | 0 => show v.toNat + 1 ≤ 1536; omega
  | 1 => show 0 + 224 ≤ 224; omega
  | 2 => show 0 + 224 ≤ 224; omega

/-- One lane of sixteen consecutive words of the tile's index list is a word of the list. -/
theorem lane_lt (g : S48.Idx → BitVec 32) (hg : ∀ j, (g j).toNat < 1536)
    (o : Fin 1 → ℕ) (ho : ∀ a, o a + S16.size a ≤ S48.size a) (ln : Fin 1 → ℕ) (hs : S16.Slices ln S1) (hc : S16.ShapeCasts S16)
    (hp : ∀ a, (![0] : Fin 1 → ℕ) a < S1.size a) :
    (extractAt ![0] (extractStridedSlice S1 ln (shapeCast S16 ((sI).view.readAt (Elt F) (Rect.unit (s := S48) o S16.size ho).toLoadRect g) hc) hs) hp).toNat < 1536 :=
  hg _

/-- What the tile's index list holds once its copy has landed: 48 consecutive words of the row table, each below 1536. -/
theorem landed_lt (L : grid0.Coords) (fi : S1536.Idx → BitVec 32) (hpre : ∀ j, (fi j).toNat < 1536)
    (fs : S48.Idx → BitVec 32) (j : S48.Idx) :
    ((sI).view.write (Elt F) fs (ReadAs.same.apply (View.read (Elt F) ((iV).slice (Rect.unit (s := S1536) (k0_off1 L) S48.size (k0_off1_inb L)) (fun _ => rfl)).view fi)) Finset.univ j).toNat < 1536 := by
  have e : (sI).view.write (Elt F) fs (ReadAs.same.apply (View.read (Elt F) ((iV).slice (Rect.unit (s := S1536) (k0_off1 L) S48.size (k0_off1_inb L)) (fun _ => rfl)).view fi)) Finset.univ j
      = (View.read (Elt F) ((iV).slice (Rect.unit (s := S1536) (k0_off1 L) S48.size (k0_off1_inb L)) (fun _ => rfl)).view fi) j :=
    congrFun (View.write_whole_univ _ _ _) j
  rw [e]; exact hpre _

/-- Lane `ln` of the sixteen words at `o` of the landed list is word `48 w + o + ln` of the row table (`w` the tile's number). -/
theorem idx_word (L : grid0.Coords) (fi : S1536.Idx → BitVec 32) (fs : S48.Idx → BitVec 32)
    (o : Fin 1 → ℕ) (ho : ∀ a, o a + S16.size a ≤ S48.size a) (ln : Fin 1 → ℕ) (hs : S16.Slices ln S1) (hc : S16.ShapeCasts S16)
    (hp : ∀ a, (![0] : Fin 1 → ℕ) a < S1.size a) (k : ℕ) (hk : o 0 + ln 0 = k) (i : Fin 1536)
    (hi : i.val = 96 * (L 1).val + 48 * (L 0).val + k) :
    extractAt ![0] (extractStridedSlice S1 ln (shapeCast S16 ((sI).view.readAt (Elt F) (Rect.unit (s := S48) o S16.size ho).toLoadRect
        ((sI).view.write (Elt F) fs (ReadAs.same.apply (View.read (Elt F) ((iV).slice (Rect.unit (s := S1536) (k0_off1 L) S48.size (k0_off1_inb L)) (fun _ => rfl)).view fi)) Finset.univ)) hc) hs) hp
      = fi (ix1 i) := by
  have e : (sI).view.write (Elt F) fs (ReadAs.same.apply (View.read (Elt F) ((iV).slice (Rect.unit (s := S1536) (k0_off1 L) S48.size (k0_off1_inb L)) (fun _ => rfl)).view fi)) Finset.univ
      = (View.read (Elt F) ((iV).slice (Rect.unit (s := S1536) (k0_off1 L) S48.size (k0_off1_inb L)) (fun _ => rfl)).view fi) :=
    View.write_whole_univ _ _ _
  rw [e]
  show fi _ = fi _
  congr 1
  funext a
  apply Fin.ext
  match a with
  | ⟨0, _⟩ =>
    have h1 := congrFun (k0_off1_eq L) 0
    simp only [Matrix.cons_val_zero] at h1
    rw [Shape.reshapeEquiv_self]
    show k0_off1 L 0 + 1 * (o 0 + 1 * (ln 0 + 0)) = i.val
    omega

/-- Row `v` of the source, read through the one-row window at `v`. -/
theorem src_row (fx : S1536x224x224.Idx → Elt F .f32) (v : BitVec 32) (off : Fin 3 → ℕ)
    (inb : ∀ a, off a + S1x224x224.size a ≤ S1536x224x224.size a) (hoff : off = ![v.toNat, 0, 0]) (hv : v.toNat < 1536) (y : S1x224x224.Idx) :
    View.read (Elt F) ((xV).slice (Rect.unit (s := S1536x224x224) off S1x224x224.size inb) (fun _ => rfl)).view fx y
      = fx (ix3 (⟨v.toNat % 1536, Nat.mod_lt _ (by decide)⟩ : Fin 1536) (y 1) (y 2)) := by
  subst hoff
  show fx _ = fx _
  congr 1
  funext a
  apply Fin.ext
  have h0 : (y 0).val = 0 := Nat.lt_one_iff.mp (y 0).isLt
  match a with
  | ⟨0, _⟩ => show v.toNat + 1 * (y 0).val = v.toNat % 1536; rw [h0, Nat.mod_eq_of_lt hv]; omega
  | ⟨1, _⟩ => show 0 + 1 * (y 1).val = (y 1).val; omega
  | ⟨2, _⟩ => show 0 + 1 * (y 2).val = (y 2).val; omega

/-- A copied row is the result's row: the word that named the source row is the table's word for the row written. -/
theorem pay_row (fx : S1536x224x224.Idx → Elt F .f32) (fi : S1536.Idx → BitVec 32) (B k : ℕ) (v : BitVec 32)
    (hv : ∀ i : Fin 1536, i.val = B + k → v = fi (ix1 i))
    (w : S1x224x224.Idx → Elt F .f32)
    (hw : ∀ y, w y = fx (ix3 (⟨v.toNat % 1536, Nat.mod_lt _ (by decide)⟩ : Fin 1536) (y 1) (y 2))) :
    ∀ j : S1536x224x224.Idx, (j 0).val = B + k → w (ix3 0 (j 1) (j 2)) = gatherRows fx fi j := by
  intro j hj
  rw [hw, hv (j 0) hj]
  rfl

/-- One more row done: writing the copied row into row `B + k` of the result leaves rows `B … B + k` at the
    function `G`, the rows before it having been. -/
theorem out_step (G f : S1536x224x224.Idx → Elt F .f32) (B k r : ℕ) (off : Fin 3 → ℕ)
    (inb : ∀ a, off a + S1x224x224.size a ≤ S1536x224x224.size a) (hoff : off = ![r, 0, 0]) (hr : r = B + k)
    (pay : S1x224x224.Idx → Elt F .f32)
    (hpay : ∀ j : S1536x224x224.Idx, (j 0).val = B + k → pay (ix3 0 (j 1) (j 2)) = G j)
    (hf : ∀ j : S1536x224x224.Idx, B ≤ (j 0).val → (j 0).val < B + k → f j = G j) :
    ∀ j : S1536x224x224.Idx, B ≤ (j 0).val → (j 0).val < B + (k + 1) →
      View.write (Elt F) ((oV).slice (Rect.unit (s := S1536x224x224) off S1x224x224.size inb) (fun _ => rfl)).view f pay Finset.univ j = G j := by
  subst hoff; subst hr
  intro j h1 h2
  by_cases hk : (j 0).val = B + k
  · have hj : j = ((oV).slice (Rect.unit (s := S1536x224x224) ![B + k, 0, 0] S1x224x224.size inb) (fun _ => rfl)).view.emb (ix3 0 (j 1) (j 2)) := by
      funext a
      apply Fin.ext
      match a with
      | ⟨0, _⟩ => show (j 0).val = B + k + 1 * 0; omega
      | ⟨1, _⟩ => show (j 1).val = 0 + 1 * (j 1).val; omega
      | ⟨2, _⟩ => show (j 2).val = 0 + 1 * (j 2).val; omega
    rw [hj, View.write_emb_of_mem _ _ (Finset.mem_univ _)]
    rw [← hj]
    exact hpay j hk
  · have hn : j ∉ ((oV).slice (Rect.unit (s := S1536x224x224) ![B + k, 0, 0] S1x224x224.size inb) (fun _ => rfl)).view.setOn Finset.univ := by
      intro hmem
      obtain ⟨x, -, hx⟩ := Finset.mem_map.mp hmem
      apply hk
      have h0 : (x 0).val = 0 := Nat.lt_one_iff.mp (x 0).isLt
      have h3 := congrArg (fun i : S1536x224x224.Idx => (i 0).val) hx
      simp only at h3
      rw [← h3]
      show B + k + 1 * (x 0).val = B + k
      omega
    rw [View.write_of_not_mem _ _ _ hn]
    exact hf j h1 (by omega)

end Cert.Proof.KI

end
-- ==== Proof.KI.Tile.lean ====
/-
  One tile's task, run once at a symbolic tile: its 48 words of the row table fetched, then 48 rows moved through
  its two slots of the shared staging buffer — each slot's incoming copy waited for before its outgoing copy
  starts, each outgoing copy waited for before the slot is refilled; one copy at a time on each of the four
  semaphores. Every word read names a row of the source (the table's words are below 1536), so no copy is
  abandoned; and the rows written are, one after the other, the rows the table names.
-/
import proofs.«204285_g3204045603007_cont_8to1_b_1238_19_alg».proof.Proof.KI.Rows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

open Idealize.ShloMosaic.ValueIdx (ix1 ix3)

variable [FloatOps F]

section Tile

variable (d : Dev nD) (L : grid0.Coords)

omit [FloatOps F] in
/-- A wait recorded at the kernels' index keeps the record admissible. -/
theorem waits_ins {thr : Thread nD τ} {W' W : Waits sig (HIx 1)} {sm : SemLoc sig} (h : ∀ p ∈ W', p ∈ W ∨ p.2 = none) :
    ∀ p ∈ insert (sm, (default : HIx 1)) W', p ∈ W ∨ p.2 = none := fun p hp => by
  rcases Finset.mem_insert.mp hp with rfl | hp
  · exact .inr rfl
  · exact h p hp

set_option maxHeartbeats 8000000 in
/-- The task on vector subcore `(L 0, L 1)`: from shares of the source and of the row table, its block of the result,
    its slots of the staging buffer, its own index list and semaphores, to its block of the result at the rows the
    table names. -/
theorem tile_body (O : CellTallies nD τ sig (HIx 1)) (W : Waits sig (HIx 1)) (hO : ∀ g, O g none = 0)
    (q1 q2 qi : PosShare TreeShare)
    (fx : Buf (Elt F) ((xV).view.loc (V d (cV L) (jV L)))) (fi : Buf (Elt F) ((iV).view.loc (V d (cV L) (jV L))))
    (fo : Buf (Elt F) ((oV).view.loc (V d (cV L) (jV L)))) (fsh : Buf (Elt F) ((shV).view.loc (V d (cV L) (jV L))))
    (fs : Buf (Elt F) ((sI).view.loc (V d (cV L) (jV L)))) (hpre : ∀ j, (fi j).toNat < 1536) :
    (iprop(levAts (K (F := F)).L (K (F := F)).lev
        ∗ ((xV).view.loc (V d (cV L) (jV L)) ↦{q1} fx) ∗ ((xV).view.loc (V d (cV L) (jV L)) ↦{q2} fx)
        ∗ ((iV).view.loc (V d (cV L) (jV L)) ↦{qi} fi)
        ∗ ((oV).view.loc (V d (cV L) (jV L)) ↦[(oV).view.setOn (oBlk L).set]{fullShare} fo)
        ∗ ((shV).view.loc (V d (cV L) (jV L)) ↦[(shV).view.setOn (shBlk L).set]{fullShare} fsh)
        ∗ ((sI).view.loc (V d (cV L) (jV L)) ↦{fullShare} fs)
        ∗ semVal (V d (cV L) (jV L), SemLoc.dma cc0_scratch2.sem) 0 ∗ semVal (V d (cV L) (jV L), SemLoc.dma cc0_scratch3.sem) 0
        ∗ semVal (V d (cV L) (jV L), SemLoc.dma cc0_scratch4.sem) 0 ∗ semVal (V d (cV L) (jV L), SemLoc.dma cc0_scratch5.sem) 0
        ∗ semVal (V d (cV L) (jV L), SemLoc.dma cc0_scoped0.sem) 0
        ∗ owes (V d (cV L) (jV L)) O W) : sProp 𝕄)
      ⊢ wp frame (wpE (defs₀ (F := F)) 𝒱₀ (V d (cV L) (jV L)) none) Set.univ
          (cc0__sc_body L xV (Memref.isWhole_whole _) iV (Memref.isWhole_whole _) oV (Memref.isWhole_whole _)
            sI (Memref.isWhole_whole _) shV (Memref.isWhole_whole _) cc0_scratch2 cc0_scratch3 cc0_scratch4 cc0_scratch5 cc0_scoped0)
          fun _ => iprop((∃ fo', ⌜∀ j : S1536x224x224.Idx, 96 * (L 1).val + 48 * (L 0).val ≤ (j 0).val → (j 0).val < 96 * (L 1).val + 48 * (L 0).val + 48 → fo' j = gatherRows fx fi j⌝
                ∗ ((oV).view.loc (V d (cV L) (jV L)) ↦[(oV).view.setOn (oBlk L).set]{fullShare} fo'))
            ∗ (∃ f, (shV).view.loc (V d (cV L) (jV L)) ↦[(shV).view.setOn (shBlk L).set]{fullShare} f)
            ∗ (∃ f, (sI).view.loc (V d (cV L) (jV L)) ↦{fullShare} f)
            ∗ (semVal (V d (cV L) (jV L), SemLoc.dma cc0_scratch2.sem) 0 ∗ semVal (V d (cV L) (jV L), SemLoc.dma cc0_scratch3.sem) 0
              ∗ semVal (V d (cV L) (jV L), SemLoc.dma cc0_scratch4.sem) 0 ∗ semVal (V d (cV L) (jV L), SemLoc.dma cc0_scratch5.sem) 0
              ∗ semVal (V d (cV L) (jV L), SemLoc.dma cc0_scoped0.sem) 0)
            ∗ ∃ W', ⌜∀ p ∈ W', p ∈ W ∨ p.2 = none⌝ ∗ owes (V d (cV L) (jV L)) O W') := by
  rw [cc0__sc_body_eq_skeleton]; unfold cc0__sc_body_skel
  iintro ⟨#Hlv, Hx1, Hx2, Hi, Ho, Hsh, Hs, Hg0, Hg1, Hs0, Hs1, Hr0, HO⟩
  ihave Hmw := ((K (F := F)).mayWaits_none (thr := V d (cV L) (jV L)) hO) $$ Hlv
  sl_exec_parts (disch := (refine row_chk _ ?_; sl_unfold_run_names; exact lane_lt _ (landed_lt L fi hpre fs) _ _ _ _ _ _))
  rw [wp_ret]; imodintro
  isplitl [Ho]
  · iexists _
    isplitr
    rotate_left
    · iexact Ho
    ipureintro
    refine out_step (gatherRows fx fi) _ (96 * (L 1).val + 48 * (L 0).val) 47 _ _ _ (off_row47 L) (by omega) _
      (pay_row fx fi _ 47 _ (fun i hi => idx_word L fi fs _ _ _ _ _ _ 47 (by rfl) i hi) _
        (fun y => (congrFun (View.read_write_univ _ _) y).trans (src_row fx _ _ _ rfl (lane_lt _ (landed_lt L fi hpre fs) _ _ _ _ _ _) y))) ?_
    refine out_step (gatherRows fx fi) _ (96 * (L 1).val + 48 * (L 0).val) 46 _ _ _ (off_row46 L) (by omega) _
      (pay_row fx fi _ 46 _ (fun i hi => idx_word L fi fs _ _ _ _ _ _ 46 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 45 _ _ _ (k0_off142_eq L) (by omega) _
      (pay_row fx fi _ 45 _ (fun i hi => idx_word L fi fs _ _ _ _ _ _ 45 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 44 _ _ _ (k0_off139_eq L) (by omega) _
      (pay_row fx fi _ 44 _ (fun i hi => idx_word L fi fs _ _ _ _ _ _ 44 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 43 _ _ _ (k0_off136_eq L) (by omega) _
      (pay_row fx fi _ 43 _ (fun i hi => idx_word L fi fs _ _ _ _ _ _ 43 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 42 _ _ _ (k0_off133_eq L) (by omega) _
      (pay_row fx fi _ 42 _ (fun i hi => idx_word L fi fs _ _ _ _ _ _ 42 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 41 _ _ _ (k0_off130_eq L) (by omega) _
      (pay_row fx fi _ 41 _ (fun i hi => idx_word L fi fs _ _ _ _ _ _ 41 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 40 _ _ _ (k0_off127_eq L) (by omega) _
      (pay_row fx fi _ 40 _ (fun i hi => idx_word L fi fs _ _ _ _ _ _ 40 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 39 _ _ _ (k0_off124_eq L) (by omega) _
      (pay_row fx fi _ 39 _ (fun i hi => idx_word L fi fs _ _ _ _ _ _ 39 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 38 _ _ _ (k0_off121_eq L) (by omega) _
      (pay_row fx fi _ 38 _ (fun i hi => idx_word L fi fs _ _ _ _ _ _ 38 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 37 _ _ _ (k0_off118_eq L) (by omega) _
      (pay_row fx fi _ 37 _ (fun i hi => idx_word L fi fs _ _ _ _ _ _ 37 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 36 _ _ _ (k0_off115_eq L) (by omega) _
      (pay_row fx fi _ 36 _ (fun i hi => idx_word L fi fs _ _ _ _ _ _ 36 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 35 _ _ _ (k0_off112_eq L) (by omega) _
      (pay_row fx fi _ 35 _ (fun i hi => idx_word L fi fs _ _ _ _ _ _ 35 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 34 _ _ _ (k0_off109_eq L) (by omega) _
      (pay_row fx fi _ 34 _ (fun i hi => idx_word L fi fs _ _ _ _ _ _ 34 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 33 _ _ _ (k0_off106_eq L) (by omega) _
      (pay_row fx fi _ 33 _ (fun i hi => idx_word L fi fs _ _ _ _ _ _ 33 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 32 _ _ _ (k0_off103_eq L) (by omega) _
      (pay_row fx fi _ 32 _ (fun i hi => idx_word L fi fs _ _ _ _ _ _ 32 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 31 _ _ _ (k0_off100_eq L) (by omega) _
      (pay_row fx fi _ 31 _ (fun i hi => idx_word L fi fs _ _ _ _ _ _ 31 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 30 _ _ _ (k0_off97_eq L) (by omega) _
      (pay_row fx fi _ 30 _ (fun i hi => idx_word L fi fs _ _ _ _ _ _ 30 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 29 _ _ _ (k0_off94_eq L) (by omega) _
      (pay_row fx fi _ 29 _ (fun i hi => idx_word L fi fs _ _ _ _ _ _ 29 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 28 _ _ _ (k0_off91_eq L) (by omega) _
      (pay_row fx fi _ 28 _ (fun i hi => idx_word L fi fs _ _ _ _ _ _ 28 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 27 _ _ _ (k0_off88_eq L) (by omega) _
      (pay_row fx fi _ 27 _ (fun i hi => idx_word L fi fs _ _ _ _ _ _ 27 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 26 _ _ _ (k0_off85_eq L) (by omega) _
      (pay_row fx fi _ 26 _ (fun i hi => idx_word L fi fs _ _ _ _ _ _ 26 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 25 _ _ _ (k0_off82_eq L) (by omega) _
      (pay_row fx fi _ 25 _ (fun i hi => idx_word L fi fs _ _ _ _ _ _ 25 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 24 _ _ _ (k0_off79_eq L) (by omega) _
      (pay_row fx fi _ 24 _ (fun i hi => idx_word L fi fs _ _ _ _ _ _ 24 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 23 _ _ _ (k0_off76_eq L) (by omega) _
      (pay_row fx fi _ 23 _ (fun i hi => idx_word L fi fs _ _ _ _ _ _ 23 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 22 _ _ _ (k0_off73_eq L) (by omega) _
      (pay_row fx fi _ 22 _ (fun i hi => idx_word L fi fs _ _ _ _ _ _ 22 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 21 _ _ _ (k0_off70_eq L) (by omega) _
      (pay_row fx fi _ 21 _ (fun i hi => idx_word L fi fs _ _ _ _ _ _ 21 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 20 _ _ _ (k0_off67_eq L) (by omega) _
      (pay_row fx fi _ 20 _ (fun i hi => idx_word L fi fs _ _ _ _ _ _ 20 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 19 _ _ _ (k0_off64_eq L) (by omega) _
      (pay_row fx fi _ 19 _ (fun i hi => idx_word L fi fs _ _ _ _ _ _ 19 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 18 _ _ _ (k0_off61_eq L) (by omega) _
      (pay_row fx fi _ 18 _ (fun i hi => idx_word L fi fs _ _ _ _ _ _ 18 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 17 _ _ _ (k0_off58_eq L) (by omega) _
      (pay_row fx fi _ 17 _ (fun i hi => idx_word L fi fs _ _ _ _ _ _ 17 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 16 _ _ _ (k0_off55_eq L) (by omega) _
      (pay_row fx fi _ 16 _ (fun i hi => idx_word L fi fs _ _ _ _ _ _ 16 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 15 _ _ _ (k0_off52_eq L) (by omega) _
      (pay_row fx fi _ 15 _ (fun i hi => idx_word L fi fs _ _ _ _ _ _ 15 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 14 _ _ _ (k0_off49_eq L) (by omega) _
      (pay_row fx fi _ 14 _ (fun i hi => idx_word L fi fs _ _ _ _ _ _ 14 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 13 _ _ _ (k0_off46_eq L) (by omega) _
      (pay_row fx fi _ 13 _ (fun i hi => idx_word L fi fs _ _ _ _ _ _ 13 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 12 _ _ _ (k0_off43_eq L) (by omega) _
      (pay_row fx fi _ 12 _ (fun i hi => idx_word L fi fs _ _ _ _ _ _ 12 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 11 _ _ _ (k0_off40_eq L) (by omega) _
      (pay_row fx fi _ 11 _ (fun i hi => idx_word L fi fs _ _ _ _ _ _ 11 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 10 _ _ _ (k0_off37_eq L) (by omega) _
      (pay_row fx fi _ 10 _ (fun i hi => idx_word L fi fs _ _ _ _ _ _ 10 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 9 _ _ _ (k0_off34_eq L) (by omega) _
      (pay_row fx fi _ 9 _ (fun i hi => idx_word L fi fs _ _ _ _ _ _ 9 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 8 _ _ _ (k0_off31_eq L) (by omega) _
      (pay_row fx fi _ 8 _ (fun i hi => idx_word L fi fs _ _ _ _ _ _ 8 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 7 _ _ _ (k0_off28_eq L) (by omega) _
      (pay_row fx fi _ 7 _ (fun i hi => idx_word L fi fs _ _ _ _ _ _ 7 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 6 _ _ _ (k0_off25_eq L) (by omega) _
      (pay_row fx fi _ 6 _ (fun i hi => idx_word L fi fs _ _ _ _ _ _ 6 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 5 _ _ _ (k0_off22_eq L) (by omega) _
      (pay_row fx fi _ 5 _ (fun i hi => idx_word L fi fs _ _ _ _ _ _ 5 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 4 _ _ _ (k0_off19_eq L) (by omega) _
      (pay_row fx fi _ 4 _ (fun i hi => idx_word L fi fs _ _ _ _ _ _ 4 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 3 _ _ _ (k0_off16_eq L) (by omega) _
      (pay_row fx fi _ 3 _ (fun i hi => idx_word L fi fs _ _ _ _ _ _ 3 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 2 _ _ _ (k0_off13_eq L) (by omega) _
      (pay_row fx fi _ 2 _ (fun i hi => idx_word L fi fs _ _ _ _ _ _ 2 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 1 _ _ _ (k0_off10_eq L) (by omega) _
      (pay_row fx fi _ 1 _ (fun i hi => idx_word L fi fs _ _ _ _ _ _ 1 (by rfl) i hi) _
        (fun y => (congrFun ((read_slot_skip _ _ _ _ 1 0 (by rfl) (by rfl) (by decide) _ _).trans (View.read_write_univ _ _)) y).trans (src_row fx _ _ _ rfl (lane_lt _ (landed_lt L fi hpre fs) _ _ _ _ _ _) y))) ?_
    refine out_step (gatherRows fx fi) _ (96 * (L 1).val + 48 * (L 0).val) 0 _ _ _ (k0_off7_eq L) (by omega) _
      (pay_row fx fi _ 0 _ (fun i hi => idx_word L fi fs _ _ _ _ _ _ 0 (by rfl) i hi) _
        (fun y => (congrFun ((read_slot_skip _ _ _ _ 0 1 (by rfl) (by rfl) (by decide) _ _).trans (View.read_write_univ _ _)) y).trans (src_row fx _ _ _ rfl (lane_lt _ (landed_lt L fi hpre fs) _ _ _ _ _ _) y))) ?_
    exact fun j h1 h2 => absurd h2 (by omega)
  isplitl [Hsh]; · iexists _; iexact Hsh
  isplitl [Hs]; · iexists _; iexact Hs
  isplitl [Hg0 Hg1 Hs0 Hs1 Hr0]
  · isplitl [Hg0]; · iexact Hg0
    isplitl [Hg1]; · iexact Hg1
    isplitl [Hs0]; · iexact Hs0
    isplitl [Hs1]; · iexact Hs1
    iexact Hr0
  iexists _
  isplitr
  rotate_left
  · iexact HO
  ipureintro
  repeat (refine waits_ins (thr := V d (cV L) (jV L)) ?_)
  exact fun p hp => .inl hp

end Tile

end Cert.Proof.KI

end
-- ==== Proof.KI.Host.lean ====
/-
  @main around the call: eleven host operations build the two operands — the source reshaped to 1536 rows of
  224 × 224, and the flat row table idx[192 b + j] = 192 b + permutation[j] — and one reshapes the result back.
-/
import proofs.«204285_g3204045603007_cont_8to1_b_1238_19_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The host operations before the call, in order. -/
abbrev hostOps0 : List (HloOp τ sig (Elt F)) :=
  [ StableHlo.reshape main_arg0 main_v0 rfl shapeCasts_S8x192x224x224_S1536x224x224,
    StableHlo.nullary main_v1 (iotaInDim S8 32 0),
    StableHlo.unary main_v1 main_v2 (broadcastInDim S8x1 ![0] bcast_S8_S8x1_0 : (⟨S8, .i32⟩ : BufTy).Contents (Elt F) → (⟨S8x1, .i32⟩ : BufTy).Contents (Elt F)),
    StableHlo.nullary main_c (constantI S_ 32 192#32),
    StableHlo.unary main_c main_v3 (broadcastInDim S8x1 ![] bcast_S_S8x1 : (⟨S_, .i32⟩ : BufTy).Contents (Elt F) → (⟨S8x1, .i32⟩ : BufTy).Contents (Elt F)),
    StableHlo.binary main_v2 main_v3 main_v4 (muli : (⟨S8x1, .i32⟩ : BufTy).Contents (Elt F) → (⟨S8x1, .i32⟩ : BufTy).Contents (Elt F) → (⟨S8x1, .i32⟩ : BufTy).Contents (Elt F)),
    StableHlo.unary main_arg1 main_v5 (broadcastInDim S1x192 ![1] bcast_S192_S1x192_1 : (⟨S192, .i32⟩ : BufTy).Contents (Elt F) → (⟨S1x192, .i32⟩ : BufTy).Contents (Elt F)),
    StableHlo.unary main_v4 main_v6 (broadcastInDim S8x192 ![0, 1] bcast_S8x1_S8x192_0_1 : (⟨S8x1, .i32⟩ : BufTy).Contents (Elt F) → (⟨S8x192, .i32⟩ : BufTy).Contents (Elt F)),
    StableHlo.unary main_v5 main_v7 (broadcastInDim S8x192 ![0, 1] bcast_S1x192_S8x192_0_1 : (⟨S1x192, .i32⟩ : BufTy).Contents (Elt F) → (⟨S8x192, .i32⟩ : BufTy).Contents (Elt F)),
    StableHlo.binary main_v6 main_v7 main_v8 (addi : (⟨S8x192, .i32⟩ : BufTy).Contents (Elt F) → (⟨S8x192, .i32⟩ : BufTy).Contents (Elt F) → (⟨S8x192, .i32⟩ : BufTy).Contents (Elt F)),
    StableHlo.reshape main_v8 main_v9 rfl shapeCasts_S8x192_S1536 ]

/-- The one after it. -/
abbrev hostOps1 : List (HloOp τ sig (Elt F)) :=
  [ StableHlo.reshape main_v10 main_v11 rfl shapeCasts_S1536x224x224_S8x192x224x224 ]

/-- @main is the first stretch, the call, the second stretch. -/
theorem main_eq (d : Dev nD) :
    main (F := F) d = (StableHlo.seq hostOps0 >>= fun _ => ((K (F := F)).run d 0 >>= fun _ => StableHlo.seq hostOps1)) := rfl

end Cert.Proof.KI

end
-- ==== Proof.KI.Pay.lean ====
/-
  What the call's handshakes carry. The TensorCore hands each SparseCore a share of the source and of the row
  table (both only read) and the sixteen 48-row blocks of the result its tiles write; the sequencer hands tile
  (c, s) a share of the two tables, block 2 s + c of the result, and the tile's two slots of the SparseCore's
  shared staging buffer; back come the blocks, each holding the rows the table names, and the slots.
-/
import proofs.«204285_g3204045603007_cont_8to1_b_1238_19_alg».proof.Proof.KI.Rows
import proofs.«204285_g3204045603007_cont_8to1_b_1238_19_alg».proof.Proof.KI.Host

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

open Idealize.ShloMosaic.ValueIdx (ix1 ix3)
open Idealize.ShloMosaic.Transfers (shareTokN shareDrop shareTok)

variable (m : (ℓ : Loc nD τ sig) → Buf (Elt F) ℓ) (ρ : Dev nD → PrngReg)

/-- The source rows, the row table and the result rows, as locations of device `d`; a SparseCore's shared staging buffer. -/
abbrev xLoc (d : Dev nD) : Loc nD τ sig := (SparseCore.T d).loc main_v0
abbrev iLoc (d : Dev nD) : Loc nD τ sig := (SparseCore.T d).loc main_v9
abbrev oLoc (d : Dev nD) : Loc nD τ sig := (SparseCore.T d).loc main_v10
abbrev shRef (c : Fin τ.nSC) : DevRef τ sig := ⟨.shared, ⟨0, by decide⟩, c⟩
abbrev shLoc (d : Dev nD) (c : Fin τ.nSC) : Loc nD τ sig := (d, shRef c)

variable [FloatOps F]

/-- The buffers' contents when the call starts: the first stretch of host operations folded over the launch memory. -/
def VA (d : Dev nD) : Valuation τ sig (Elt F) := StableHlo.after hostOps0 (StableHlo.launchContents m d)
/-- The source rows and the row table then, and the result the call leaves: row `r` is source row `idx r`. -/
abbrev Xs (d : Dev nD) : Buf (Elt F) (xLoc d) := VA m d (Proc.devRef .tc main_v0)
abbrev Ix (d : Dev nD) : Buf (Elt F) (iLoc d) := VA m d (Proc.devRef .tc main_v9)
abbrev Os (d : Dev nD) : Buf (Elt F) (oLoc d) := VA m d (Proc.devRef .tc main_v10)
abbrev Gout (d : Dev nD) : Buf (Elt F) (oLoc d) := gatherRows (Xs m d) (Ix m d)

/-- What the proof asks of the launch memory: every word of the row table names a row of the source. -/
def PreOK : Prop := ∀ (d : Dev nD) (j : S1536.Idx), BitVec.toNat (Ix m d j) < 1536

/-- The grid point of SparseCore `c`'s tile `s`. -/
abbrev coordsV (c : Fin (grid0.bound 0)) (s : Fin (grid0.bound 1)) : grid0.Coords :=
  fun | 0 => c | 1 => s | ⟨_ + 2, h⟩ => absurd h (Nat.not_lt.2 (Nat.le_add_left _ _))
abbrev LC (c : Fin ((K (F := F)).nCore 0)) (i : Fin ((K (F := F)).nSub 0)) : grid0.Coords := coordsV ⟨c.val, c.isLt⟩ ⟨i.val, i.isLt⟩

/-- The read share of a table a SparseCore gets, and a tile of it. -/
abbrev qC (c : ℕ) : PosShare TreeShare := shareTokN fullShare c
abbrev qT (L : grid0.Coords) : PosShare TreeShare := shareTokN (qC (L 0).val) (L 1).val

/-- What tile `L` is handed, and what it hands back. -/
def GO (d : Dev nD) (L : grid0.Coords) : sProp 𝕄 :=
  iprop((xLoc d ↦{qT L} Xs m d) ∗ (iLoc d ↦{qT L} Ix m d)
    ∗ (oLoc d ↦[(oV).view.setOn (oBlk L).set]{fullShare} Os m d)
    ∗ ∃ f, shLoc d (cV L) ↦[(shV).view.setOn (shBlk L).set]{fullShare} f)
def TD (d : Dev nD) (L : grid0.Coords) : sProp 𝕄 :=
  iprop((oLoc d ↦[(oV).view.setOn (oBlk L).set]{fullShare} Gout m d)
    ∗ ∃ f, shLoc d (cV L) ↦[(shV).view.setOn (shBlk L).set]{fullShare} f)

/-- The sixteen blocks of the result SparseCore `c`'s tiles write, all at contents `f`. -/
abbrev oBlocks (d : Dev nD) (c : Fin ((K (F := F)).nCore 0)) (f : Buf (Elt F) (oLoc d)) : sProp 𝕄 :=
  bigSep Finset.univ fun i : Fin ((K (F := F)).nSub 0) => oLoc d ↦[(oV).view.setOn (oBlk (LC c i)).set]{fullShare} f

/-- The certificate's payloads; the kernel's proof consumes nothing of the launch's (its transfers are local). -/
def P : (K (F := F)).Pay (nD := nD) (Val := Elt F) (Name := ℕ) (U := UU) where
  st := fun q d c => match q with | 0 => iprop((xLoc d ↦{qC c.val} Xs m d) ∗ (iLoc d ↦{qC c.val} Ix m d) ∗ oBlocks d c (Os m d))
  dn := fun q d c => match q with | 0 => oBlocks d c (Gout m d)
  go := fun q d c i => match q with | 0 => GO m d (LC c i)
  td := fun q d c i => match q with | 0 => TD m d (LC c i)
  x := fun _ _ => iprop(emp)

instance P_storable : (P (F := F) m).IsStorable where
  st q d c := match q with | 0 => by unfold P; infer_instance
  dn q d c := match q with | 0 => by unfold P; infer_instance
  go q _ _ _ := match q with | 0 => by unfold P GO; infer_instance
  td q _ _ _ := match q with | 0 => by unfold P TD; infer_instance

end Cert.Proof.KI

end
-- ==== Proof.KI.Split.lean ====
/-
  How the arrays divide among the tiles. The 32 blocks of 48 rows are pairwise disjoint and cover the result; a
  SparseCore's shared staging buffer is its sixteen tiles' pairs of slots; a table every tile only reads goes out
  in read shares. So the whole result at one function is the blocks each at that function, and back.
-/
import proofs.«204285_g3204045603007_cont_8to1_b_1238_19_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

open Idealize.ShloMosaic.ValueIdx (ix1 ix3)
open Idealize.ShloMosaic.Transfers (shareTokN shareDrop shareTok pointsTo_toks_split)

variable (m : (ℓ : Loc nD τ sig) → Buf (Elt F) ℓ) (ρ : Dev nD → PrngReg)

/-- A tile's block of the result, and its slots, as plain index sets (the whole array's view places an index at itself). -/
theorem oSet_eq (L : grid0.Coords) : ((oV).view.setOn (oBlk L).set : Finset S1536x224x224.Idx) = (oBlk L).set := by
  show (oBlk L).set.map (Function.Embedding.refl _) = _
  exact Finset.map_refl
theorem shSet_eq (L : grid0.Coords) : ((shV).view.setOn (shBlk L).set : Finset S16x2x1x224x224.Idx) = (shBlk L).set := by
  show (shBlk L).set.map (Function.Embedding.refl _) = _
  exact Finset.map_refl

/-- Two tiles' blocks are disjoint: their first rows are distinct multiples of 48. -/
theorem oBlk_disjoint {L L' : grid0.Coords} (h : L ≠ L') :
    Disjoint ((oV).view.setOn (oBlk L).set) ((oV).view.setOn (oBlk L').set) := by
  rw [oSet_eq, oSet_eq]
  refine Rect.unit_disjoint 0 ?_
  have hne : (L 0).val ≠ (L' 0).val ∨ (L 1).val ≠ (L' 1).val := by
    by_contra hc
    have e0 : (L 0).val = (L' 0).val := by by_contra e0; exact hc (.inl e0)
    have e1 : (L 1).val = (L' 1).val := by by_contra e1; exact hc (.inr e1)
    apply h
    funext a
    match a with
    | ⟨0, _⟩ => exact Fin.ext e0
    | ⟨1, _⟩ => exact Fin.ext e1
  have h0 : (L 0).val < 2 := (L 0).isLt
  have h0' : (L' 0).val < 2 := (L' 0).isLt
  show 96 * (L 1).val + 48 * (L 0).val + 48 ≤ 96 * (L' 1).val + 48 * (L' 0).val ∨ 96 * (L' 1).val + 48 * (L' 0).val + 48 ≤ 96 * (L 1).val + 48 * (L 0).val
  omega

/-- Every row lies in some tile's block: row `r` in that of tile `(r mod 96 / 48, r / 96)`. -/
theorem oBlk_cover : (Finset.univ : Finset grid0.Coords).biUnion (fun L => (oV).view.setOn (oBlk L).set) = Finset.univ := by
  ext j
  simp only [Finset.mem_biUnion, Finset.mem_univ, true_and, iff_true]
  have hj0 : (j 0).val < 1536 := (j 0).isLt
  have hj1 : (j 1).val < 224 := (j 1).isLt
  have hj2 : (j 2).val < 224 := (j 2).isLt
  refine ⟨coordsV ⟨((j 0).val % 96) / 48, show _ < 2 by omega⟩ ⟨(j 0).val / 96, show _ < 16 by omega⟩, ?_⟩
  rw [oSet_eq, Rect.mem_set_unit]
  intro a
  match a with
  | ⟨0, _⟩ =>
    show 96 * ((j 0).val / 96) + 48 * ((j 0).val % 96 / 48) ≤ (j 0).val ∧ (j 0).val < 96 * ((j 0).val / 96) + 48 * ((j 0).val % 96 / 48) + 48
    omega
  | ⟨1, _⟩ => show 0 ≤ (j 1).val ∧ (j 1).val < 0 + 224; omega
  | ⟨2, _⟩ => show 0 ≤ (j 2).val ∧ (j 2).val < 0 + 224; omega

/-- The grid points, as pairs (SparseCore of the call, tile of the call). -/
def coordsEquiv : Fin ((K (F := F)).nCore 0) × Fin ((K (F := F)).nSub 0) ≃ grid0.Coords where
  toFun p := LC p.1 p.2
  invFun L := (⟨(L 0).val, (L 0).isLt⟩, ⟨(L 1).val, (L 1).isLt⟩)
  left_inv _ := rfl
  right_inv L := by
    funext a
    match a with
    | ⟨0, _⟩ => rfl
    | ⟨1, _⟩ => rfl

theorem bigSep_tiles (Φ : grid0.Coords → sProp 𝕄) :
    bigSep Finset.univ Φ = bigSep Finset.univ fun c : Fin ((K (F := F)).nCore 0) => bigSep Finset.univ fun i : Fin ((K (F := F)).nSub 0) => Φ (LC c i) := by
  rw [bigSep_univ_equiv (coordsEquiv (F := F)) Φ, bigSep_univ_prod]
  rfl

/-- The result whole at one function is every tile's block at it. -/
theorem oPts_split (d : Dev nD) (f : Buf (Elt F) (oLoc d)) :
    (oLoc d ↦{fullShare} f : sProp 𝕄) = bigSep Finset.univ fun c : Fin ((K (F := F)).nCore 0) => oBlocks d c f := by
  unfold oBlocks
  rw [← bigSep_tiles (F := F) (fun L => (oLoc d ↦[(oV).view.setOn (oBlk L).set]{fullShare} f : sProp 𝕄)),
    ← pointsTo_biUnion Finset.univ (ℓ := oLoc d) (fun L : grid0.Coords => (oV).view.setOn (oBlk L).set) (fun L _ L' _ h => oBlk_disjoint h), oBlk_cover]
  try rfl

/-- One SparseCore's tiles' slots: disjoint pairs that cover its staging buffer. -/
theorem sh_disjoint (c : Fin ((K (F := F)).nCore 0)) {i i' : Fin ((K (F := F)).nSub 0)} (h : i ≠ i') :
    Disjoint ((shV).view.setOn (shBlk (LC c i)).set) ((shV).view.setOn (shBlk (LC c i')).set) := by
  rw [shSet_eq, shSet_eq]
  refine Rect.unit_disjoint 0 ?_
  have := Fin.val_ne_of_ne h
  show i.val + 1 ≤ i'.val ∨ i'.val + 1 ≤ i.val
  omega

theorem sh_cover (c : Fin ((K (F := F)).nCore 0)) :
    (Finset.univ : Finset (Fin ((K (F := F)).nSub 0))).biUnion (fun i => (shV).view.setOn (shBlk (LC c i)).set) = Finset.univ := by
  ext j
  simp only [Finset.mem_biUnion, Finset.mem_univ, true_and, iff_true]
  have hj1 : (j 1).val < 2 := (j 1).isLt
  have hj2 : (j 2).val < 1 := (j 2).isLt
  have hj3 : (j 3).val < 224 := (j 3).isLt
  have hj4 : (j 4).val < 224 := (j 4).isLt
  refine ⟨⟨(j 0).val, (j 0).isLt⟩, ?_⟩
  rw [shSet_eq, Rect.mem_set_unit]
  intro a
  match a with
  | ⟨0, _⟩ => show (j 0).val ≤ (j 0).val ∧ (j 0).val < (j 0).val + 1; omega
  | ⟨1, _⟩ => show 0 ≤ (j 1).val ∧ (j 1).val < 0 + 2; omega
  | ⟨2, _⟩ => show 0 ≤ (j 2).val ∧ (j 2).val < 0 + 1; omega
  | ⟨3, _⟩ => show 0 ≤ (j 3).val ∧ (j 3).val < 0 + 224; omega
  | ⟨4, _⟩ => show 0 ≤ (j 4).val ∧ (j 4).val < 0 + 224; omega

/-- A tile's slots of SparseCore `c`'s staging buffer, at contents `f`. -/
abbrev shRow (d : Dev nD) (c : Fin ((K (F := F)).nCore 0)) (i : Fin ((K (F := F)).nSub 0)) (f : Buf (Elt F) (shLoc d ((K (F := F)).core 0 c))) : sProp 𝕄 :=
  shLoc d ((K (F := F)).core 0 c) ↦[(shV).view.setOn (shBlk (LC c i)).set]{fullShare} f

theorem shPts_rows (d : Dev nD) (c : Fin ((K (F := F)).nCore 0)) (f : Buf (Elt F) (shLoc d ((K (F := F)).core 0 c))) :
    (shLoc d ((K (F := F)).core 0 c) ↦{fullShare} f : sProp 𝕄) = bigSep Finset.univ fun i : Fin ((K (F := F)).nSub 0) => shRow d c i f := by
  unfold shRow
  rw [← pointsTo_biUnion Finset.univ (ℓ := shLoc d ((K (F := F)).core 0 c)) (fun i : Fin ((K (F := F)).nSub 0) => (shV).view.setOn (shBlk (LC c i)).set)
    (fun i _ i' _ h => sh_disjoint c h), sh_cover c]
  try rfl

/-- The slots, each at contents of its own, are the staging buffer whole at some contents. -/
theorem shRows_join [∀ e, Nonempty (Elt F e)] (d : Dev nD) (c : Fin ((K (F := F)).nCore 0)) :
    (bigSep Finset.univ fun i : Fin ((K (F := F)).nSub 0) => iprop(∃ f, shRow d c i f)) ⊢ (iprop(∃ f, shLoc d ((K (F := F)).core 0 c) ↦{fullShare} f) : sProp 𝕄) := by
  refine (bigSep_exists_pi Finset.univ (fun i (f : Buf (Elt F) (shLoc d ((K (F := F)).core 0 c))) => shRow d c i f)).trans ?_
  iintro ⟨%fs, H⟩
  unfold shRow
  ihave H' := (pointsTo_biUnion_join Finset.univ (fun i : Fin ((K (F := F)).nSub 0) => (shV).view.setOn (shBlk (LC c i)).set) fs (fs ⟨0, show 0 < 16 by decide⟩) (fun i _ i' _ h => sh_disjoint c h)) $$ H
  icases H' with ⟨%g, -, Hg⟩
  rw [sh_cover c]
  iexists g; iexact Hg

/-- The staging buffer is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F]

/-- The call's operands for SparseCore `c` deal into its sixteen tasks' — a read share of each table, a block of the
    result, a pair of slots — and the tasks' results gather into the SparseCore's. -/
theorem vecSplit [∀ e, Nonempty (Elt F e)] : (K (F := F)).VecSplit (P m) 0 := by
  intro d c
  show iprop(iprop((xLoc d ↦{qC c.val} Xs m d) ∗ (iLoc d ↦{qC c.val} Ix m d) ∗ oBlocks d c (Os m d)) ∗ ownBufs (S d ((K (F := F)).core 0 c)))
    ⊢ |={Set.univ}=> iprop((bigSep Finset.univ fun i : Fin ((K (F := F)).nSub 0) => GO m d (LC c i))
      ∗ ((bigSep Finset.univ fun i : Fin ((K (F := F)).nSub 0) => TD m d (LC c i)) -∗ iprop(oBlocks d c (Gout m d) ∗ ownBufs (S d ((K (F := F)).core 0 c)))))
  rw [ownBufs_S]
  unfold GO TD oBlocks
  rw [bigSep_sep', bigSep_sep', bigSep_sep', bigSep_sep']
  iintro ⟨⟨Hx, Hi, Ho⟩, ⟨%fsh, Hsh⟩, Hrest⟩
  ihave Hx' := (pointsTo_toks_split (qC c.val) ((K (F := F)).nSub 0)) $$ Hx
  icases Hx' with ⟨-, Hxs⟩
  ihave Hi' := (pointsTo_toks_split (qC c.val) ((K (F := F)).nSub 0)) $$ Hi
  icases Hi' with ⟨-, His⟩
  ihave Hsh' := ((Entails.of_eq (shPts_rows d c fsh)).trans (SparseCore.ent (bigSep_mono (Φ := fun i => shRow (F := F) d c i fsh)
      (Ψ := fun i => iprop(∃ f, shRow (F := F) d c i f))
      fun i _ => BI.BIClass.exists_intro (Φ := fun f => shRow (F := F) d c i f) fsh))) $$ Hsh
  imodintro
  isplitl [Hxs His Ho Hsh']
  · isplitl [Hxs]; · iexact Hxs
    isplitl [His]; · iexact His
    isplitl [Ho]; · iexact Ho
    iexact Hsh'
  iintro ⟨Ho, Hsh⟩
  isplitl [Ho]; · iexact Ho
  isplitl [Hsh]; · iapply (shRows_join d c); iexact Hsh
  iexact Hrest

end Cert.Proof.KI

end
-- ==== Proof.KI.Obl.lean ====
/-
  The launch theorem's obligation for the one vector-subcore call: tile (c, s)'s task, from what the sequencer
  hands it and the tile's own index list and semaphores, to its block of the result at the rows the table names.
-/
import proofs.«204285_g3204045603007_cont_8to1_b_1238_19_alg».proof.Proof.KI.Tile
import proofs.«204285_g3204045603007_cont_8to1_b_1238_19_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

open Idealize.ShloMosaic.ValueIdx (ix1 ix3)
open Idealize.ShloMosaic.Transfers (shareTokN shareDrop shareTok)

variable (m : (ℓ : Loc nD τ sig) → Buf (Elt F) ℓ) (ρ : Dev nD → PrngReg)

variable [FloatOps F]

section Tile

variable (d : Dev nD) (L : grid0.Coords)

/-- A tile's DMA semaphore, as a cell. -/
abbrev dcell (d : Dev nD) (c : Fin τ.nSC) (i : Fin τ.nSub) (s : DmaSem sig) : GSem nD τ sig := (V d c i, .dma s)

omit [FloatOps F] in
theorem ownSems0_V :
    (ownSems0 (V d (cV L) (jV L)) : sProp 𝕄)
      = iprop(semVal (dcell d (cV L) (jV L) cc0_scratch2.sem) 0 ∗ semVal (dcell d (cV L) (jV L) cc0_scratch3.sem) 0 ∗ semVal (dcell d (cV L) (jV L) cc0_scratch4.sem) 0 ∗ semVal (dcell d (cV L) (jV L) cc0_scratch5.sem) 0 ∗ semVal (dcell d (cV L) (jV L) cc0_scoped0.sem) 0
          ∗ bigSep ((((((ownCells (V d (cV L) (jV L))).erase (dcell d (cV L) (jV L) cc0_scratch2.sem)).erase (dcell d (cV L) (jV L) cc0_scratch3.sem)).erase (dcell d (cV L) (jV L) cc0_scratch4.sem)).erase (dcell d (cV L) (jV L) cc0_scratch5.sem)).erase (dcell d (cV L) (jV L) cc0_scoped0.sem)) fun g => semVal g 0) := by
  unfold SparseCore.Cfg.ownSems0
  rw [SparseCore.bigSep_erase' ((mem_ownCells (g := dcell d (cV L) (jV L) cc0_scratch2.sem)).mpr ⟨rfl, by show (SemLoc.dma cc0_scratch2.sem : SemLoc sig).isScoped .scVector = true; decide⟩),
    SparseCore.bigSep_erase' (Finset.mem_erase.mpr ⟨fun e => absurd (congrArg Prod.snd e) (show (SemLoc.dma cc0_scratch3.sem : SemLoc sig) ≠ SemLoc.dma cc0_scratch2.sem by decide), (mem_ownCells (g := dcell d (cV L) (jV L) cc0_scratch3.sem)).mpr ⟨rfl, by show (SemLoc.dma cc0_scratch3.sem : SemLoc sig).isScoped .scVector = true; decide⟩⟩),
    SparseCore.bigSep_erase' (Finset.mem_erase.mpr ⟨fun e => absurd (congrArg Prod.snd e) (show (SemLoc.dma cc0_scratch4.sem : SemLoc sig) ≠ SemLoc.dma cc0_scratch3.sem by decide), Finset.mem_erase.mpr ⟨fun e => absurd (congrArg Prod.snd e) (show (SemLoc.dma cc0_scratch4.sem : SemLoc sig) ≠ SemLoc.dma cc0_scratch2.sem by decide), (mem_ownCells (g := dcell d (cV L) (jV L) cc0_scratch4.sem)).mpr ⟨rfl, by show (SemLoc.dma cc0_scratch4.sem : SemLoc sig).isScoped .scVector = true; decide⟩⟩⟩),
    SparseCore.bigSep_erase' (Finset.mem_erase.mpr ⟨fun e => absurd (congrArg Prod.snd e) (show (SemLoc.dma cc0_scratch5.sem : SemLoc sig) ≠ SemLoc.dma cc0_scratch4.sem by decide), Finset.mem_erase.mpr ⟨fun e => absurd (congrArg Prod.snd e) (show (SemLoc.dma cc0_scratch5.sem : SemLoc sig) ≠ SemLoc.dma cc0_scratch3.sem by decide), Finset.mem_erase.mpr ⟨fun e => absurd (congrArg Prod.snd e) (show (SemLoc.dma cc0_scratch5.sem : SemLoc sig) ≠ SemLoc.dma cc0_scratch2.sem by decide), (mem_ownCells (g := dcell d (cV L) (jV L) cc0_scratch5.sem)).mpr ⟨rfl, by show (SemLoc.dma cc0_scratch5.sem : SemLoc sig).isScoped .scVector = true; decide⟩⟩⟩⟩),
    SparseCore.bigSep_erase' (Finset.mem_erase.mpr ⟨fun e => absurd (congrArg Prod.snd e) (show (SemLoc.dma cc0_scoped0.sem : SemLoc sig) ≠ SemLoc.dma cc0_scratch5.sem by decide), Finset.mem_erase.mpr ⟨fun e => absurd (congrArg Prod.snd e) (show (SemLoc.dma cc0_scoped0.sem : SemLoc sig) ≠ SemLoc.dma cc0_scratch4.sem by decide), Finset.mem_erase.mpr ⟨fun e => absurd (congrArg Prod.snd e) (show (SemLoc.dma cc0_scoped0.sem : SemLoc sig) ≠ SemLoc.dma cc0_scratch3.sem by decide), Finset.mem_erase.mpr ⟨fun e => absurd (congrArg Prod.snd e) (show (SemLoc.dma cc0_scoped0.sem : SemLoc sig) ≠ SemLoc.dma cc0_scratch2.sem by decide), (mem_ownCells (g := dcell d (cV L) (jV L) cc0_scoped0.sem)).mpr ⟨rfl, by show (SemLoc.dma cc0_scoped0.sem : SemLoc sig).isScoped .scVector = true; decide⟩⟩⟩⟩⟩)]

omit [FloatOps F] in
/-- The tile's index list is among its own buffers: it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
/-- On a tile's block the rows' bounds hold: what the task leaves there is the function the table names. -/
theorem blk_val (f g : S1536x224x224.Idx → Elt F .f32)
    (h : ∀ j : S1536x224x224.Idx, 96 * (L 1).val + 48 * (L 0).val ≤ (j 0).val → (j 0).val < 96 * (L 1).val + 48 * (L 0).val + 48 → f j = g j) :
    ∀ i ∈ ((oV).view.setOn (oBlk L).set : Finset S1536x224x224.Idx), f i = g i := by
  intro i hi
  rw [oSet_eq, Rect.mem_set_unit] at hi
  have h0 := hi 0
  exact h i h0.1 h0.2

/-- The task on vector subcore `(L 0, L 1)` of device `d`, in the launch theorem's terms. -/
theorem tile_task (hF : (K (F := F)).Facts) (hpre : PreOK m) (O : CellTallies nD τ sig (HIx 1)) (W : Waits sig (HIx 1)) (hO : ∀ g, O g none = 0) :
    iprop(levAts (K (F := F)).L (K (F := F)).lev ∗ emp ∗ GO m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) iV (Memref.isWhole_whole _) oV (Memref.isWhole_whole _)
            sI (Memref.isWhole_whole _) shV (Memref.isWhole_whole _) cc0_scratch2 cc0_scratch3 cc0_scratch4 cc0_scratch5 cc0_scoped0)
          fun _ => iprop(TD m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold GO TD
  iintro ⟨#Hlv, -, ⟨Hx, Hi, Ho, ⟨%fsh, Hsh⟩⟩, ⟨⟨%fs, Hs⟩, Hbufs⟩, ⟨Hg0, Hg1, Hs0, Hs1, Hr0, Hsems⟩, HO⟩
  ihave Hx' := (pointsTo_share (PosShare.mem_left_op_right (qT L))).1 $$ Hx
  icases Hx' with ⟨Hx1, Hx2⟩
  iapply (wp_wand frame (wpE (defs₀ (F := F)) 𝒱₀ (V d (cV L) (jV L)) none) Set.univ) $$ [Hx1 Hx2 Hi Ho Hsh Hs Hg0 Hg1 Hs0 Hs1 Hr0 HO] [Hbufs Hsems]
  · iapply (tile_body d L O W hO (qT L).left (qT L).right (qT L) (Xs m d) (Ix m d) (Os m d) fsh fs (hpre d))
    isplitr; · iexact Hlv
    isplitl [Hx1]; · iexact Hx1
    isplitl [Hx2]; · iexact Hx2
    isplitl [Hi]; · iexact Hi
    isplitl [Ho]; · iexact Ho
    isplitl [Hsh]; · iexact Hsh
    isplitl [Hs]; · iexact Hs
    isplitl [Hg0]; · iexact Hg0
    isplitl [Hg1]; · iexact Hg1
    isplitl [Hs0]; · iexact Hs0
    isplitl [Hs1]; · iexact Hs1
    isplitl [Hr0]; · iexact Hr0
    iexact HO
  iintro %_ ⟨⟨%fo', %hfo, Ho⟩, ⟨%f1, Hsh⟩, ⟨%f2, Hs⟩, ⟨Hg0, Hg1, Hs0, Hs1, Hr0⟩, HW⟩
  ihave Ho' := (Entails.of_eq (pointsTo_congr (ℓ := oLoc d) (q := fullShare) (blk_val L fo' (Gout m d) hfo))) $$ Ho
  isplitl [Ho' Hsh]
  · isplitl [Ho']; · iexact Ho'
    iexists _; iexact Hsh
  isplitl [Hs Hbufs]
  · isplitl [Hs]; · iexists _; iexact Hs
    iexact Hbufs
  isplitl [Hg0 Hg1 Hs0 Hs1 Hr0 Hsems]
  · isplitl [Hg0]; · iexact Hg0
    isplitl [Hg1]; · iexact Hg1
    isplitl [Hs0]; · iexact Hs0
    isplitl [Hs1]; · iexact Hs1
    isplitl [Hr0]; · iexact Hr0
    iexact Hsems
  iexact HW

end Tile

/-! ## The launch theorem's obligation -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) iV (Memref.isWhole_whole _) oV (Memref.isWhole_whole _)
          sI (Memref.isWhole_whole _) shV (Memref.isWhole_whole _) cc0_scratch2 cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (coordsV ⟨_, hc.1⟩ ⟨_, hc.2⟩) hF hpre O W hO).trans (wp_mono frame _ _ fun _ => obl_post)

end Cert.Proof.KI

end
-- ==== Proof.KI.Main.lean ====
/-
  @main on the TensorCore: the first stretch of host operations leaves the source rows and the row table; the call
  takes them (read shares) and the result's blocks to the two SparseCores and brings the blocks back at the rows
  the table names; the last operation reshapes the result. The arguments are never written.
-/
import proofs.«204285_g3204045603007_cont_8to1_b_1238_19_alg».proof.Proof.KI.Split
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

open Idealize.ShloMosaic.ValueIdx (ix1 ix3)
open Idealize.ShloMosaic.Transfers (shareTokN shareDrop shareTok pointsTo_toks_split)
open Idealize.ShloMosaic.StableHlo (after launchContents)

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev i' : DevRef τ sig := Proc.devRef .tc (main_v9 : Ref sig .tc)
abbrev o' : DevRef τ sig := Proc.devRef .tc (main_v10 : Ref sig .tc)
abbrev r' : DevRef τ sig := Proc.devRef .tc (main_v11 : Ref sig .tc)
abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v11

/-- The buffers @main's proof names: the arguments, the call's operands and result, the program's result. -/
abbrev S6 : Finset (DevRef τ sig) := {a0', a1', x', i', o', r'}
abbrev S2 : Finset (DevRef τ sig) := {o', r'}

omit [FloatOps F] in
theorem held_S6 (d : Dev nD) (W : Valuation τ sig (Elt F)) :
    (held (T d) S6 W : sProp 𝕄) = iprop((a0Loc d ↦{fullShare} W a0') ∗ (a1Loc d ↦{fullShare} W a1') ∗ (xLoc d ↦{fullShare} W x')
      ∗ (iLoc d ↦{fullShare} W i') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The contents after the call: the result's buffer at the rows the table names; and the program's result. -/
def V2 (d : Dev nD) : Valuation τ sig (Elt F) := Function.update (VA m d) o' (Gout m d)
def Res (d : Dev nD) : Buf (Elt F) (rLoc d) := after hostOps1 (V2 m d) r'

theorem hsub0 : (hostOps0 (F := F)).Forall fun op => op.bufs ⊆ StableHlo.tcRefs τ sig :=
  ⟨StableHlo.reshape_bufs_sub .., StableHlo.nullary_bufs_sub .., StableHlo.unary_bufs_sub .., StableHlo.nullary_bufs_sub ..,
    StableHlo.unary_bufs_sub .., StableHlo.binary_bufs_sub .., StableHlo.unary_bufs_sub .., StableHlo.unary_bufs_sub ..,
    StableHlo.unary_bufs_sub .., StableHlo.binary_bufs_sub .., StableHlo.reshape_bufs_sub ..⟩
theorem hfresh0 : (hostOps0 (F := F)).Forall fun op => op.fresh = ∅ := ⟨rfl, rfl, rfl, rfl, rfl, rfl, rfl, rfl, rfl, rfl, rfl⟩
theorem hsub1 : ∀ op ∈ (hostOps1 (F := F)), op.bufs ⊆ S2 := by
  intro op hop
  obtain rfl := List.mem_singleton.mp hop
  rw [StableHlo.reshape_bufs]
theorem hfresh1 : ∀ op ∈ (hostOps1 (F := F)), op.fresh = ∅ := by
  intro op hop
  obtain rfl := List.mem_singleton.mp hop
  rfl

theorem hS6 : S6 ⊆ Pipeline.ucRefs τ sig := by decide

/-- @main, with the returns of the two stretches spelt. -/
theorem main_eq2 (d : Dev nD) :
    main (F := F) d = (StableHlo.seq hostOps0 >>= fun _ => ((K (F := F)).run d 0 >>= fun _ => (StableHlo.seq hostOps1 >>= fun _ => pure ⟨⟩))) := rfl

/-- What @main leaves the claim: the arguments and the program's result. -/
abbrev FIN (d : Dev nD) : sProp 𝕄 :=
  iprop((a0Loc d ↦{fullShare} VA m d a0') ∗ (a1Loc d ↦{fullShare} VA m d a1') ∗ rLoc d ↦{fullShare} Res m d)

theorem st0_eq (d : Dev nD) :
    (bigSep Finset.univ fun c : Fin ((K (F := F)).nCore 0) => (P m).st 0 d c)
      = iprop((bigSep Finset.univ fun c : Fin ((K (F := F)).nCore 0) => xLoc d ↦{shareTok fullShare ((K (F := F)).nCore 0) c} Xs m d)
          ∗ (bigSep Finset.univ fun c : Fin ((K (F := F)).nCore 0) => iLoc d ↦{shareTok fullShare ((K (F := F)).nCore 0) c} Ix m d)
          ∗ bigSep Finset.univ fun c : Fin ((K (F := F)).nCore 0) => oBlocks d c (Os m d)) := by
  rw [← bigSep_sep', ← bigSep_sep']
  rfl

theorem dn0_eq (d : Dev nD) :
    (bigSep Finset.univ fun c : Fin ((K (F := F)).nCore 0) => (P m).dn 0 d c)
      = (bigSep Finset.univ fun c : Fin ((K (F := F)).nCore 0) => oBlocks d c (Gout m d) : sProp 𝕄) := rfl

theorem held_VA (d : Dev nD) : (held (d.tc : Thread nD τ) (Pipeline.ucRefs τ sig) (after hostOps0 (launchContents m d)) : sProp 𝕄)
    = held (T d) (Pipeline.ucRefs τ sig) (VA m d) := rfl

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq2, show (unscopedBufs d (fun b => m ((SparseCore.T d).loc b)) : sProp 𝕄)
      = held (T d) (Pipeline.ucRefs τ sig) (launchContents m d) from Pipeline.unscopedBufs_held d (launchContents m d)]
  iintro ⟨#Hctx, Hst, ⟨Hb, Hheld, -, -⟩, -⟩
  iapply (StableHlo.wp_seq 𝒱 none Set.univ d (Pipeline.ucRefs τ sig) _ hostOps0
    (fun op h => Pipeline.sub_ucRefs op ((List.forall_iff_forall_mem.mp hsub0) op h))
    (fun op h => (List.forall_iff_forall_mem.mp hfresh0) op h) _) $$ [Hb Hheld]
  · isplitl [Hb]; · iexact Hb
    iexact Hheld
  iintro ⟨Hb, Hheld⟩
  ihave Hheld' := (Entails.of_eq (held_VA m d)) $$ Hheld
  ihave Hh := (Entails.of_eq (StableHlo.held_sub_split (T d) hS6 (VA m d))) $$ Hheld'
  icases Hh with ⟨H6, -⟩
  ihave H6' := (Entails.of_eq (held_S6 d (VA m d))) $$ H6
  icases H6' with ⟨Ha0, Ha1, Hx, Hi, Ho, Hr⟩
  rw [wp_bind]
  iapply ((K (F := F)).wp_run (D (F := F)) 𝒱 (EH := EH) (P := P m) κ d 0) $$ [Hst Hx Hi Ho Hb Ha0 Ha1 Hr]
  isplitr; · iexact Hctx
  isplitl [Hst]; · iexact Hst
  isplitl [Hx Hi Ho]
  · rw [st0_eq]
    ihave Hx' := (pointsTo_toks_split fullShare ((K (F := F)).nCore 0)) $$ Hx
    icases Hx' with ⟨-, Hxs⟩
    ihave Hi' := (pointsTo_toks_split fullShare ((K (F := F)).nCore 0)) $$ Hi
    icases Hi' with ⟨-, His⟩
    ihave Ho' := (Entails.of_eq (oPts_split d (Os m d))) $$ Ho
    isplitl [Hxs]; · iexact Hxs
    isplitl [His]; · iexact His
    iexact Ho'
  iintro ⟨Hst, Hdn⟩
  ihave Ho := ((Entails.of_eq (dn0_eq m d)).trans (Entails.of_eq (oPts_split d (Gout m d)).symm)) $$ Hdn
  iapply (StableHlo.wp_seq 𝒱 none Set.univ d S2 _ hostOps1 hsub1 hfresh1 (V2 m d)) $$ [Hb Ho Hr]
  · isplitl [Hb]; · iexact Hb
    rw [held_S2]
    isplitl [Ho]
    · rw [show V2 m d o' = Gout m d from Function.update_self _ _ _]; iexact Ho
    · rw [show V2 m d r' = VA m d r' from Function.update_of_ne (show r' ≠ o' by decide) _ _]; iexact Hr
  iintro ⟨Hb, Hheld⟩
  ihave H2 := (Entails.of_eq (held_S2 d (after hostOps1 (V2 m d)))) $$ Hheld
  icases H2 with ⟨-, Hr⟩
  rw [wp_pure]; imodintro
  isplitl [Hst]; · iexact Hst
  isplitl [Ha0]; · iexact Ha0
  isplitl [Ha1]; · iexact Ha1
  iexact Hr

/-! ## What the final memory reads -/

def fq (d : Dev nD) (s' : Phys nD τ sig (Elt F)) : Prop :=
  s'.mem.mem (a0Loc d) = VA m d a0' ∧ s'.mem.mem (a1Loc d) = VA m d a1' ∧ s'.mem.mem (rLoc d) = Res m d

theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := VA m d a0'))) $$ [HSI Ha0]
  · isplitl [HSI] <;> iassumption
  icases H with ⟨%h1, HSI, -⟩
  ihave H := (persistent_entails_right (SI_pointsTo_agree (st := s') (ℓ := a1Loc d) (I := Finset.univ) (q := fullShare) (f := VA m d a1'))) $$ [HSI Ha1]
  · isplitl [HSI] <;> iassumption
  icases H with ⟨%h2, HSI, -⟩
  ihave H := (SI_pointsTo_agree (st := s') (ℓ := rLoc d) (I := Finset.univ) (q := fullShare) (f := Res m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- No host operation writes an argument. -/
theorem VA_arg0 (d : Dev nD) : VA m d a0' = m (a0Loc d) := by
  unfold VA
  simp only [StableHlo.after_cons, StableHlo.after_nil]
  rfl
theorem VA_arg1 (d : Dev nD) : VA m d a1' = m (a1Loc d) := by
  unfold VA
  simp only [StableHlo.after_cons, StableHlo.after_nil]
  rfl

end Cert.Proof.KI

end
-- ==== Proof.KI.PreOK.lean ====
/-
  Why every copy finds its row. The precondition bounds the permutation's words in [0, 191]; the row table the
  host builds is idx[192 b + j] = 192 b + permutation[j] (no wrap-around: below 1536), so each of its words
  names a row of the source.
-/
import proofs.«204285_g3204045603007_cont_8to1_b_1238_19_alg».proof.Proof.KI.Pay
import Idealize.ShloMosaic.Lib.ReduceAll
import Idealize.ShloMosaic.Lib.Affine
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

open Idealize.ShloMosaic.ValueIdx (ix0 ix1 ix2 ix3)
open Idealize.ShloMosaic.StableHlo (after launchContents)

variable (m : (ℓ : Loc nD τ sig) → Buf (Elt F) ℓ)

variable [FloatOps F]

instance : Subsingleton Cert.Pre_input_domain.S_.Idx := ⟨fun a b => funext fun d => d.elim0⟩

/-- The precondition's second half: every word of the permutation lies in [0, 191]. -/
theorem perm_le [hP : Cert.Pre_input_domain.Facts] (x : Cert.Pre_input_domain.S8x192x224x224.Idx → Elt F .f32) (p : Cert.Pre_input_domain.S192.Idx → BitVec 32)
    (h : Cert.Pre_input_domain.fn (F := F) x p = fun _ => 1#1) (j : Cert.Pre_input_domain.S192.Idx) : (p j).toNat ≤ 191 := by
  have e := congrFun h ix0
  dsimp only [Cert.Pre_input_domain.fn] at e
  obtain ⟨-, e2⟩ := IntOp.andi_eq_one.mp (show IntOp.andi _ _ = 1#1 from e)
  have e3 := Host.reduce_andi_all _ _ _ _ ix0 e2 j
  obtain ⟨g1, g2⟩ := IntOp.andi_eq_one.mp (show IntOp.andi _ _ = 1#1 from e3)
  have g1' := IntOp.cmpi_sge.mp (show IntOp.cmpi .sge (p j) 0#32 = 1#1 from g1)
  have g2' := IntOp.cmpi_sle.mp (show IntOp.cmpi .sle (p j) 191#32 = 1#1 from g2)
  have h0 : (0#32 : BitVec 32).toInt = 0 := by decide
  have h191 : (191#32 : BitVec 32).toInt = 191 := by decide
  rw [h0] at g1'
  rw [h191] at g2'
  have hlt := (p j).isLt
  rw [BitVec.toInt_eq_toNat_cond] at g1' g2'
  split_ifs at g1' g2' <;> omega

/-- The row table, as the host operations compute it. -/
theorem Ix_eq (d : Dev nD) :
    Ix m d = shapeCast S1536 (addi
        (broadcastInDim S8x192 ![0, 1] bcast_S8x1_S8x192_0_1 (muli (broadcastInDim S8x1 ![0] bcast_S8_S8x1_0 (iotaInDim S8 32 0))
          (broadcastInDim S8x1 ![] bcast_S_S8x1 (constantI S_ 32 192#32))))
        (broadcastInDim S8x192 ![0, 1] bcast_S1x192_S8x192_0_1 (broadcastInDim S1x192 ![1] bcast_S192_S1x192_1
          (m ((SparseCore.T d).loc main_arg1) : S192.Idx → BitVec 32)))) shapeCasts_S8x192_S1536 := by
  show after hostOps0 (launchContents m d) (Proc.devRef .tc main_v9) = _
  after_results
  rfl

/-- Word `r` of the row table: `192 (r / 192) + permutation[r mod 192]`, with no wrap-around. -/
theorem Ix_val (d : Dev nD) (hperm : ∀ j : S192.Idx, BitVec.toNat ((m ((SparseCore.T d).loc main_arg1) : S192.Idx → BitVec 32) j) ≤ 191)
    (r : S1536.Idx) :
    BitVec.toNat (Ix m d r) = 192 * ((r 0).val / 192)
      + BitVec.toNat ((m ((SparseCore.T d).loc main_arg1) : S192.Idx → BitVec 32) (ix1 (⟨(r 0).val % 192, Nat.mod_lt _ (by decide)⟩ : Fin 192))) := by
  have hr : (r 0).val < 1536 := (r 0).isLt
  have hb : (r 0).val / 192 < 8 := by omega
  have hw := hperm (ix1 (⟨(r 0).val % 192, Nat.mod_lt _ (by decide)⟩ : Fin 192))
  rw [Ix_eq]
  rw [shapeCast_apply _ _ r (ix2 (⟨(r 0).val / 192, hb⟩ : Fin 8) (⟨(r 0).val % 192, Nat.mod_lt _ (by decide)⟩ : Fin 192))
    (by rw [Shape.rowMajor_val_two, Shape.rowMajor_val_one]; show (r 0).val / 192 * 192 + (r 0).val % 192 = (r 0).val; omega)]
  have eA : broadcastInDim S8x192 ![0, 1] bcast_S8x1_S8x192_0_1 (muli (broadcastInDim S8x1 ![0] bcast_S8_S8x1_0 (iotaInDim S8 32 0))
        (broadcastInDim S8x1 ![] bcast_S_S8x1 (constantI S_ 32 192#32))) (ix2 (⟨(r 0).val / 192, hb⟩ : Fin 8) (⟨(r 0).val % 192, Nat.mod_lt _ (by decide)⟩ : Fin 192))
      = IntOp.muli (BitVec.ofNat 32 ((r 0).val / 192)) 192#32 := by
    rw [broadcastInDim_apply _ _ _ _ (ix2 (⟨(r 0).val / 192, hb⟩ : Fin 8) (0 : Fin 1)) (fun a => by match a with | ⟨0, _⟩ => rfl | ⟨1, _⟩ => rfl)]
    show IntOp.muli (broadcastInDim S8x1 ![0] bcast_S8_S8x1_0 (iotaInDim S8 32 0) (ix2 (⟨(r 0).val / 192, hb⟩ : Fin 8) (0 : Fin 1))) 192#32 = _
    rw [broadcastInDim_apply _ _ _ _ (ix1 (⟨(r 0).val / 192, hb⟩ : Fin 8)) (fun a => by match a with | ⟨0, _⟩ => rfl)]
    rfl
  have eB : broadcastInDim S8x192 ![0, 1] bcast_S1x192_S8x192_0_1 (broadcastInDim S1x192 ![1] bcast_S192_S1x192_1
        (m ((SparseCore.T d).loc main_arg1) : S192.Idx → BitVec 32)) (ix2 (⟨(r 0).val / 192, hb⟩ : Fin 8) (⟨(r 0).val % 192, Nat.mod_lt _ (by decide)⟩ : Fin 192))
      = (m ((SparseCore.T d).loc main_arg1) : S192.Idx → BitVec 32) (ix1 (⟨(r 0).val % 192, Nat.mod_lt _ (by decide)⟩ : Fin 192)) := by
    rw [broadcastInDim_apply _ _ _ _ (ix2 (0 : Fin 1) (⟨(r 0).val % 192, Nat.mod_lt _ (by decide)⟩ : Fin 192)) (fun a => by match a with | ⟨0, _⟩ => rfl | ⟨1, _⟩ => rfl)]
    rw [broadcastInDim_apply _ _ _ _ (ix1 (⟨(r 0).val % 192, Nat.mod_lt _ (by decide)⟩ : Fin 192)) (fun a => by match a with | ⟨0, _⟩ => rfl)]
  show BitVec.toNat (IntOp.addi _ _) = _
  rw [eA, eB]
  simp only [IntOp.addi, IntOp.muli, BitVec.toNat_add, BitVec.toNat_mul, BitVec.toNat_ofNat, Nat.reducePow, Nat.reduceMod]
  omega

/-- So the precondition gives what the proof asks of the launch memory. -/
theorem preOK_of_perm (hperm : ∀ (d : Dev nD) (j : S192.Idx), BitVec.toNat ((m ((SparseCore.T d).loc main_arg1) : S192.Idx → BitVec 32) j) ≤ 191) : PreOK m := by
  intro d r
  have hr : (r 0).val < 1536 := (r 0).isLt
  have hw := hperm d (ix1 (⟨(r 0).val % 192, Nat.mod_lt _ (by decide)⟩ : Fin 192))
  rw [Ix_val m d (hperm d) r]
  omega

end Cert.Proof.KI

end
-- ==== Proof.KI.Run.lean ====
/-
  The program's run: the launch theorem at the one vector-subcore call — the tiles' obligation, the split of the
  call's operands among them, the launch element, @main — gives that every weakly fair execution of the device's 35
  threads terminates, nothing faulting, the arguments unchanged and the result the rows the table names, reshaped.
-/
import proofs.«204285_g3204045603007_cont_8to1_b_1238_19_alg».proof.Proof.KI.Obl
import proofs.«204285_g3204045603007_cont_8to1_b_1238_19_alg».proof.Proof.KI.Main
import proofs.«204285_g3204045603007_cont_8to1_b_1238_19_alg».proof.Proof.KI.PreOK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

variable (m : (ℓ : Loc nD τ sig) → Buf (Elt F) ℓ) (ρ : Dev nD → PrngReg)

variable [FloatOps F]

theorem run_main [∀ e, Nonempty (Elt F e)] (hpre : PreOK m) :
    θ_run (Cert.KernelIdeal.defs (F := F)) (Cert.KernelIdeal.threads (F := F)) ⟨m, fun _ => 0, ρ⟩
      (fun r => ∀ c : Dev nD, r.2.mem (rLoc c) = Res m c ∧ r.2.mem (a0Loc c) = m (a0Loc c) ∧ r.2.mem (a1Loc c) = m (a1Loc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (sep_elim_left.trans (hu₀ m)) (hmain m ρ) (fq m) (hfin m) _
    (fun s' h c => ⟨(h c).2.2, (h c).1.trans (VA_arg0 m c), (h c).2.1.trans (VA_arg1 m c)⟩)

/-- The precondition — every float finite, every word of the permutation in [0, 191] — gives what the run asks. -/
theorem preOK_of_pre [hP : Cert.Pre_input_domain.Facts]
    (h : ∀ c : Dev nD, Cert.Pre_input_domain.fn (F := F) (m ((c.tc : Thread nD τ).loc main_arg0)) (m ((c.tc : Thread nD τ).loc main_arg1)) = fun _ => 1#1) :
    PreOK m :=
  preOK_of_perm m fun d j => perm_le _ _ (h d) j

end Cert.Proof.KI

end
-- ==== Proof.KI.Value.lean ====
/-
  What the program's result holds, element by element. The source rows are the first argument reshaped to 1536
  rows; row 192 b + c of the call's result is source row idx[192 b + c] = 192 b + permutation[c]; the program's
  result is that reshaped back: element (b, c, h, w) is x[b, permutation[c], h, w].
-/
import proofs.«204285_g3204045603007_cont_8to1_b_1238_19_alg».proof.Proof.KI.Main
import proofs.«204285_g3204045603007_cont_8to1_b_1238_19_alg».proof.Proof.KI.PreOK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x224x224 EltTy.f32)
local notation "iV" => (Memref.whole Cert.KernelIdeal.main_v9_scv : Memref Cert.KernelIdeal.sig Kind.scVector Space.hbm Cert.KernelIdeal.S1536 EltTy.i32)
local notation "oV" => (Memref.whole Cert.KernelIdeal.main_v10_scv : Memref Cert.KernelIdeal.sig Kind.scVector Space.hbm Cert.KernelIdeal.S1536x224x224 EltTy.f32)
local notation "sI" => (Memref.whole Cert.KernelIdeal.cc0_scratch0 : Memref Cert.KernelIdeal.sig Kind.scVector Space.vmem Cert.KernelIdeal.S48 EltTy.i32)
local notation "shV" => (Memref.whole Cert.KernelIdeal.cc0_scratch1 : Memref Cert.KernelIdeal.sig Kind.scVector Space.shared Cert.KernelIdeal.S16x2x1x224x224 EltTy.f32)

open Idealize.ShloMosaic.ValueIdx (ix0 ix1 ix2 ix3 ix4)
open Idealize.ShloMosaic.StableHlo (after launchContents)

variable (m : (ℓ : Loc nD τ sig) → Buf (Elt F) ℓ)

variable [FloatOps F]

/-- The source rows are the first argument reshaped; the program's result is the call's result reshaped. -/
theorem Xs_eq (d : Dev nD) :
    Xs m d = shapeCast S1536x224x224 (m (a0Loc d) : S8x192x224x224.Idx → Elt F .f32) shapeCasts_S8x192x224x224_S1536x224x224 := by
  show after hostOps0 (launchContents m d) (Proc.devRef .tc main_v0) = _
  after_results
  rfl

theorem Res_eq (d : Dev nD) :
    Res m d = shapeCast S8x192x224x224 (Gout m d : S1536x224x224.Idx → Elt F .f32) shapeCasts_S1536x224x224_S8x192x224x224 := by
  show after hostOps1 (V2 m d) (Proc.devRef .tc main_v11) = _
  after_results
  show shapeCast S8x192x224x224 (V2 m d o') _ = _
  rw [show V2 m d o' = Gout m d from Function.update_self _ _ _]

/-- Element (b, c, h, w) of the program's result is x[b, permutation[c], h, w]. -/
theorem Res_apply (d : Dev nD) (hperm : ∀ j : S192.Idx, BitVec.toNat ((m ((SparseCore.T d).loc main_arg1) : S192.Idx → BitVec 32) j) ≤ 191)
    (b : Fin 8) (c : Fin 192) (h : Fin 224) (w : Fin 224) :
    (Res m d : S8x192x224x224.Idx → Elt F .f32) (ix4 b c h w)
      = (m (a0Loc d) : S8x192x224x224.Idx → Elt F .f32) (ix4 b
          (⟨BitVec.toNat ((m ((SparseCore.T d).loc main_arg1) : S192.Idx → BitVec 32) (ix1 c)), Nat.lt_succ_of_le (hperm _)⟩ : Fin 192) h w) := by
  have h0 : b.val < 8 := b.isLt
  have h1 : c.val < 192 := c.isLt
  have hw := hperm (ix1 c)
  have hR : 192 * b.val + c.val < 1536 := by omega
  rw [Res_eq]
  refine (shapeCast_apply _ _ (ix4 b c h w) (ix3 (⟨192 * b.val + c.val, hR⟩ : Fin 1536) h w)
    (by rw [Shape.rowMajor_val_three, Shape.rowMajor_val_four]
        show ((192 * b.val + c.val) * 224 + h.val) * 224 + w.val = ((b.val * 192 + c.val) * 224 + h.val) * 224 + w.val
        omega)).trans ?_
  have hv := Ix_val m d hperm (ix1 (⟨192 * b.val + c.val, hR⟩ : Fin 1536))
  have e1 : (192 * b.val + c.val) / 192 = b.val := by omega
  have e2 : (192 * b.val + c.val) % 192 = c.val := by omega
  have hj1 : (ix1 (⟨(192 * b.val + c.val) % 192, Nat.mod_lt _ (by decide)⟩ : Fin 192) : S192.Idx) = ix1 c := by
    congr 1; exact Fin.ext e2
  have hv' : BitVec.toNat (Ix m d (ix1 (⟨192 * b.val + c.val, hR⟩ : Fin 1536)))
      = 192 * b.val + BitVec.toNat ((m ((SparseCore.T d).loc main_arg1) : S192.Idx → BitVec 32) (ix1 c)) := by
    rw [hv]
    show 192 * ((192 * b.val + c.val) / 192) + BitVec.toNat ((m ((SparseCore.T d).loc main_arg1) : S192.Idx → BitVec 32)
      (ix1 (⟨(192 * b.val + c.val) % 192, _⟩ : Fin 192))) = _
    rw [e1, hj1]
  show Xs m d (ix3 (⟨BitVec.toNat (Ix m d (ix1 (⟨192 * b.val + c.val, hR⟩ : Fin 1536))) % 1536, _⟩ : Fin 1536) h w) = _
  rw [Xs_eq]
  refine shapeCast_apply (s := S8x192x224x224) (t := S1536x224x224) _ _ _ _ ?_
  show (S8x192x224x224.rowMajor (ix4 b (⟨BitVec.toNat ((m ((SparseCore.T d).loc main_arg1) : S192.Idx → BitVec 32) (ix1 c)), Nat.lt_succ_of_le (hperm _)⟩ : Fin 192) h w)).val
    = (S1536x224x224.rowMajor (ix3 (⟨BitVec.toNat (Ix m d (ix1 (⟨192 * b.val + c.val, hR⟩ : Fin 1536))) % 1536, Nat.mod_lt _ (by decide)⟩ : Fin 1536) h w)).val
  rw [Shape.rowMajor_val_three, Shape.rowMajor_val_four]
  show ((b.val * 192 + BitVec.toNat ((m ((SparseCore.T d).loc main_arg1) : S192.Idx → BitVec 32) (ix1 c))) * 224 + h.val) * 224 + w.val
    = ((BitVec.toNat (Ix m d (ix1 (⟨192 * b.val + c.val, hR⟩ : Fin 1536))) % 1536) * 224 + h.val) * 224 + w.val
  rw [hv']
  omega

end Cert.Proof.KI

end
-- ==== Proof.Ref.lean ====
/-
  The reference, run: @main is one straight line of host operations (jnp.take's index normalisation, its
  bounds mask, the gather, the masked select), so every weakly fair execution ends with each buffer at the
  line's fold over the launch memory; and the result, read back, is the select of the gather.
-/
import proofs.«204285_g3204045603007_cont_8to1_b_1238_19_alg».proof.Defs
import proofs.«204285_g3204045603007_cont_8to1_b_1238_19_alg».proof.Proof.Gen.ReferenceIdeal
import Idealize.ShloMosaic.Lib.StableHlo.Run

noncomputable section

namespace Cert.Proof.Ref

open Cert.ReferenceIdeal Cert.ReferenceIdeal.Gen
open Idealize.ShloMosaic Idealize.SL.Sem
open Idealize.ShloMosaic.StableHlo

variable {F : FTy → Type} [FloatOps F]

/-- @main's operations, in order: the function it calls and the one that one calls, at their call sites. -/
abbrev ops : List (HloOp τ sig (Elt F)) :=
  [ StableHlo.TRef.nullary main_call0.c (constantI S_ 32 0#32),
    StableHlo.TRef.unary main_call0.c main_call0.v0 (broadcastInDim S192 ![] bcast_S_S192),
    StableHlo.TRef.binary (.of main_arg1) main_call0.v0 main_call0.v1 (cmpi .slt),
    StableHlo.TRef.nullary main_call0.c_0 (constantI S_ 32 192#32),
    StableHlo.TRef.unary main_call0.c_0 main_call0.v2 (broadcastInDim S192 ![] bcast_S_S192),
    StableHlo.TRef.binary (.of main_arg1) main_call0.v2 main_call0.v3 addi,
    StableHlo.TRef.ternary main_call0.v1 main_call0.v3 (.of main_arg1) main_call0.call0.v0 select,
    StableHlo.TRef.unary main_call0.call0.v0 main_call0.v5 (broadcastInDim S192x1 ![0] bcast_S192_S192x1_0),
    StableHlo.TRef.nullary main_call0.c_1 (constantI S1 32 191#32),
    StableHlo.TRef.nullary main_call0.c_2 (constantI S_ 32 0#32),
    StableHlo.TRef.unary main_call0.c_2 main_call0.v6 (broadcastInDim S192x1 ![] bcast_S_S192x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S192x1 ![0, 1] bcast_S1x1_S192x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S192x1_S192_d1 h_S_),
    StableHlo.TRef.binary (.of main_arg0) main_call0.v5 main_call0.v13 (fun x i => Host.gather gather_S8x192x224x224_S192x1_S8x192x224x224_023_1_n_n_1_1_81224224 x i),
    StableHlo.TRef.unary main_call0.v12 main_call0.v14 (broadcastInDim S8x192x224x224 ![1] bcast_S192_S8x192x224x224_1),
    StableHlo.TRef.nullary main_call0.cst (constant S_ .f32 0x7FC00000#32),
    StableHlo.TRef.unary main_call0.cst main_call0.v15 (broadcastInDim S8x192x224x224 ![] bcast_S_S8x192x224x224),
    StableHlo.TRef.ternary main_call0.v14 main_call0.v13 main_call0.v15 main_call0.v16 select ]

set_option maxRecDepth 1024 in
/-- @main is that straight line. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Every weakly fair execution of the reference terminates, each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The reference's result as a function of its arguments. -/
def refOut (x : S8x192x224x224.Idx → Elt F .f32) (p : S192.Idx → BitVec 32) : S8x192x224x224.Idx → Elt F .f32 :=
  let q : S192.Idx → BitVec 32 := select (cmpi .slt p (broadcastInDim S192 ![] bcast_S_S192 (constantI S_ 32 0#32)))
    (addi p (broadcastInDim S192 ![] bcast_S_S192 (constantI S_ 32 192#32))) p
  let q5 : S192x1.Idx → BitVec 32 := broadcastInDim S192x1 ![0] bcast_S192_S192x1_0 q
  let ok : S192x1.Idx → BitVec 1 := andi (cmpi .sge q5 (broadcastInDim S192x1 ![] bcast_S_S192x1 (constantI S_ 32 0#32)))
    (cmpi .sle q5 (broadcastInDim S192x1 ![0, 1] bcast_S1x1_S192x1_0_1 (broadcastInDim S1x1 ![1] bcast_S1_S1x1_1 (constantI S1 32 191#32))))
  select (broadcastInDim S8x192x224x224 ![1] bcast_S192_S8x192x224x224_1 (Host.reduce IntOp.andi ok (constantI S_ 1 1#1) reducesTo_S192x1_S192_d1 h_S_))
    (Host.gather gather_S8x192x224x224_S192x1_S8x192x224x224_023_1_n_n_1_1_81224224 x q5)
    (broadcastInDim S8x192x224x224 ![] bcast_S_S8x192x224x224 (constant S_ .f32 0x7FC00000#32))

attribute [local irreducible] Host.reduce Host.gather in
set_option maxRecDepth 8192 in
set_option maxHeartbeats 4000000 in
theorem out_eq (V : Valuation τ sig (Elt F)) :
    after ops V (Proc.devRef .tc main_v0) = refOut (V (Proc.devRef .tc main_arg0)) (V (Proc.devRef .tc main_arg1)) := by
  simp only [after_cons, after_nil]
  rfl

theorem arg0_eq (V : Valuation τ sig (Elt F)) : after ops V (Proc.devRef .tc main_arg0) = V (Proc.devRef .tc main_arg0) := by
  simp only [after_cons, after_nil]
  rfl
theorem arg1_eq (V : Valuation τ sig (Elt F)) : after ops V (Proc.devRef .tc main_arg1) = V (Proc.devRef .tc main_arg1) := by
  simp only [after_cons, after_nil]
  rfl

end Cert.Proof.Ref

end
-- ==== Proof.RefValue.lean ====
/-
  The reference's result, element by element, where every word of the permutation lies in [0, 191]: jnp.take's
  negative-index normalisation changes nothing, its bounds mask is all ones, the gather's clamp is idle — element
  (b, c, h, w) is x[b, permutation[c], h, w].
-/
import proofs.«204285_g3204045603007_cont_8to1_b_1238_19_alg».proof.Proof.Ref
import Idealize.ShloMosaic.Lib.ValueIdx
import Idealize.ShloMosaic.Lib.Pipeline.Value
import Idealize.ShloMosaic.Lib.ReduceAll
import Idealize.ShloMosaic.Lib.Affine

noncomputable section

namespace Cert.Proof.Ref

open Cert.ReferenceIdeal Cert.ReferenceIdeal.Gen
open Idealize.ShloMosaic Idealize.SL.Sem
open Idealize.ShloMosaic.ValueIdx (ix0 ix1 ix2 ix4)

variable {F : FTy → Type} [FloatOps F]

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_ones f l fun n hn => h n (List.mem_cons_of_mem _ hn)

/-- A reduce by `and`, from 1, of an operand that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun n _ => hx n

/-- The gather read at (b, c, h, w): the operand at (b, the start index idx[c, 0] read signed and clamped into [0, 191], h, w). -/
theorem gather_apply {α : Type} (x : S8x192x224x224.Idx → α) (q5 : S192x1.Idx → BitVec 32) (j : S8x192x224x224.Idx) :
    Host.gather gather_S8x192x224x224_S192x1_S8x192x224x224_023_1_n_n_1_1_81224224 x q5 j
      = x (ix4 (j 0) (⟨min (q5 (ix2 (j 1) (0 : Fin 1))).toInt.toNat 191, by omega⟩ : Fin 192) (j 2) (j 3)) := by
  unfold Host.gather
  congr 1
  funext a
  refine Fin.ext ?_
  show gather_S8x192x224x224_S192x1_S8x192x224x224_023_1_n_n_1_1_81224224.start j q5 a + gather_S8x192x224x224_S192x1_S8x192x224x224_023_1_n_n_1_1_81224224.batchCoord j a + gather_S8x192x224x224_S192x1_S8x192x224x224_023_1_n_n_1_1_81224224.offCoord j a = _
  match a with
  | ⟨0, _⟩ =>
    show gather_S8x192x224x224_S192x1_S8x192x224x224_023_1_n_n_1_1_81224224.start j q5 (0 : Fin 4) + gather_S8x192x224x224_S192x1_S8x192x224x224_023_1_n_n_1_1_81224224.batchCoord j (0 : Fin 4) + gather_S8x192x224x224_S192x1_S8x192x224x224_023_1_n_n_1_1_81224224.offCoord j (0 : Fin 4) = (j 0).val
    have hs : gather_S8x192x224x224_S192x1_S8x192x224x224_023_1_n_n_1_1_81224224.start j q5 (0 : Fin 4) = 0 := by unfold GatherDims.start; rw [dif_neg (by decide)]
    have ho : gather_S8x192x224x224_S192x1_S8x192x224x224_023_1_n_n_1_1_81224224.offCoord j (0 : Fin 4) = (j 0).val := by unfold GatherDims.offCoord; rw [dif_pos (by decide)]; rfl
    rw [GatherDims.batchCoord_eq_zero _ _ _ (by decide), hs, ho]; omega
  | ⟨1, _⟩ =>
    show gather_S8x192x224x224_S192x1_S8x192x224x224_023_1_n_n_1_1_81224224.start j q5 (1 : Fin 4) + gather_S8x192x224x224_S192x1_S8x192x224x224_023_1_n_n_1_1_81224224.batchCoord j (1 : Fin 4) + gather_S8x192x224x224_S192x1_S8x192x224x224_023_1_n_n_1_1_81224224.offCoord j (1 : Fin 4) = min (q5 (ix2 (j 1) (0 : Fin 1))).toInt.toNat 191
    rw [GatherDims.batchCoord_eq_zero _ _ _ (by decide), GatherDims.offCoord_eq_zero _ _ _ (by decide)]
    show gather_S8x192x224x224_S192x1_S8x192x224x224_023_1_n_n_1_1_81224224.start j q5 (1 : Fin 4) = min (q5 (ix2 (j 1) (0 : Fin 1))).toInt.toNat 191
    unfold GatherDims.start
    rw [dif_pos (by decide)]
    have hsi : gather_S8x192x224x224_S192x1_S8x192x224x224_023_1_n_n_1_1_81224224.siIdx j ⟨List.idxOf (1 : Fin 4) gather_S8x192x224x224_S192x1_S8x192x224x224_023_1_n_n_1_1_81224224.startIndexMap,
        List.idxOf_lt_length_iff.2 (by decide)⟩ = ix2 (j 1) (0 : Fin 1) := by
      funext b; refine Fin.ext ?_
      match b with
      | ⟨0, _⟩ => rfl
      | ⟨1, _⟩ => rfl
    rw [hsi]
    rfl
  | ⟨2, _⟩ =>
    show gather_S8x192x224x224_S192x1_S8x192x224x224_023_1_n_n_1_1_81224224.start j q5 (2 : Fin 4) + gather_S8x192x224x224_S192x1_S8x192x224x224_023_1_n_n_1_1_81224224.batchCoord j (2 : Fin 4) + gather_S8x192x224x224_S192x1_S8x192x224x224_023_1_n_n_1_1_81224224.offCoord j (2 : Fin 4) = (j 2).val
    have hs : gather_S8x192x224x224_S192x1_S8x192x224x224_023_1_n_n_1_1_81224224.start j q5 (2 : Fin 4) = 0 := by unfold GatherDims.start; rw [dif_neg (by decide)]
    have ho : gather_S8x192x224x224_S192x1_S8x192x224x224_023_1_n_n_1_1_81224224.offCoord j (2 : Fin 4) = (j 2).val := by unfold GatherDims.offCoord; rw [dif_pos (by decide)]; rfl
    rw [GatherDims.batchCoord_eq_zero _ _ _ (by decide), hs, ho]; omega
  | ⟨3, _⟩ =>
    show gather_S8x192x224x224_S192x1_S8x192x224x224_023_1_n_n_1_1_81224224.start j q5 (3 : Fin 4) + gather_S8x192x224x224_S192x1_S8x192x224x224_023_1_n_n_1_1_81224224.batchCoord j (3 : Fin 4) + gather_S8x192x224x224_S192x1_S8x192x224x224_023_1_n_n_1_1_81224224.offCoord j (3 : Fin 4) = (j 3).val
    have hs : gather_S8x192x224x224_S192x1_S8x192x224x224_023_1_n_n_1_1_81224224.start j q5 (3 : Fin 4) = 0 := by unfold GatherDims.start; rw [dif_neg (by decide)]
    have ho : gather_S8x192x224x224_S192x1_S8x192x224x224_023_1_n_n_1_1_81224224.offCoord j (3 : Fin 4) = (j 3).val := by unfold GatherDims.offCoord; rw [dif_pos (by decide)]; rfl
    rw [GatherDims.batchCoord_eq_zero _ _ _ (by decide), hs, ho]; omega

open Idealize.ShloMosaic.ValueIdx (select_one select_zero eq_zero_of_ne_one select_apply)

/-- A word whose unsigned value is at most 191 is that value read signed. -/
theorem toInt_small (v : BitVec 32) (h : v.toNat ≤ 191) : v.toInt = (v.toNat : Int) := by
  rw [BitVec.toInt_eq_toNat_cond]
  split_ifs <;> omega

/-- The bounds mask at an index whose start index lies in [0, 191] is 1. -/
theorem ok_one (q5 : S192x1.Idx → BitVec 32) (i : S192x1.Idx) (hlo : 0 ≤ (q5 i).toInt) (hhi : (q5 i).toInt ≤ 191) :
    andi (cmpi .sge q5 (broadcastInDim S192x1 ![] bcast_S_S192x1 (constantI S_ 32 0#32)))
      (cmpi .sle q5 (broadcastInDim S192x1 ![0, 1] bcast_S1x1_S192x1_0_1 (broadcastInDim S1x1 ![1] bcast_S1_S1x1_1 (constantI S1 32 191#32)))) i = 1#1 := by
  have h0 : (0#32 : BitVec 32).toInt = 0 := by decide
  have h191 : (191#32 : BitVec 32).toInt = 191 := by decide
  show IntOp.andi (IntOp.cmpi .sge (q5 i) 0#32) (IntOp.cmpi .sle (q5 i) 191#32) = 1#1
  exact IntOp.andi_eq_one.mpr ⟨IntOp.cmpi_sge.mpr (by rw [h0]; exact hlo), IntOp.cmpi_sle.mpr (by rw [h191]; exact hhi)⟩

/-- With every word of the permutation in [0, 191], element (b, c, h, w) of the reference's result is x[b, permutation[c], h, w]. -/
theorem refOut_apply (x : S8x192x224x224.Idx → Elt F .f32) (p : S192.Idx → BitVec 32) (hp : ∀ j, (p j).toNat ≤ 191)
    (b : Fin 8) (c : Fin 192) (h : Fin 224) (w : Fin 224) :
    refOut x p (ix4 b c h w) = x (ix4 b (⟨(p (ix1 c)).toNat, Nat.lt_succ_of_le (hp _)⟩ : Fin 192) h w) := by
  have h0 : (0#32 : BitVec 32).toInt = 0 := by decide
  -- the normalised indices are the permutation's words
  have hq : ∀ i : S192.Idx, select (cmpi .slt p (broadcastInDim S192 ![] bcast_S_S192 (constantI S_ 32 0#32)))
      (addi p (broadcastInDim S192 ![] bcast_S_S192 (constantI S_ 32 192#32))) p i = p i := by
    intro i
    show Scalar.select (IntOp.cmpi .slt (p i) 0#32) (IntOp.addi (p i) 192#32) (p i) = p i
    have e : IntOp.cmpi .slt (p i) 0#32 = 0#1 := eq_zero_of_ne_one fun e => by
      have := IntOp.cmpi_slt.mp e
      rw [toInt_small _ (hp i), h0] at this
      omega
    rw [e, select_zero]
  have hq5 : ∀ (i0 : Fin 192) (i1 : Fin 1), broadcastInDim S192x1 ![0] bcast_S192_S192x1_0 (select (cmpi .slt p (broadcastInDim S192 ![] bcast_S_S192 (constantI S_ 32 0#32)))
      (addi p (broadcastInDim S192 ![] bcast_S_S192 (constantI S_ 32 192#32))) p) (ix2 i0 i1) = p (ix1 i0) := by
    intro i0 i1
    rw [broadcastInDim_apply _ _ _ (ix2 i0 i1) (ix1 i0) (fun a => by match a with | ⟨0, _⟩ => rfl)]
    exact hq _
  unfold refOut
  dsimp only
  generalize (broadcastInDim S192x1 ![0] bcast_S192_S192x1_0 (select (cmpi .slt p (broadcastInDim S192 ![] bcast_S_S192 (constantI S_ 32 0#32)))
      (addi p (broadcastInDim S192 ![] bcast_S_S192 (constantI S_ 32 192#32))) p)) = q5 at hq5 ⊢
  have hM : ∀ R : S192.Idx → BitVec 1, (∀ k, R k = 1#1) → broadcastInDim S8x192x224x224 ![1] bcast_S192_S8x192x224x224_1 R (ix4 b c h w) = 1#1 := fun R hR => by
    rw [broadcastInDim_apply _ _ _ (ix4 b c h w) (ix1 c) (fun a => by match a with | ⟨0, _⟩ => rfl)]
    exact hR _
  have hok : ∀ i : S192x1.Idx, andi (cmpi .sge q5 (broadcastInDim S192x1 ![] bcast_S_S192x1 (constantI S_ 32 0#32)))
      (cmpi .sle q5 (broadcastInDim S192x1 ![0, 1] bcast_S1x1_S192x1_0_1 (broadcastInDim S1x1 ![1] bcast_S1_S1x1_1 (constantI S1 32 191#32)))) i = 1#1 := by
    intro i
    obtain ⟨i0, i1, rfl⟩ : ∃ (i0 : Fin 192) (i1 : Fin 1), i = ix2 i0 i1 := ⟨i 0, i 1, ValueIdx.eq_ix2 i⟩
    have hv := hp (ix1 i0)
    refine ok_one q5 _ ?_ ?_
    · rw [hq5, toInt_small _ hv]; omega
    · rw [hq5, toInt_small _ hv]; omega
  rw [select_apply, gather_apply, hM _ (fun k => reduce_andi_ones _ _ _ _ hok rfl k), select_one]
  congr 1
  have hv := hp (ix1 c)
  have e : min (q5 (ix2 c (0 : Fin 1))).toInt.toNat 191 = (p (ix1 c)).toNat := by
    rw [hq5 c (0 : Fin 1)]
    rw [toInt_small _ hv]
    omega
  funext a
  match a with
  | ⟨0, _⟩ => rfl
  | ⟨1, _⟩ => exact Fin.ext e
  | ⟨2, _⟩ => rfl
  | ⟨3, _⟩ => rfl

end Cert.Proof.Ref

end
-- ==== Proof.lean ====
/-
  The certificate of the channel gather. The kernel moves rows: x reshaped to 1536 rows of 224 × 224; a row table
  idx[192 b + c] = 192 b + permutation[c]; on the two SparseCores, 32 tiles, tile w moving rows 48 w … 48 w + 47 —
  each fetched from row idx[·] of the source into one of the tile's two slots of shared staging memory and written
  out from there, the next fetch into a slot issued only when its write-out has been waited for, one copy at a time
  on each semaphore. Every word of the table names a row (the precondition bounds the permutation in [0, 191]), so
  no copy is abandoned: every weakly fair execution of the 35 threads terminates, the arguments untouched, and the
  result, reshaped back, holds x[b, permutation[c], h, w] at (b, c, h, w). The reference is jnp.take along axis 1:
  a straight line of host operations whose normalisation and bounds mask are idle on such indices, its gather
  reading x[b, permutation[c], h, w] — the same function. The idealization rewrote nothing.
-/
import proofs.«204285_g3204045603007_cont_8to1_b_1238_19_alg».proof.Defs
import proofs.«204285_g3204045603007_cont_8to1_b_1238_19_alg».proof.Proof.Gen.Kernel
import proofs.«204285_g3204045603007_cont_8to1_b_1238_19_alg».proof.Proof.Gen.Kernel.Skeleton
import proofs.«204285_g3204045603007_cont_8to1_b_1238_19_alg».proof.Proof.Gen.KernelIdeal
import proofs.«204285_g3204045603007_cont_8to1_b_1238_19_alg».proof.Proof.Gen.KernelIdeal.Skeleton
import proofs.«204285_g3204045603007_cont_8to1_b_1238_19_alg».proof.Proof.Gen.ReferenceIdeal
import proofs.«204285_g3204045603007_cont_8to1_b_1238_19_alg».proof.Proof.Gen.Pre_input_domain
import proofs.«204285_g3204045603007_cont_8to1_b_1238_19_alg».proof.Proof.KB.Run
import proofs.«204285_g3204045603007_cont_8to1_b_1238_19_alg».proof.Proof.KI.Run
import proofs.«204285_g3204045603007_cont_8to1_b_1238_19_alg».proof.Proof.KI.Value
import proofs.«204285_g3204045603007_cont_8to1_b_1238_19_alg».proof.Proof.Ref
import proofs.«204285_g3204045603007_cont_8to1_b_1238_19_alg».proof.Proof.RefValue
import Idealize.ShloMosaic.Adequacy
import Idealize.ShloMosaic.Init

noncomputable section

namespace Cert.Proof

open Idealize.ShloMosaic Idealize.SL.Sem
open Idealize.ShloMosaic.ValueIdx (ix1 ix4)

/-- The word-level kernel runs to its end and leaves its arguments. -/
theorem frame_k : Cert.frame_Kernel (hKernel := Cert.Kernel.Gen.facts) (hPre_input_domain := Cert.Pre_input_domain.Gen.facts) := fun m g hpre =>
  (θ_run Cert.Kernel.defs _ _).mono (fun _ h c => ⟨(h c).2.1, (h c).2.2⟩) (KB.run_main (F := Bits) m g (KB.preOK_of_pre m hpre))

/-- So does the idealized kernel. -/
theorem frame_ki : Cert.frame_KernelIdeal (hKernelIdeal := Cert.KernelIdeal.Gen.facts) (hPre_input_domain := Cert.Pre_input_domain.Gen.facts) := fun m g hpre =>
  (θ_run Cert.KernelIdeal.defs _ _).mono (fun _ h c => ⟨(h c).2.1, (h c).2.2⟩) (KI.run_main (F := Ideal) m g (KI.preOK_of_pre m hpre))

/-- And the reference: its line of host operations writes neither argument. -/
theorem frame_ri : Cert.frame_ReferenceIdeal (hReferenceIdeal := Cert.ReferenceIdeal.Gen.facts) (hPre_input_domain := Cert.Pre_input_domain.Gen.facts) := fun m g _ =>
  (θ_run Cert.ReferenceIdeal.defs _ _).mono
    (fun _ h c => ⟨(h c Cert.ReferenceIdeal.main_arg0).trans (Ref.arg0_eq _), (h c Cert.ReferenceIdeal.main_arg1).trans (Ref.arg1_eq _)⟩)
    (Ref.run_main (F := Ideal) m g)

/-- The two results are one function of arguments that agree: x[b, permutation[c], h, w] at (b, c, h, w). -/
theorem results_eq (m : (ℓ : Loc Cert.KernelIdeal.nD Cert.KernelIdeal.τ Cert.KernelIdeal.sig) → Buf (Elt Ideal) ℓ) (c : Dev Cert.KernelIdeal.nD)
    (x' : Cert.ReferenceIdeal.S8x192x224x224.Idx → Elt Ideal .f32) (p' : Cert.ReferenceIdeal.S192.Idx → BitVec 32)
    (hx : x' = m (KI.a0Loc c)) (hp : p' = m (KI.a1Loc c))
    (hperm : ∀ j : Cert.KernelIdeal.S192.Idx, BitVec.toNat ((m ((SparseCore.T c).loc Cert.KernelIdeal.main_arg1) : Cert.KernelIdeal.S192.Idx → BitVec 32) j) ≤ 191) :
    Ref.refOut (F := Ideal) x' p' = KI.Res m c := by
  subst hx; subst hp
  funext j
  obtain ⟨b, cc, hh, w, rfl⟩ : ∃ (b : Fin 8) (cc : Fin 192) (hh : Fin 224) (w : Fin 224), j = ix4 b cc hh w :=
    ⟨j 0, j 1, j 2, j 3, ValueIdx.eq_ix4 j⟩
  rw [Ref.refOut_apply _ _ hperm b cc hh w]
  exact (KI.Res_apply m c hperm b cc hh w).symm

/-- At the ideal instance, from memories agreeing on the arguments, both programs run and end with that one result. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => KI.Res m c, KI.run_main (F := Ideal) m g (KI.preOK_of_pre m hpre), ?_⟩
  refine (θ_run Cert.ReferenceIdeal.defs _ _).mono (fun _ h c => ⟨?_, ?_, ?_⟩) (Ref.run_main (F := Ideal) m' g')
  · refine (h c Cert.ReferenceIdeal.main_v0).trans ((Ref.out_eq _).trans ?_)
    exact results_eq m c _ _ (hagree c).1 (hagree c).2 (fun j => KI.perm_le _ _ (hpre c) j)
  · exact (h c Cert.ReferenceIdeal.main_arg0).trans (Ref.arg0_eq _)
  · exact (h c Cert.ReferenceIdeal.main_arg1).trans (Ref.arg1_eq _)

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
